-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S32000x1024 : Shape := ⟨2, ![32000, 1024]⟩
abbrev S2048x2048 : Shape := ⟨2, ![2048, 2048]⟩
abbrev S32000x2048 : Shape := ⟨2, ![32000, 2048]⟩
abbrev S2048 : Shape := ⟨1, ![2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S32000x2048 : S_.BroadcastsInDim S32000x2048 (![] : Fin 0 → Fin S32000x2048.rank)
  reducesTo_S32000x2048_S_d0_1 : S32000x2048.ReducesTo [0, 1] S_

variable [Facts]

def fn_part1 {F : FTy → Type} [FloatOps F] (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  main_v18

def fn {F : FTy → Type} [FloatOps F] (main_arg0 : FVec F S2048x1024 .f32) (main_arg1 : FVec F S32000x1024 .f32) (main_arg2 : FVec F S2048x2048 .f32) (main_arg3 : FVec F S32000x2048 .f32) (main_arg4 : IVec S2048 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S32000x2048 .f32 := Host.absf main_arg3
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_v13 main_v16
-- ==== Kernel.lean ====
abbrev S2048x1024 : Shape := ⟨2, ![2048, 1024]⟩
abbrev S32000x1024 : Shape := ⟨2, ![32000, 1024]⟩
abbrev S2048x2048 : Shape := ⟨2, ![2048, 2048]⟩
abbrev S32000x2048 : Shape := ⟨2, ![32000, 2048]⟩
abbrev S2048 : Shape := ⟨1, ![2048]⟩
abbrev S2048x1 : Shape := ⟨2, ![2048, 1]⟩
abbrev S512x1024 : Shape := ⟨2, ![512, 1024]⟩
abbrev S128x1024 : Shape := ⟨2, ![128, 1024]⟩
abbrev S512x2048 : Shape := ⟨2, ![512, 2048]⟩
abbrev S128x2048 : Shape := ⟨2, ![128, 2048]⟩
abbrev S512x1 : Shape := ⟨2, ![512, 1]⟩
abbrev S512x128 : Shape := ⟨2, ![512, 128]⟩
abbrev S512 : Shape := ⟨1, ![512]⟩
abbrev S_ : Shape := ⟨0, ![]⟩

abbrev nBuf : Space → Nat
  | .hbm => 25
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S32000x1024, .f32⟩
  | .hbm, ⟨2, _⟩ => ⟨S2048x2048, .f32⟩
  | .hbm, ⟨3, _⟩ => ⟨S32000x2048, .f32⟩
  | .hbm, ⟨4, _⟩ => ⟨S2048, .i32⟩
  | .hbm, ⟨5, _⟩ => ⟨S2048x1, .f32⟩
  | .hbm, ⟨6, _⟩ => ⟨S2048x1, .f32⟩
  | .hbm, ⟨7, _⟩ => ⟨S2048x1, .f32⟩
  | .hbm, ⟨8, _⟩ => ⟨S2048, .f32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S128x1024, .f32⟩
  | .local _ .vmem, ⟨4, _⟩ => ⟨S512x2048, .f32⟩
  | .local _ .vmem, ⟨5, _⟩ => ⟨S512x2048, .f32⟩
  | .local _ .vmem, ⟨6, _⟩ => ⟨S128x2048, .f32⟩
  | .local _ .vmem, ⟨7, _⟩ => ⟨S128x2048, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1024, .f32⟩
  | .local _ .vmem, ⟨17, _⟩ => ⟨S512x1024, .f32⟩
  | .local _ .vmem, ⟨18, _⟩ => ⟨S128x1024, .f32⟩
  | .local _ .vmem, ⟨19, _⟩ => ⟨S128x1024, .f32⟩
  | .local _ .vmem, ⟨20, _⟩ => ⟨S512x2048, .f32⟩
  | .local _ .vmem, ⟨21, _⟩ => ⟨S512x2048, .f32⟩
  | .local _ .vmem, ⟨22, _⟩ => ⟨S128x2048, .f32⟩
  | .local _ .vmem, ⟨23, _⟩ => ⟨S128x2048, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![4, 250], ![false, false]⟩

def k0_cond2 (i : grid0.Coords) : BitVec 1 :=
  let arg1 : BitVec 32 := BitVec.ofNat 32 (i 1).val
  let c249_i32 : BitVec 32 := 249#32
  let v59 : BitVec 1 := Scalar.cmpi .eq arg1 c249_i32
  let v60 : BitVec 32 := Scalar.extui v59
  let c0_i32_35 : BitVec 32 := 0#32
  let v61 : BitVec 1 := Scalar.cmpi .ne v60 c0_i32_35
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 250], ![false, false]⟩

def k1_cond2 (i : grid1.Coords) : BitVec 1 :=
  let arg1 : BitVec 32 := BitVec.ofNat 32 (i 1).val
  let c249_i32 : BitVec 32 := 249#32
  let v49 : BitVec 1 := Scalar.cmpi .eq arg1 c249_i32
  let v50 : BitVec 32 := Scalar.extui v49
  let c0_i32_24 : BitVec 32 := 0#32
  let v51 : BitVec 1 := Scalar.cmpi .ne v50 c0_i32_24
  v51

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S128x2048_S128x2048_0_0 : ∀ a, (![0, 0] : Fin 2 → Nat) a + S128x2048.size a ≤ S128x2048.size a
  h_S128x2048 : 0 < S128x2048.numel
  reduces_S512x128_S512 : S512x128.Reduces [1] S512
  shapeCasts_S512_S512x1 : S512.ShapeCasts S512x1
  broadcasts_S512x1_S512x128 : S512x1.Broadcasts S512x128
  shapeCasts_S2048x1_S2048 : S2048x1.ShapeCasts S2048
  bcast_S_S2048 : S_.BroadcastsInDim S2048 (![] : Fin 0 → Fin S2048.rank)
  natLt_1_32 : 1 < 32
  reducesTo_S2048_S_d0 : S2048.ReducesTo [0] S_
  h_S_ : 0 < S_.numel
  dot_S512x1024_S128x1024_S512x128_1_1_0_0_n_n_wf : DotDims.WF S512x1024 S128x1024 S512x128 [1] [1] [0] [0] [] []
  dot_S512x2048_S128x2048_S512x128_1_1_0_0_n_n_wf : DotDims.WF S512x2048 S128x2048 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S32000x1024.size a
  hwx0_1 : ∀ i : grid0.Coords, EltTy.bits .f32 = 32 ∨ (Rect.block (s := S32000x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S32000x2048.size a
  hwx0_3 : ∀ i : grid0.Coords, EltTy.bits .f32 = 32 ∨ (Rect.block (s := S32000x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S2048x1.size a
  hwx0_5 : ∀ i : grid0.Coords, EltTy.bits .f32 = 32 ∨ (Rect.block (s := S2048x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S32000x1024.size a
  hwx1_1 : ∀ i : grid1.Coords, EltTy.bits .f32 = 32 ∨ (Rect.block (s := S32000x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S2048x2048.size a
  hwx1_2 : ∀ i : grid1.Coords, EltTy.bits .f32 = 32 ∨ (Rect.block (s := S2048x2048) S512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S32000x2048.size a
  hwx1_3 : ∀ i : grid1.Coords, EltTy.bits .f32 = 32 ∨ (Rect.block (s := S32000x2048) S128x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S2048x1.size a
  hwx1_4 : ∀ i : grid1.Coords, EltTy.bits .f32 = 32 ∨ (Rect.block (s := S2048x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S2048x1.size a
  hwx1_5 : ∀ i : grid1.Coords, EltTy.bits .f32 = 32 ∨ (Rect.block (s := S2048x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S2048x1.size a
  hwx1_6 : ∀ i : grid1.Coords, EltTy.bits .f32 = 32 ∨ (Rect.block (s := S2048x1) S512x1.size (cc1_transform_6 i) (hinb1_6 i)).WholeWords (EltTy.packing .f32)

variable [Facts₀]

def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2048x1024 : Shape := ⟨2, ![2048, 1024]⟩
abbrev S32000x1024 : Shape := ⟨2, ![32000, 1024]⟩
abbrev S2048x2048 : Shape := ⟨2, ![2048, 2048]⟩
abbrev S32000x2048 : Shape := ⟨2, ![32000, 2048]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S32000x1024, .f32⟩
  | .hbm, ⟨2, _⟩ => ⟨S2048x2048, .f32⟩
  | .hbm, ⟨3, _⟩ => ⟨S32000x2048, .f32⟩
  | .hbm, ⟨4, _⟩ => ⟨S2048, .i32⟩
  | .hbm, ⟨5, _⟩ => ⟨S2048x32000, .f32⟩
  | .hbm, ⟨6, _⟩ => ⟨S_, .f32⟩
  | .hbm, ⟨7, _⟩ => ⟨S2048x32000, .f32⟩
  | .hbm, ⟨8, _⟩ => ⟨S2048x32000, .f32⟩
  | .hbm, ⟨9, _⟩ => ⟨S2048x32000, .f32⟩
  | .hbm, ⟨10, _⟩ => ⟨S_, .f32⟩
  | .hbm, ⟨11, _⟩ => ⟨S2048x32000, .f32⟩
  | .hbm, ⟨12, _⟩ => ⟨S2048x32000, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048x1, .f32⟩
  | .hbm, ⟨19, _⟩ => ⟨S2048x32000, .f32⟩
  | .hbm, ⟨20, _⟩ => ⟨S2048x32000, .f32⟩
  | .hbm, ⟨21, _⟩ => ⟨S2048x32000, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x32000, .f32⟩
  | .hbm, ⟨27, _⟩ => ⟨S2048x32000, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x32000, .f32⟩
  | .hbm, ⟨35, _⟩ => ⟨S2048x32000, .f32⟩
  | .hbm, ⟨36, _⟩ => ⟨S2048x32000, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S2048x32000, .f32⟩
  | .hbm, ⟨45, _⟩ => ⟨S_, .f32⟩
  | .hbm, ⟨46, _⟩ => ⟨S2048x32000, .f32⟩
  | .hbm, ⟨47, _⟩ => ⟨S2048x32000, .f32⟩
  | .hbm, ⟨48, _⟩ => ⟨S_, .f32⟩
  | .hbm, ⟨49, _⟩ => ⟨S2048x32000, .f32⟩
  | .hbm, ⟨50, _⟩ => ⟨S2048x32000, .f32⟩
  | .hbm, ⟨51, _⟩ => ⟨S2048x32000, .f32⟩
  | .hbm, ⟨52, _⟩ => ⟨S2048x32000, .f32⟩
  | .hbm, ⟨53, _⟩ => ⟨S_, .f32⟩
  | .hbm, ⟨54, _⟩ => ⟨S2048x32000, .f32⟩
  | .hbm, ⟨55, _⟩ => ⟨S2048x32000, .f32⟩
  | .hbm, ⟨56, _⟩ => ⟨S2048x32000, .f32⟩
  | .hbm, ⟨57, _⟩ => ⟨S2048x32000, .f32⟩
  | .hbm, ⟨58, _⟩ => ⟨S_, .f32⟩
  | .hbm, ⟨59, _⟩ => ⟨S2048x32000, .f32⟩
  | .hbm, ⟨60, _⟩ => ⟨S2048x32000, .f32⟩
  | .hbm, ⟨61, _⟩ => ⟨S2048x32000, .f32⟩
  | .hbm, ⟨62, _⟩ => ⟨S2048x32000, .f32⟩
  | .hbm, ⟨63, _⟩ => ⟨S2048x32000, .f32⟩
  | .hbm, ⟨64, _⟩ => ⟨S_, .f32⟩
  | .hbm, ⟨65, _⟩ => ⟨S2048, .f32⟩
  | .hbm, ⟨66, _⟩ => ⟨S_, .i32⟩
  | .hbm, ⟨67, _⟩ => ⟨S2048, .i32⟩
  | .hbm, ⟨68, _⟩ => ⟨S2048, .i1⟩
  | .hbm, ⟨69, _⟩ => ⟨S2048, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v6 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_c : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_6 : Ref sig .tc := ⟨.hbm, 70, rfl⟩
abbrev main_v29 : Ref sig .tc := ⟨.hbm, 71, rfl⟩
abbrev main_c_7 : Ref sig .tc := ⟨.hbm, 72, rfl⟩
abbrev main_v30 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_v31 : Ref sig .tc := ⟨.hbm, 77, rfl⟩
abbrev main_cst_9 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩

abbrev nD : Nat := 1
abbrev τ : Topo := Topo.v7x

variable {F : FTy → Type} [FloatOps F]

class Facts₀ : Prop where
  bcast_S_S2048x32000 : S_.BroadcastsInDim S2048x32000 (![] : Fin 0 → Fin S2048x32000.rank)
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  natLt_1_32 : 1 < 32
  reducesTo_S2048_S_d0 : S2048.ReducesTo [0] S_
  dot_S2048x1024_S32000x1024_S2048x32000_1_1_0_0_n_n_wf : DotDims.WF S2048x1024 S32000x1024 S2048x32000 [1] [1] [0] [0] [] []
  dot_S2048x2048_S32000x2048_S2048x32000_1_1_0_0_n_n_wf : DotDims.WF S2048x2048 S32000x2048 S2048x32000 [1] [1] [0] [0] [] []

variable [Facts₀]

def dot_S2048x1024_S32000x1024_S2048x32000_1_1_0_0_n_n : DotDims S2048x1024 S32000x1024 S2048x32000 where
  lhsContracting := [1]
  rhsContracting := [1]
  lhsNonContracting := [0]
  rhsNonContracting := [0]
  lhsBatch := []
  rhsBatch := []
  wf := dot_S2048x1024_S32000x1024_S2048x32000_1_1_0_0_n_n_wf
def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf

class Facts : Prop extends Facts₀ where

variable [Facts]
-- ==== Proof.BitsPass1RunB.lean ====
/-
  The first pass (the running maximum and rescaled sum of exponentials of the student's and the teacher's logits, per row block, over the 250 vocabulary chunks): its body run at a MIDDLE chunk (neither first nor last: the carried buffers are read at what the point before left and rewritten; the result buffers are not touched).
  First, what the runs share: the body's two conditionals in closed form over the 4 × 250 grid, and the staging and
  scratch buffers the body is called on.
-/
import proofs.«162734_j6863357739727_1_alg».proof.Proof.Gen.Kernel.Launch
import proofs.«162734_j6863357739727_1_alg».proof.Proof.Gen.Kernel.Skeleton
import proofs.«162734_j6863357739727_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals over the grid -/

/-- The first conditional: the chunk index is 0. -/
abbrev cond0_0 (i : grid0.Coords) : Prop := (Scalar.cmpi .ne (Scalar.extui (Scalar.cmpi .eq (BitVec.ofNat 32 (i 1).val) 0#32)) 0#32) = 1#1
/-- It holds exactly at the points whose chunk index is 0. -/
theorem hcond0_0 : ∀ t : Fin cfg0.N, cond0_0 (grid0.coords t) ↔ t.val % 250 = 0 :=
  (by decide +kernel : ∀ t : Fin grid0.N, cond0_0 (grid0.coords t) ↔ t.val % 250 = 0)

/-- The second conditional: the chunk index is 249. -/
abbrev cond0_1 (i : grid0.Coords) : Prop := k0_cond2 i = 1#1
/-- It holds exactly at the points whose chunk index is 249. -/
theorem hcond0_1 : ∀ t : Fin cfg0.N, cond0_1 (grid0.coords t) ↔ t.val % 250 = 249 :=
  (by decide +kernel : ∀ t : Fin grid0.N, cond0_1 (grid0.coords t) ↔ t.val % 250 = 249)

/-! ## The buffers the body is called on -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The carried buffers: scoped buffers of the kernel's own, passed beside the windows. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3

/-! ## The body at a middle chunk -/

set_option maxHeartbeats 4000000 in
/-- The pieces the body's stores leave in the carried buffers at a middle chunk (last store first), with the
    run: the input blocks in and out as found; the result buffers untouched, handed back as found; the carried
    buffers at the previous point's contents in, with their pieces written out. -/
noncomputable def kernelRun0_B (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Pass1

end
-- ==== Proof.BitsPass1RunA.lean ====
/-
  The first pass (the running maximum and rescaled sum of exponentials of the student's and the teacher's logits, per row block, over the 250 vocabulary chunks): its body run at the FIRST chunk of a row block (the carried buffers are reset, whatever they held, then updated from the chunk; the result buffers are not touched).
-/
import proofs.«162734_j6863357739727_1_alg».proof.Proof.BitsPass1RunB

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first chunk -/

set_option maxHeartbeats 4000000 in
/-- The pieces the body's stores leave in the carried buffers at the first chunk (last store first), with the
    run: the input blocks in and out as found; the result buffers untouched, handed back as found; the carried
    buffers at anything in, with their pieces written out. -/
noncomputable def kernelRun0_A (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Pass1

end
-- ==== Proof.BitsPass1RunC.lean ====
/-
  The first pass (the running maximum and rescaled sum of exponentials of the student's and the teacher's logits, per row block, over the 250 vocabulary chunks): its body run at the LAST chunk of a row block (the carried buffers are read at what the point before left and rewritten, and the result buffers are stored).
-/
import proofs.«162734_j6863357739727_1_alg».proof.Proof.BitsPass1RunA

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last chunk -/

set_option maxHeartbeats 4000000 in
/-- The pieces the body's stores leave in the result buffers and in the carried buffers at the last chunk (last store first), with the
    run: the input blocks in and out as found; the result buffers at anything in, with their pieces written out; the carried
    buffers at the previous point's contents in, with their pieces written out. -/
noncomputable def kernelRun0_C (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.Kernel.Pass1

end
-- ==== Proof.BitsPass1Frame.lean ====
/-
  The first pass (the running maximum and rescaled sum of exponentials of the student's and the teacher's logits, per row block, over the 250 vocabulary chunks): what its result buffers and carried buffers hold after each grid point (the case the point is
  in, run at the point's buffers and input blocks, over what the point before left in the carried buffers), the
  region invariant that carries those contents from point to point, the pipeline's proof data at any region-entry
  contents `V`, and the body obligation at every point.
-/
import proofs.«162734_j6863357739727_1_alg».proof.Proof.BitsPass1RunC

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has
    not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (unfetched, the block index has
    not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (unfetched, the block index has
    not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (unfetched, the block index has
    not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- A result window is idle, and not written back, except at the last chunk. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
/-- A result window is idle, and not written back, except at the last chunk. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## Views through which contents are stated -/

abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- The class invariant with the scoped buffers listed: the carried buffers as memrefs owned at some contents. -/
theorem PhiA0_eq (c : Dev nD) :
    (Pipeline.ΦA spec0 c : sProp 𝕄)
      = iprop(iprop((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, scM0_2, scM0_3, owns_whole]; try rfl

/-! ## What each case leaves -/

/-- What case A leaves in result window 4's staging buffer: its pieces read back (none: a placeholder nothing consults, the window being idle there). -/
def out0_A_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What case A leaves in result window 5's staging buffer: its pieces read back (none: a placeholder nothing consults, the window being idle there). -/
def out0_A_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- Case A's pieces for carried buffer 0 tile it, so they cover it. -/
theorem scover0_A_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y

/-- What case A leaves in carried buffer 0: its pieces read back. -/
def sout0_A_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for carried buffer 1 tile it, so they cover it. -/
theorem scover0_A_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y

/-- What case A leaves in carried buffer 1: its pieces read back. -/
def sout0_A_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case A's pieces for carried buffer 2 tile it, so they cover it. -/
theorem scover0_A_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S512x1.size (by sl_kernel_rfl) y

/-- What case A leaves in carried buffer 2: its pieces read back. -/
def sout0_A_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for carried buffer 3 tile it, so they cover it. -/
theorem scover0_A_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S512x1.size (by sl_kernel_rfl) y

/-- What case A leaves in carried buffer 3: its pieces read back. -/
def sout0_A_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in result window 4's staging buffer: its pieces read back (none: a placeholder nothing consults, the window being idle there). -/
def out0_B_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- What case B leaves in result window 5's staging buffer: its pieces read back (none: a placeholder nothing consults, the window being idle there). -/
def out0_B_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- Case B's pieces for carried buffer 0 tile it, so they cover it. -/
theorem scover0_B_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case B leaves in carried buffer 0: its pieces read back. -/
def sout0_B_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case B's pieces for carried buffer 1 tile it, so they cover it. -/
theorem scover0_B_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case B leaves in carried buffer 1: its pieces read back. -/
def sout0_B_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case B's pieces for carried buffer 2 tile it, so they cover it. -/
theorem scover0_B_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What case B leaves in carried buffer 2: its pieces read back. -/
def sout0_B_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case B's pieces for carried buffer 3 tile it, so they cover it. -/
theorem scover0_B_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What case B leaves in carried buffer 3: its pieces read back. -/
def sout0_B_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- The last chunk's pieces for result window 4 tile its block, so they cover it. -/
theorem cover0_C_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What case C leaves in result window 4's staging buffer: its pieces read back. -/
def out0_C_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- The last chunk's pieces for result window 5 tile its block, so they cover it. -/
theorem cover0_C_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What case C leaves in result window 5's staging buffer: its pieces read back. -/
def out0_C_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- Case C's pieces for carried buffer 0 tile it, so they cover it. -/
theorem scover0_C_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case C leaves in carried buffer 0: its pieces read back. -/
def sout0_C_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case C's pieces for carried buffer 1 tile it, so they cover it. -/
theorem scover0_C_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case C leaves in carried buffer 1: its pieces read back. -/
def sout0_C_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case C's pieces for carried buffer 2 tile it, so they cover it. -/
theorem scover0_C_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What case C leaves in carried buffer 2: its pieces read back. -/
def sout0_C_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case C's pieces for carried buffer 3 tile it, so they cover it. -/
theorem scover0_C_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What case C leaves in carried buffer 3: its pieces read back. -/
def sout0_C_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

section
variable (V : (c : Dev nD) → (b : Ref sig .tc) → Buf (Elt F) ((c : Thread nD τ).loc b))

/-! ## What the result and carried buffers hold after each point -/

/-- After the body at position `n`: the case the closed forms select there, run at the point's buffers and input blocks,
    the carried buffers read at what position `n - 1` left (a tuple: the result windows in order, then the carried
    buffers). The two conditionals never hold together. -/
def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 250 = 0 then
      if h1 : (n + 1) % 250 = 249 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 250 = 249 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a first chunk. -/
theorem outsAt0_A (c : Dev nD) (t : Fin cfg0.N) (h0 : t.val % 250 = 0) (h1 : ¬t.val % 250 = 249) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a middle chunk: over what the point before left. -/
theorem outsAt0_B (c : Dev nD) (t : Fin cfg0.N) (h0 : ¬t.val % 250 = 0) (h1 : ¬t.val % 250 = 249) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last chunk: over what the point before left. -/
theorem outsAt0_C (c : Dev nD) (t : Fin cfg0.N) (h0 : ¬t.val % 250 = 0) (h1 : t.val % 250 = 249) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards each
    carried buffer at what the point before left in it, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1)
      ∗ owns (c : Thread nD τ) scM0_1 fullShare ((outsAt0 V c n hn).2.2.2.1)
      ∗ owns (c : Thread nD τ) scM0_2 fullShare ((outsAt0 V c n hn).2.2.2.2.1)
      ∗ owns (c : Thread nD τ) scM0_3 fullShare ((outsAt0 V c n hn).2.2.2.2.2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1)
      ∗ owns (c : Thread nD τ) scM0_1 fullShare ((outsAt0 V c n hn).2.2.2.1)
      ∗ owns (c : Thread nD τ) scM0_2 fullShare ((outsAt0 V c n hn).2.2.2.2.1)
      ∗ owns (c : Thread nD τ) scM0_3 fullShare ((outsAt0 V c n hn).2.2.2.2.2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1)
      ∗ owns (c : Thread nD τ) scM0_1 fullShare ((outsAt0 V c (n - 1) (by omega)).2.2.2.1)
      ∗ owns (c : Thread nD τ) scM0_2 fullShare ((outsAt0 V c (n - 1) (by omega)).2.2.2.2.1)
      ∗ owns (c : Thread nD τ) scM0_3 fullShare ((outsAt0 V c (n - 1) (by omega)).2.2.2.2.2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The pipeline's proof data -/

/-- On core `c`: the arrays as the region finds them; after the body at point `t` each input's buffer at its block and
    each result's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the closed forms say which case the point is in; the invariant hands the body the carried
    buffers at what the point before left (at anything at the very first point) and takes them back at this point's
    contents; an idle result window is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 1000 := lt_of_lt_of_eq t.isLt (show cfg0.N = 1000 from N_0)
  by_cases h0 : t.val % 250 = 0
  · by_cases h1 : t.val % 250 = 249
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · iexists _; iexact H4
        iexists _; iexact H5
      · rw [PhiS0_castSucc V c t, PhiS0_pos V c _ _ hz]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · iexists _; iexact H4
        iexists _; iexact H5
  · by_cases h1 : t.val % 250 = 249
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_4 out0_C_5 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        iintro ⟨H0, H1, H2, H3, ⟨%e4, H4⟩, ⟨%e5, H5⟩, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the carried buffers' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hr4, Hr5, Hr6, Hr7, Hr8, Hr9, Hr10, Hr11, Hr12, Hr13, Hr14, Hr15, Hr16, Hr17, Hr18⟩, Hg⟩
  isplitl [HS0 HS1 HS2 HS3 Hr4 Hr5 Hr6 Hr7 Hr8 Hr9 Hr10 Hr11 Hr12 Hr13 Hr14 Hr15 Hr16 Hr17 Hr18]
  · isplitl [HS0]; · iexists _; iexact HS0
    isplitl [HS1]; · iexists _; iexact HS1
    isplitl [HS2]; · iexists _; iexact HS2
    isplitl [HS3]; · iexists _; iexact HS3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  iexact Hg

/-- The same after the last point. -/
theorem hout0 (c : Dev nD) : (dat0 V c).Φ (Fin.last cfg0.N) ⊢ Pipeline.ΦA spec0 c :=
  Phi_out0 V c _ (by rw [Fin.val_last]; have : cfg0.N = 1000 := N_0; omega)

end

end Cert.Kernel.Pass1

end
-- ==== Proof.BitsPass2RunB.lean ====
/-
  The second pass (the Jensen-Shannon integrand accumulated per row block over the 250 vocabulary chunks, at the log-sum-exps the first pass wrote): its body run at a MIDDLE chunk (neither first nor last: the carried buffers are read at what the point before left and rewritten; the result buffers are not touched).
  First, what the runs share: the body's two conditionals in closed form over the 4 × 250 grid, and the staging and
  scratch buffers the body is called on.
-/
import proofs.«162734_j6863357739727_1_alg».proof.Proof.Gen.Kernel.Launch
import proofs.«162734_j6863357739727_1_alg».proof.Proof.Gen.Kernel.Skeleton
import proofs.«162734_j6863357739727_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals over the grid -/

/-- The first conditional: the chunk index is 0. -/
abbrev cond1_0 (i : grid1.Coords) : Prop := (Scalar.cmpi .ne (Scalar.extui (Scalar.cmpi .eq (BitVec.ofNat 32 (i 1).val) 0#32)) 0#32) = 1#1
/-- It holds exactly at the points whose chunk index is 0. -/
theorem hcond1_0 : ∀ t : Fin cfg1.N, cond1_0 (grid1.coords t) ↔ t.val % 250 = 0 :=
  (by decide +kernel : ∀ t : Fin grid1.N, cond1_0 (grid1.coords t) ↔ t.val % 250 = 0)

/-- The second conditional: the chunk index is 249. -/
abbrev cond1_1 (i : grid1.Coords) : Prop := k1_cond2 i = 1#1
/-- It holds exactly at the points whose chunk index is 249. -/
theorem hcond1_1 : ∀ t : Fin cfg1.N, cond1_1 (grid1.coords t) ↔ t.val % 250 = 249 :=
  (by decide +kernel : ∀ t : Fin grid1.N, cond1_1 (grid1.coords t) ↔ t.val % 250 = 249)

/-! ## The buffers the body is called on -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
/-- The carried buffers: scoped buffers of the kernel's own, passed beside the windows. -/
abbrev scM1_0 : Memref sig .tc .vmem S512x1 .f32 := Memref.whole cc1_scratch0

/-! ## The body at a middle chunk -/

set_option maxHeartbeats 4000000 in
/-- The pieces the body's stores leave in the carried buffers at a middle chunk (last store first), with the
    run: the input blocks in and out as found; the result buffers untouched, handed back as found; the carried
    buffers at the previous point's contents in, with their pieces written out. -/
noncomputable def kernelRun1_B (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32)
    (xs0 : Vec F S512x1 .f32) :
    Σ' (L6 : List (View.Piece (Elt F) S512x1 .f32)), { LS0 : List (View.Piece (Elt F) S512x1 .f32) //
      ∀ (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xs0
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9) K } := by
  refine ⟨[], ?_, fun xi6 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Pass2

end
-- ==== Proof.BitsPass2RunA.lean ====
/-
  The second pass (the Jensen-Shannon integrand accumulated per row block over the 250 vocabulary chunks, at the log-sum-exps the first pass wrote): its body run at the FIRST chunk of a row block (the carried buffers are reset, whatever they held, then updated from the chunk; the result buffers are not touched).
-/
import proofs.«162734_j6863357739727_1_alg».proof.Proof.BitsPass2RunB

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first chunk -/

set_option maxHeartbeats 4000000 in
/-- The pieces the body's stores leave in the carried buffers at the first chunk (last store first), with the
    run: the input blocks in and out as found; the result buffers untouched, handed back as found; the carried
    buffers at anything in, with their pieces written out. -/
noncomputable def kernelRun1_A (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) :
    Σ' (L6 : List (View.Piece (Elt F) S512x1 .f32)), { LS0 : List (View.Piece (Elt F) S512x1 .f32) //
      ∀ (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ (∃ d, owns (c : Thread nD τ) arg9 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9) K } := by
  refine ⟨[], ?_, fun xi6 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Pass2

end
-- ==== Proof.BitsPass2RunC.lean ====
/-
  The second pass (the Jensen-Shannon integrand accumulated per row block over the 250 vocabulary chunks, at the log-sum-exps the first pass wrote): its body run at the LAST chunk of a row block (the carried buffers are read at what the point before left and rewritten, and the result buffers are stored).
-/
import proofs.«162734_j6863357739727_1_alg».proof.Proof.BitsPass2RunA

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last chunk -/

set_option maxHeartbeats 4000000 in
/-- The pieces the body's stores leave in the result buffers and in the carried buffers at the last chunk (last store first), with the
    run: the input blocks in and out as found; the result buffers at anything in, with their pieces written out; the carried
    buffers at the previous point's contents in, with their pieces written out. -/
noncomputable def kernelRun1_C (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32)
    (xs0 : Vec F S512x1 .f32) :
    Σ' (L6 : List (View.Piece (Elt F) S512x1 .f32)), { LS0 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ owns (c : Thread nD τ) arg9 fullShare xs0
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Pass2

end
-- ==== Proof.BitsPass2Frame.lean ====
/-
  The second pass (the Jensen-Shannon integrand accumulated per row block over the 250 vocabulary chunks, at the log-sum-exps the first pass wrote): what its result buffers and carried buffers hold after each grid point (the case the point is
  in, run at the point's buffers and input blocks, over what the point before left in the carried buffers), the
  region invariant that carries those contents from point to point, the pipeline's proof data at any region-entry
  contents `V`, and the body obligation at every point.
-/
import proofs.«162734_j6863357739727_1_alg».proof.Proof.BitsPass2RunC

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has
    not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not (unfetched, the block index has
    not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not (unfetched, the block index has
    not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not (unfetched, the block index has
    not moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not (unfetched, the block index has
    not moved), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not (unfetched, the block index has
    not moved), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- A result window is idle, and not written back, except at the last chunk. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

/-! ## Views through which contents are stated -/

abbrev VO1_6 : View sig .tc .vmem S512x1 .f32 := (Memref.whole cc1_stg6_0 : Memref sig .tc .vmem S512x1 .f32).view
abbrev VS1_0 : View sig .tc .vmem S512x1 .f32 := scM1_0.view

/-- The class invariant with the scoped buffers listed: the carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ d, owns (c : Thread nD τ) scM1_0 fullShare d)) ∗ (∃ r, prngReg c r)) := by
  unfold Pipeline.ΦA; rw [scopedRest1_eq]; simp only [scM1_0, owns_whole]; try rfl

/-! ## What each case leaves -/

/-- What case A leaves in result window 6's staging buffer: its pieces read back (none: a placeholder nothing consults, the window being idle there). -/
def out1_A_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) : Vec F S512x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for carried buffer 0 tile it, so they cover it. -/
theorem scover1_A_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (y : S512x1.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S512x1.size (by sl_kernel_rfl) y

/-- What case A leaves in carried buffer 0: its pieces read back. -/
def sout1_A_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- What case B leaves in result window 6's staging buffer: its pieces read back (none: a placeholder nothing consults, the window being idle there). -/
def out1_B_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's pieces for carried buffer 0 tile it, so they cover it. -/
theorem scover1_B_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S512x1.size (by sl_kernel_rfl) y

/-- What case B leaves in carried buffer 0: its pieces read back. -/
def sout1_B_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- The last chunk's pieces for result window 6 tile its block, so they cover it. -/
theorem cover1_C_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S512x1.size (by sl_kernel_rfl) y

/-- What case C leaves in result window 6's staging buffer: its pieces read back. -/
def out1_C_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's pieces for carried buffer 0 tile it, so they cover it. -/
theorem scover1_C_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S512x1.size (by sl_kernel_rfl) y

/-- What case C leaves in carried buffer 0: its pieces read back. -/
def sout1_C_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

section
variable (V : (c : Dev nD) → (b : Ref sig .tc) → Buf (Elt F) ((c : Thread nD τ).loc b))

/-! ## What the result and carried buffers hold after each point -/

/-- After the body at position `n`: the case the closed forms select there, run at the point's buffers and input blocks,
    the carried buffers read at what position `n - 1` left (a tuple: the result windows in order, then the carried
    buffers). The two conditionals never hold together. -/
def outsAt1 (c : Dev nD) : (n : ℕ) → n < cfg1.N → Vec F S512x1 .f32 × Vec F S512x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 250 = 0 then
      if h1 : (n + 1) % 250 = 249 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 250 = 249 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a first chunk. -/
theorem outsAt1_A (c : Dev nD) (t : Fin cfg1.N) (h0 : t.val % 250 = 0) (h1 : ¬t.val % 250 = 249) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle chunk: over what the point before left. -/
theorem outsAt1_B (c : Dev nD) (t : Fin cfg1.N) (h0 : ¬t.val % 250 = 0) (h1 : ¬t.val % 250 = 249) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last chunk: over what the point before left. -/
theorem outsAt1_C (c : Dev nD) (t : Fin cfg1.N) (h0 : ¬t.val % 250 = 0) (h1 : t.val % 250 = 249) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards each
    carried buffer at what the point before left in it, the other scoped buffers at anything, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    each result's at `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the closed forms say which case the point is in; the invariant hands the body the carried
    buffers at what the point before left (at anything at the very first point) and takes them back at this point's
    contents; an idle result window is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 1000 := lt_of_lt_of_eq t.isLt (show cfg1.N = 1000 from N_1)
  by_cases h0 : t.val % 250 = 0
  · by_cases h1 : t.val % 250 = 249
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        iexists _; iexact H6
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        iexists _; iexact H6
  · by_cases h1 : t.val % 250 = 249
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, Hr13, Hr14, Hr15, HS0⟩, Hg⟩
  isplitl [Hr0 Hr1 Hr2 Hr3 Hr4 Hr5 Hr6 Hr7 Hr8 Hr9 Hr10 Hr11 Hr12 Hr13 Hr14 Hr15 HS0]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 1000 := N_1; omega)

end

end Cert.Kernel.Pass2

end
-- ==== Proof.BitsLaunch.lean ====
/-
  The whole run of the kernel's program: the first pass's region, the second pass's region, then the host
  operations that mask, sum and average the per-token values.  The buffer contents at each boundary are a fold from
  the launch memory: a region leaves its windows' arrays at what its write-backs make of them and every other buffer
  as it found it; a host stretch leaves what its operations compute.  The second region's proof data are taken at the
  contents the first region leaves, so its two log-sum-exp inputs are the first region's results.  Every weakly fair
  execution terminates, and every unscoped buffer ends at the last valuation of the fold; in particular the five
  argument arrays end as launched.
-/
import proofs.«162734_j6863357739727_1_alg».proof.Proof.BitsPass1Frame
import proofs.«162734_j6863357739727_1_alg».proof.Proof.BitsPass2Frame
import proofs.«162734_j6863357739727_1_alg».proof.Proof.Gen.Kernel.Regions

set_option maxRecDepth 16384

noncomputable section

namespace Cert.Kernel.Launch

open Cert.Kernel Cert.Kernel.Gen Cert.Kernel.Pass1 Cert.Kernel.Pass2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry: no host operation precedes it). -/
abbrev W0 : Dev nD → Valuation τ sig (Elt F) := fun c b => m (c, b)
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)
/-- After the second region, entered at the first region's exit contents. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)
/-- After each of the three host stretches. -/
abbrev W3 : Dev nD → Valuation τ sig (Elt F) := fun c => StableHlo.after hostOps2 (W2 m c)
abbrev W4 : Dev nD → Valuation τ sig (Elt F) := fun c => StableHlo.after hostOps2_1 (W3 m c)
abbrev W5 : Dev nD → Valuation τ sig (Elt F) := fun c => StableHlo.after hostOps2_2 (W4 m c)

/-! ## The arguments end as launched -/

/-- An argument array is written by no host stretch and changed by no region (a region reads it through an input
    window or bypasses it), so the fold at it walks back to the launch memory. -/
theorem W5_of_W2 (c : Dev nD) (r : Ref sig .tc) (h2 : r ∉ hostOps2_W) (h21 : r ∉ hostOps2_1_W) (h22 : r ∉ hostOps2_2_W) :
    W5 m c (Proc.devRef .tc r) = W2 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2
theorem W5_main_arg0 (c : Dev nD) : W5 m c (Proc.devRef .tc main_arg0) = m ((c : Thread nD τ).loc main_arg0) :=
  (W5_of_W2 m c main_arg0 (by decide) (by decide) (by decide)).trans <|
    ((W2_arr m c 0).trans (((dat1 (VB m) c).arrAt_in 0 rfl _).trans (A_eq1 (VB m) c 0))).trans <|
      ((W1_arr m c 0).trans (((dat0 (VA m) c).arrAt_in 0 rfl _).trans (A_eq0 (VA m) c 0))).trans rfl
theorem W5_main_arg1 (c : Dev nD) : W5 m c (Proc.devRef .tc main_arg1) = m ((c : Thread nD τ).loc main_arg1) :=
  (W5_of_W2 m c main_arg1 (by decide) (by decide) (by decide)).trans <|
    ((W2_arr m c 1).trans (((dat1 (VB m) c).arrAt_in 1 rfl _).trans (A_eq1 (VB m) c 1))).trans <|
      ((W1_arr m c 1).trans (((dat0 (VA m) c).arrAt_in 1 rfl _).trans (A_eq0 (VA m) c 1))).trans rfl
theorem W5_main_arg2 (c : Dev nD) : W5 m c (Proc.devRef .tc main_arg2) = m ((c : Thread nD τ).loc main_arg2) :=
  (W5_of_W2 m c main_arg2 (by decide) (by decide) (by decide)).trans <|
    ((W2_arr m c 2).trans (((dat1 (VB m) c).arrAt_in 2 rfl _).trans (A_eq1 (VB m) c 2))).trans <|
      ((W1_arr m c 2).trans (((dat0 (VA m) c).arrAt_in 2 rfl _).trans (A_eq0 (VA m) c 2))).trans rfl
theorem W5_main_arg3 (c : Dev nD) : W5 m c (Proc.devRef .tc main_arg3) = m ((c : Thread nD τ).loc main_arg3) :=
  (W5_of_W2 m c main_arg3 (by decide) (by decide) (by decide)).trans <|
    ((W2_arr m c 3).trans (((dat1 (VB m) c).arrAt_in 3 rfl _).trans (A_eq1 (VB m) c 3))).trans <|
      ((W1_arr m c 3).trans (((dat0 (VA m) c).arrAt_in 3 rfl _).trans (A_eq0 (VA m) c 3))).trans rfl
theorem W5_main_arg4 (c : Dev nD) : W5 m c (Proc.devRef .tc main_arg4) = m ((c : Thread nD τ).loc main_arg4) :=
  (W5_of_W2 m c main_arg4 (by decide) (by decide) (by decide)).trans <|
    (W2_of_ne m c main_arg4 (by decide)).trans <| (W1_of_ne m c main_arg4 (by decide)).trans rfl

/-! ## The proof data family and the thread state -/

abbrev adm : (p : Fin 2) → (pcfgs (F := F) p).Adm := fun p => (cfgs p).toPCfg_adm
/-- Each pipeline's proof data at its region's entry contents (a literal match on the pipeline index). -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0: entered from every unscoped buffer at the boundary's contents, its arrays split out and put back at
    the exit contents; the generator register and the scoped buffers into the region invariant and out; nothing owed;
    no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (VA m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (VA m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the boundary's contents, its arrays split out and put back at
    the exit contents; the generator register and the scoped buffers into the region invariant and out; nothing owed;
    no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (VB m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (VB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (c : Dev nD) : List (Seg (pcfgs (F := F)) adm (pdats m) () defs₀ 𝒱₀ L lv) :=
  [ .region (reg0 m), .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)) ]

set_option backward.isDefEq.respectTransparency.types false in
/-- From any memory with zero counters every weakly fair execution of @main terminates, nothing faulting, and every
    unscoped buffer of every core ends at the last valuation of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl,
      (show (iprop(StableHlo.held (c : Thread nD τ) (Pipeline.ucRefs τ sig) (StableHlo.after hostOps2_2 (W4 m c)) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := ?_)
    (QY := fun c s => ∀ b ∈ Pipeline.ucRefs τ sig, s.mem (((c : Thread nD τ)).1, b) = W5 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W5 m c) s')
    isplitl [Hh] <;> iassumption

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Launch

end
-- ==== Proof.Pass1RunB.lean ====
/-
  The first pass (the running maximum and rescaled sum of exponentials of the student's and the teacher's logits, per row block, over the 250 vocabulary chunks): its body run at a MIDDLE chunk (neither first nor last: the carried buffers are read at what the point before left and rewritten; the result buffers are not touched).
  First, what the runs share: the body's two conditionals in closed form over the 4 × 250 grid, and the staging and
  scratch buffers the body is called on.
-/
import proofs.«162734_j6863357739727_1_alg».proof.Proof.Gen.KernelIdeal.Launch
import proofs.«162734_j6863357739727_1_alg».proof.Proof.Gen.KernelIdeal.Skeleton
import proofs.«162734_j6863357739727_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals over the grid -/

/-- The first conditional: the chunk index is 0. -/
abbrev cond0_0 (i : grid0.Coords) : Prop := (Scalar.cmpi .ne (Scalar.extui (Scalar.cmpi .eq (BitVec.ofNat 32 (i 1).val) 0#32)) 0#32) = 1#1
/-- It holds exactly at the points whose chunk index is 0. -/
theorem hcond0_0 : ∀ t : Fin cfg0.N, cond0_0 (grid0.coords t) ↔ t.val % 250 = 0 :=
  (by decide +kernel : ∀ t : Fin grid0.N, cond0_0 (grid0.coords t) ↔ t.val % 250 = 0)

/-- The second conditional: the chunk index is 249. -/
abbrev cond0_1 (i : grid0.Coords) : Prop := k0_cond2 i = 1#1
/-- It holds exactly at the points whose chunk index is 249. -/
theorem hcond0_1 : ∀ t : Fin cfg0.N, cond0_1 (grid0.coords t) ↔ t.val % 250 = 249 :=
  (by decide +kernel : ∀ t : Fin grid0.N, cond0_1 (grid0.coords t) ↔ t.val % 250 = 249)

/-! ## The buffers the body is called on -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The carried buffers: scoped buffers of the kernel's own, passed beside the windows. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3

/-! ## The body at a middle chunk -/

set_option maxHeartbeats 4000000 in
/-- The pieces the body's stores leave in the carried buffers at a middle chunk (last store first), with the
    run: the input blocks in and out as found; the result buffers untouched, handed back as found; the carried
    buffers at the previous point's contents in, with their pieces written out. -/
noncomputable def kernelRun0_B (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Pass1

end
-- ==== Proof.Pass1RunA.lean ====
/-
  The first pass (the running maximum and rescaled sum of exponentials of the student's and the teacher's logits, per row block, over the 250 vocabulary chunks): its body run at the FIRST chunk of a row block (the carried buffers are reset, whatever they held, then updated from the chunk; the result buffers are not touched).
-/
import proofs.«162734_j6863357739727_1_alg».proof.Proof.Pass1RunB

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first chunk -/

set_option maxHeartbeats 4000000 in
/-- The pieces the body's stores leave in the carried buffers at the first chunk (last store first), with the
    run: the input blocks in and out as found; the result buffers untouched, handed back as found; the carried
    buffers at anything in, with their pieces written out. -/
noncomputable def kernelRun0_A (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Pass1

end
-- ==== Proof.Pass1RunC.lean ====
/-
  The first pass (the running maximum and rescaled sum of exponentials of the student's and the teacher's logits, per row block, over the 250 vocabulary chunks): its body run at the LAST chunk of a row block (the carried buffers are read at what the point before left and rewritten, and the result buffers are stored).
-/
import proofs.«162734_j6863357739727_1_alg».proof.Proof.Pass1RunA

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last chunk -/

set_option maxHeartbeats 4000000 in
/-- The pieces the body's stores leave in the result buffers and in the carried buffers at the last chunk (last store first), with the
    run: the input blocks in and out as found; the result buffers at anything in, with their pieces written out; the carried
    buffers at the previous point's contents in, with their pieces written out. -/
noncomputable def kernelRun0_C (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Pass1

end
-- ==== Proof.Pass1Frame.lean ====
/-
  The first pass (the running maximum and rescaled sum of exponentials of the student's and the teacher's logits, per row block, over the 250 vocabulary chunks): what its result buffers and carried buffers hold after each grid point (the case the point is
  in, run at the point's buffers and input blocks, over what the point before left in the carried buffers), the
  region invariant that carries those contents from point to point, the pipeline's proof data at any region-entry
  contents `V`, and the body obligation at every point.
-/
import proofs.«162734_j6863357739727_1_alg».proof.Proof.Pass1RunC

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has
    not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (unfetched, the block index has
    not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (unfetched, the block index has
    not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (unfetched, the block index has
    not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- A result window is idle, and not written back, except at the last chunk. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
/-- A result window is idle, and not written back, except at the last chunk. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## Views through which contents are stated -/

abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- The class invariant with the scoped buffers listed: the carried buffers as memrefs owned at some contents. -/
theorem PhiA0_eq (c : Dev nD) :
    (Pipeline.ΦA spec0 c : sProp 𝕄)
      = iprop(iprop((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, scM0_2, scM0_3, owns_whole]; try rfl

/-! ## What each case leaves -/

/-- What case A leaves in result window 4's staging buffer: its pieces read back (none: a placeholder nothing consults, the window being idle there). -/
def out0_A_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What case A leaves in result window 5's staging buffer: its pieces read back (none: a placeholder nothing consults, the window being idle there). -/
def out0_A_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- Case A's pieces for carried buffer 0 tile it, so they cover it. -/
theorem scover0_A_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y

/-- What case A leaves in carried buffer 0: its pieces read back. -/
def sout0_A_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for carried buffer 1 tile it, so they cover it. -/
theorem scover0_A_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y

/-- What case A leaves in carried buffer 1: its pieces read back. -/
def sout0_A_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case A's pieces for carried buffer 2 tile it, so they cover it. -/
theorem scover0_A_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S512x1.size (by sl_kernel_rfl) y

/-- What case A leaves in carried buffer 2: its pieces read back. -/
def sout0_A_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for carried buffer 3 tile it, so they cover it. -/
theorem scover0_A_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S512x1.size (by sl_kernel_rfl) y

/-- What case A leaves in carried buffer 3: its pieces read back. -/
def sout0_A_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in result window 4's staging buffer: its pieces read back (none: a placeholder nothing consults, the window being idle there). -/
def out0_B_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- What case B leaves in result window 5's staging buffer: its pieces read back (none: a placeholder nothing consults, the window being idle there). -/
def out0_B_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- Case B's pieces for carried buffer 0 tile it, so they cover it. -/
theorem scover0_B_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case B leaves in carried buffer 0: its pieces read back. -/
def sout0_B_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case B's pieces for carried buffer 1 tile it, so they cover it. -/
theorem scover0_B_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case B leaves in carried buffer 1: its pieces read back. -/
def sout0_B_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case B's pieces for carried buffer 2 tile it, so they cover it. -/
theorem scover0_B_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What case B leaves in carried buffer 2: its pieces read back. -/
def sout0_B_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case B's pieces for carried buffer 3 tile it, so they cover it. -/
theorem scover0_B_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What case B leaves in carried buffer 3: its pieces read back. -/
def sout0_B_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- The last chunk's pieces for result window 4 tile its block, so they cover it. -/
theorem cover0_C_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What case C leaves in result window 4's staging buffer: its pieces read back. -/
def out0_C_4 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- The last chunk's pieces for result window 5 tile its block, so they cover it. -/
theorem cover0_C_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What case C leaves in result window 5's staging buffer: its pieces read back. -/
def out0_C_5 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- Case C's pieces for carried buffer 0 tile it, so they cover it. -/
theorem scover0_C_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case C leaves in carried buffer 0: its pieces read back. -/
def sout0_C_0 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case C's pieces for carried buffer 1 tile it, so they cover it. -/
theorem scover0_C_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case C leaves in carried buffer 1: its pieces read back. -/
def sout0_C_1 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case C's pieces for carried buffer 2 tile it, so they cover it. -/
theorem scover0_C_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What case C leaves in carried buffer 2: its pieces read back. -/
def sout0_C_2 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case C's pieces for carried buffer 3 tile it, so they cover it. -/
theorem scover0_C_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What case C leaves in carried buffer 3: its pieces read back. -/
def sout0_C_3 (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

section
variable (V : (c : Dev nD) → (b : Ref sig .tc) → Buf (Elt F) ((c : Thread nD τ).loc b))

/-! ## What the result and carried buffers hold after each point -/

/-- After the body at position `n`: the case the closed forms select there, run at the point's buffers and input blocks,
    the carried buffers read at what position `n - 1` left (a tuple: the result windows in order, then the carried
    buffers). The two conditionals never hold together. -/
def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 250 = 0 then
      if h1 : (n + 1) % 250 = 249 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 250 = 249 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a first chunk. -/
theorem outsAt0_A (c : Dev nD) (t : Fin cfg0.N) (h0 : t.val % 250 = 0) (h1 : ¬t.val % 250 = 249) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t),
        sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a middle chunk: over what the point before left. -/
theorem outsAt0_B (c : Dev nD) (t : Fin cfg0.N) (h0 : ¬t.val % 250 = 0) (h1 : ¬t.val % 250 = 249) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last chunk: over what the point before left. -/
theorem outsAt0_C (c : Dev nD) (t : Fin cfg0.N) (h0 : ¬t.val % 250 = 0) (h1 : t.val % 250 = 249) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
        sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards each
    carried buffer at what the point before left in it, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1)
      ∗ owns (c : Thread nD τ) scM0_1 fullShare ((outsAt0 V c n hn).2.2.2.1)
      ∗ owns (c : Thread nD τ) scM0_2 fullShare ((outsAt0 V c n hn).2.2.2.2.1)
      ∗ owns (c : Thread nD τ) scM0_3 fullShare ((outsAt0 V c n hn).2.2.2.2.2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1)
      ∗ owns (c : Thread nD τ) scM0_1 fullShare ((outsAt0 V c n hn).2.2.2.1)
      ∗ owns (c : Thread nD τ) scM0_2 fullShare ((outsAt0 V c n hn).2.2.2.2.1)
      ∗ owns (c : Thread nD τ) scM0_3 fullShare ((outsAt0 V c n hn).2.2.2.2.2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1)
      ∗ owns (c : Thread nD τ) scM0_1 fullShare ((outsAt0 V c (n - 1) (by omega)).2.2.2.1)
      ∗ owns (c : Thread nD τ) scM0_2 fullShare ((outsAt0 V c (n - 1) (by omega)).2.2.2.2.1)
      ∗ owns (c : Thread nD τ) scM0_3 fullShare ((outsAt0 V c (n - 1) (by omega)).2.2.2.2.2)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The pipeline's proof data -/

/-- On core `c`: the arrays as the region finds them; after the body at point `t` each input's buffer at its block and
    each result's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the closed forms say which case the point is in; the invariant hands the body the carried
    buffers at what the point before left (at anything at the very first point) and takes them back at this point's
    contents; an idle result window is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 1000 := lt_of_lt_of_eq t.isLt (show cfg0.N = 1000 from N_0)
  by_cases h0 : t.val % 250 = 0
  · by_cases h1 : t.val % 250 = 249
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · iexists _; iexact H4
        iexists _; iexact H5
      · rw [PhiS0_castSucc V c t, PhiS0_pos V c _ _ hz]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · iexists _; iexact H4
        iexists _; iexact H5
  · by_cases h1 : t.val % 250 = 249
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_4 out0_C_5 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        iintro ⟨H0, H1, H2, H3, ⟨%e4, H4⟩, ⟨%e5, H5⟩, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, Hr4, Hr5, Hr6, Hr7, Hr8, Hr9, Hr10, Hr11, Hr12, Hr13, Hr14, Hr15, Hr16, Hr17, Hr18⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hr4 Hr5 Hr6 Hr7 Hr8 Hr9 Hr10 Hr11 Hr12 Hr13 Hr14 Hr15 Hr16 Hr17 Hr18 Hg]
        · isplitl [HS0 HS1 HS2 HS3 Hr4 Hr5 Hr6 Hr7 Hr8 Hr9 Hr10 Hr11 Hr12 Hr13 Hr14 Hr15 Hr16 Hr17 Hr18]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _)
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            isplitl [Hr16]
            · iexact Hr16
            isplitl [Hr17]
            · iexact Hr17
            iexact Hr18
          iexact Hg
        isplitl [Ho]; · iexact Ho
        isplitl [H0]
        · iexact H0
        isplitl [H1]
        · iexact H1
        isplitl [H2]
        · iexact H2
        isplitl [H3]
        · iexact H3
        isplitl [H4]
        · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the carried buffers' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hr4, Hr5, Hr6, Hr7, Hr8, Hr9, Hr10, Hr11, Hr12, Hr13, Hr14, Hr15, Hr16, Hr17, Hr18⟩, Hg⟩
  isplitl [HS0 HS1 HS2 HS3 Hr4 Hr5 Hr6 Hr7 Hr8 Hr9 Hr10 Hr11 Hr12 Hr13 Hr14 Hr15 Hr16 Hr17 Hr18]
  · isplitl [HS0]; · iexists _; iexact HS0
    isplitl [HS1]; · iexists _; iexact HS1
    isplitl [HS2]; · iexists _; iexact HS2
    isplitl [HS3]; · iexists _; iexact HS3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  iexact Hg

/-- The same after the last point. -/
theorem hout0 (c : Dev nD) : (dat0 V c).Φ (Fin.last cfg0.N) ⊢ Pipeline.ΦA spec0 c :=
  Phi_out0 V c _ (by rw [Fin.val_last]; have : cfg0.N = 1000 := N_0; omega)

end

end Cert.KernelIdeal.Pass1

end
-- ==== Proof.Pass2RunB.lean ====
/-
  The second pass (the Jensen-Shannon integrand accumulated per row block over the 250 vocabulary chunks, at the log-sum-exps the first pass wrote): its body run at a MIDDLE chunk (neither first nor last: the carried buffers are read at what the point before left and rewritten; the result buffers are not touched).
  First, what the runs share: the body's two conditionals in closed form over the 4 × 250 grid, and the staging and
  scratch buffers the body is called on.
-/
import proofs.«162734_j6863357739727_1_alg».proof.Proof.Gen.KernelIdeal.Launch
import proofs.«162734_j6863357739727_1_alg».proof.Proof.Gen.KernelIdeal.Skeleton
import proofs.«162734_j6863357739727_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals over the grid -/

/-- The first conditional: the chunk index is 0. -/
abbrev cond1_0 (i : grid1.Coords) : Prop := (Scalar.cmpi .ne (Scalar.extui (Scalar.cmpi .eq (BitVec.ofNat 32 (i 1).val) 0#32)) 0#32) = 1#1
/-- It holds exactly at the points whose chunk index is 0. -/
theorem hcond1_0 : ∀ t : Fin cfg1.N, cond1_0 (grid1.coords t) ↔ t.val % 250 = 0 :=
  (by decide +kernel : ∀ t : Fin grid1.N, cond1_0 (grid1.coords t) ↔ t.val % 250 = 0)

/-- The second conditional: the chunk index is 249. -/
abbrev cond1_1 (i : grid1.Coords) : Prop := k1_cond2 i = 1#1
/-- It holds exactly at the points whose chunk index is 249. -/
theorem hcond1_1 : ∀ t : Fin cfg1.N, cond1_1 (grid1.coords t) ↔ t.val % 250 = 249 :=
  (by decide +kernel : ∀ t : Fin grid1.N, cond1_1 (grid1.coords t) ↔ t.val % 250 = 249)

/-! ## The buffers the body is called on -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
/-- The carried buffers: scoped buffers of the kernel's own, passed beside the windows. -/
abbrev scM1_0 : Memref sig .tc .vmem S512x1 .f32 := Memref.whole cc1_scratch0

/-! ## The body at a middle chunk -/

set_option maxHeartbeats 4000000 in
/-- The pieces the body's stores leave in the carried buffers at a middle chunk (last store first), with the
    run: the input blocks in and out as found; the result buffers untouched, handed back as found; the carried
    buffers at the previous point's contents in, with their pieces written out. -/
noncomputable def kernelRun1_B (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32)
    (xs0 : Vec F S512x1 .f32) :
    Σ' (L6 : List (View.Piece (Elt F) S512x1 .f32)), { LS0 : List (View.Piece (Elt F) S512x1 .f32) //
      ∀ (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xs0
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9) K } := by
  refine ⟨[], ?_, fun xi6 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Pass2

end
-- ==== Proof.Pass2RunA.lean ====
/-
  The second pass (the Jensen-Shannon integrand accumulated per row block over the 250 vocabulary chunks, at the log-sum-exps the first pass wrote): its body run at the FIRST chunk of a row block (the carried buffers are reset, whatever they held, then updated from the chunk; the result buffers are not touched).
-/
import proofs.«162734_j6863357739727_1_alg».proof.Proof.Pass2RunB

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first chunk -/

set_option maxHeartbeats 4000000 in
/-- The pieces the body's stores leave in the carried buffers at the first chunk (last store first), with the
    run: the input blocks in and out as found; the result buffers untouched, handed back as found; the carried
    buffers at anything in, with their pieces written out. -/
noncomputable def kernelRun1_A (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) :
    Σ' (L6 : List (View.Piece (Elt F) S512x1 .f32)), { LS0 : List (View.Piece (Elt F) S512x1 .f32) //
      ∀ (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ (∃ d, owns (c : Thread nD τ) arg9 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9) K } := by
  refine ⟨[], ?_, fun xi6 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Pass2

end
-- ==== Proof.Pass2RunC.lean ====
/-
  The second pass (the Jensen-Shannon integrand accumulated per row block over the 250 vocabulary chunks, at the log-sum-exps the first pass wrote): its body run at the LAST chunk of a row block (the carried buffers are read at what the point before left and rewritten, and the result buffers are stored).
-/
import proofs.«162734_j6863357739727_1_alg».proof.Proof.Pass2RunA

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last chunk -/

set_option maxHeartbeats 4000000 in
/-- The pieces the body's stores leave in the result buffers and in the carried buffers at the last chunk (last store first), with the
    run: the input blocks in and out as found; the result buffers at anything in, with their pieces written out; the carried
    buffers at the previous point's contents in, with their pieces written out. -/
noncomputable def kernelRun1_C (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32)
    (xs0 : Vec F S512x1 .f32) :
    Σ' (L6 : List (View.Piece (Elt F) S512x1 .f32)), { LS0 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ owns (c : Thread nD τ) arg9 fullShare xs0
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Pass2

end
-- ==== Proof.Pass2Frame.lean ====
/-
  The second pass (the Jensen-Shannon integrand accumulated per row block over the 250 vocabulary chunks, at the log-sum-exps the first pass wrote): what its result buffers and carried buffers hold after each grid point (the case the point is
  in, run at the point's buffers and input blocks, over what the point before left in the carried buffers), the
  region invariant that carries those contents from point to point, the pipeline's proof data at any region-entry
  contents `V`, and the body obligation at every point.
-/
import proofs.«162734_j6863357739727_1_alg».proof.Proof.Pass2RunC

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has
    not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not (unfetched, the block index has
    not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not (unfetched, the block index has
    not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not (unfetched, the block index has
    not moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not (unfetched, the block index has
    not moved), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not (unfetched, the block index has
    not moved), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- A result window is idle, and not written back, except at the last chunk. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

/-! ## Views through which contents are stated -/

abbrev VO1_6 : View sig .tc .vmem S512x1 .f32 := (Memref.whole cc1_stg6_0 : Memref sig .tc .vmem S512x1 .f32).view
abbrev VS1_0 : View sig .tc .vmem S512x1 .f32 := scM1_0.view

/-- The class invariant with the scoped buffers listed: the carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ d, owns (c : Thread nD τ) scM1_0 fullShare d)) ∗ (∃ r, prngReg c r)) := by
  unfold Pipeline.ΦA; rw [scopedRest1_eq]; simp only [scM1_0, owns_whole]; try rfl

/-! ## What each case leaves -/

/-- What case A leaves in result window 6's staging buffer: its pieces read back (none: a placeholder nothing consults, the window being idle there). -/
def out1_A_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) : Vec F S512x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for carried buffer 0 tile it, so they cover it. -/
theorem scover1_A_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (y : S512x1.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S512x1.size (by sl_kernel_rfl) y

/-- What case A leaves in carried buffer 0: its pieces read back. -/
def sout1_A_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- What case B leaves in result window 6's staging buffer: its pieces read back (none: a placeholder nothing consults, the window being idle there). -/
def out1_B_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's pieces for carried buffer 0 tile it, so they cover it. -/
theorem scover1_B_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S512x1.size (by sl_kernel_rfl) y

/-- What case B leaves in carried buffer 0: its pieces read back. -/
def sout1_B_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- The last chunk's pieces for result window 6 tile its block, so they cover it. -/
theorem cover1_C_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S512x1.size (by sl_kernel_rfl) y

/-- What case C leaves in result window 6's staging buffer: its pieces read back. -/
def out1_C_6 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's pieces for carried buffer 0 tile it, so they cover it. -/
theorem scover1_C_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S512x1.size (by sl_kernel_rfl) y

/-- What case C leaves in carried buffer 0: its pieces read back. -/
def sout1_C_0 (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

section
variable (V : (c : Dev nD) → (b : Ref sig .tc) → Buf (Elt F) ((c : Thread nD τ).loc b))

/-! ## What the result and carried buffers hold after each point -/

/-- After the body at position `n`: the case the closed forms select there, run at the point's buffers and input blocks,
    the carried buffers read at what position `n - 1` left (a tuple: the result windows in order, then the carried
    buffers). The two conditionals never hold together. -/
def outsAt1 (c : Dev nD) : (n : ℕ) → n < cfg1.N → Vec F S512x1 .f32 × Vec F S512x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 250 = 0 then
      if h1 : (n + 1) % 250 = 249 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 250 = 249 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a first chunk. -/
theorem outsAt1_A (c : Dev nD) (t : Fin cfg1.N) (h0 : t.val % 250 = 0) (h1 : ¬t.val % 250 = 249) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle chunk: over what the point before left. -/
theorem outsAt1_B (c : Dev nD) (t : Fin cfg1.N) (h0 : ¬t.val % 250 = 0) (h1 : ¬t.val % 250 = 249) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last chunk: over what the point before left. -/
theorem outsAt1_C (c : Dev nD) (t : Fin cfg1.N) (h0 : ¬t.val % 250 = 0) (h1 : t.val % 250 = 249) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scoped buffer at anything); afterwards each
    carried buffer at what the point before left in it, the other scoped buffers at anything, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    each result's at `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the closed forms say which case the point is in; the invariant hands the body the carried
    buffers at what the point before left (at anything at the very first point) and takes them back at this point's
    contents; an idle result window is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 1000 := lt_of_lt_of_eq t.isLt (show cfg1.N = 1000 from N_1)
  by_cases h0 : t.val % 250 = 0
  · by_cases h1 : t.val % 250 = 249
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        iexists _; iexact H6
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        iexists _; iexact H6
  · by_cases h1 : t.val % 250 = 249
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hr0, Hr1, Hr2, Hr3, Hr4, Hr5, Hr6, Hr7, Hr8, Hr9, Hr10, Hr11, Hr12, Hr13, Hr14, Hr15, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 Hr10 Hr11 Hr12 Hr13 Hr14 Hr15 HS0 Hg]
        · isplitl [Hr0 Hr1 Hr2 Hr3 Hr4 Hr5 Hr6 Hr7 Hr8 Hr9 Hr10 Hr11 Hr12 Hr13 Hr14 Hr15 HS0]
          · isplitl [Hr0]
            · iexact Hr0
            isplitl [Hr1]
            · iexact Hr1
            isplitl [Hr2]
            · iexact Hr2
            isplitl [Hr3]
            · iexact Hr3
            isplitl [Hr4]
            · iexact Hr4
            isplitl [Hr5]
            · iexact Hr5
            isplitl [Hr6]
            · iexact Hr6
            isplitl [Hr7]
            · iexact Hr7
            isplitl [Hr8]
            · iexact Hr8
            isplitl [Hr9]
            · iexact Hr9
            isplitl [Hr10]
            · iexact Hr10
            isplitl [Hr11]
            · iexact Hr11
            isplitl [Hr12]
            · iexact Hr12
            isplitl [Hr13]
            · iexact Hr13
            isplitl [Hr14]
            · iexact Hr14
            isplitl [Hr15]
            · iexact Hr15
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]
        · iexact H0
        isplitl [H1]
        · iexact H1
        isplitl [H2]
        · iexact H2
        isplitl [H3]
        · iexact H3
        isplitl [H4]
        · iexact H4
        isplitl [H5]
        · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, Hr10, Hr11, Hr12, Hr13, Hr14, Hr15, HS0⟩, Hg⟩
  isplitl [Hr0 Hr1 Hr2 Hr3 Hr4 Hr5 Hr6 Hr7 Hr8 Hr9 Hr10 Hr11 Hr12 Hr13 Hr14 Hr15 HS0]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 1000 := N_1; omega)

end

end Cert.KernelIdeal.Pass2

end
-- ==== Proof.Launch.lean ====
/-
  The whole run of the kernel's program: the first pass's region, the second pass's region, then the host
  operations that mask, sum and average the per-token values.  The buffer contents at each boundary are a fold from
  the launch memory: a region leaves its windows' arrays at what its write-backs make of them and every other buffer
  as it found it; a host stretch leaves what its operations compute.  The second region's proof data are taken at the
  contents the first region leaves, so its two log-sum-exp inputs are the first region's results.  Every weakly fair
  execution terminates, and every unscoped buffer ends at the last valuation of the fold; in particular the five
  argument arrays end as launched.
-/
import proofs.«162734_j6863357739727_1_alg».proof.Proof.Pass1Frame
import proofs.«162734_j6863357739727_1_alg».proof.Proof.Pass2Frame
import proofs.«162734_j6863357739727_1_alg».proof.Proof.Gen.KernelIdeal.Regions

set_option maxRecDepth 16384

noncomputable section

namespace Cert.KernelIdeal.Launch

open Cert.KernelIdeal Cert.KernelIdeal.Gen Cert.KernelIdeal.Pass1 Cert.KernelIdeal.Pass2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry: no host operation precedes it). -/
abbrev W0 : Dev nD → Valuation τ sig (Elt F) := fun c b => m (c, b)
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)
/-- After the second region, entered at the first region's exit contents. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)
/-- After each of the three host stretches. -/
abbrev W3 : Dev nD → Valuation τ sig (Elt F) := fun c => StableHlo.after hostOps2 (W2 m c)
abbrev W4 : Dev nD → Valuation τ sig (Elt F) := fun c => StableHlo.after hostOps2_1 (W3 m c)
abbrev W5 : Dev nD → Valuation τ sig (Elt F) := fun c => StableHlo.after hostOps2_2 (W4 m c)

/-! ## The arguments end as launched -/

/-- An argument array is written by no host stretch and changed by no region (a region reads it through an input
    window or bypasses it), so the fold at it walks back to the launch memory. -/
theorem W5_of_W2 (c : Dev nD) (r : Ref sig .tc) (h2 : r ∉ hostOps2_W) (h21 : r ∉ hostOps2_1_W) (h22 : r ∉ hostOps2_2_W) :
    W5 m c (Proc.devRef .tc r) = W2 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2
theorem W5_main_arg0 (c : Dev nD) : W5 m c (Proc.devRef .tc main_arg0) = m ((c : Thread nD τ).loc main_arg0) :=
  (W5_of_W2 m c main_arg0 (by decide) (by decide) (by decide)).trans <|
    ((W2_arr m c 0).trans (((dat1 (VB m) c).arrAt_in 0 rfl _).trans (A_eq1 (VB m) c 0))).trans <|
      ((W1_arr m c 0).trans (((dat0 (VA m) c).arrAt_in 0 rfl _).trans (A_eq0 (VA m) c 0))).trans rfl
theorem W5_main_arg1 (c : Dev nD) : W5 m c (Proc.devRef .tc main_arg1) = m ((c : Thread nD τ).loc main_arg1) :=
  (W5_of_W2 m c main_arg1 (by decide) (by decide) (by decide)).trans <|
    ((W2_arr m c 1).trans (((dat1 (VB m) c).arrAt_in 1 rfl _).trans (A_eq1 (VB m) c 1))).trans <|
      ((W1_arr m c 1).trans (((dat0 (VA m) c).arrAt_in 1 rfl _).trans (A_eq0 (VA m) c 1))).trans rfl
theorem W5_main_arg2 (c : Dev nD) : W5 m c (Proc.devRef .tc main_arg2) = m ((c : Thread nD τ).loc main_arg2) :=
  (W5_of_W2 m c main_arg2 (by decide) (by decide) (by decide)).trans <|
    ((W2_arr m c 2).trans (((dat1 (VB m) c).arrAt_in 2 rfl _).trans (A_eq1 (VB m) c 2))).trans <|
      ((W1_arr m c 2).trans (((dat0 (VA m) c).arrAt_in 2 rfl _).trans (A_eq0 (VA m) c 2))).trans rfl
theorem W5_main_arg3 (c : Dev nD) : W5 m c (Proc.devRef .tc main_arg3) = m ((c : Thread nD τ).loc main_arg3) :=
  (W5_of_W2 m c main_arg3 (by decide) (by decide) (by decide)).trans <|
    ((W2_arr m c 3).trans (((dat1 (VB m) c).arrAt_in 3 rfl _).trans (A_eq1 (VB m) c 3))).trans <|
      ((W1_arr m c 3).trans (((dat0 (VA m) c).arrAt_in 3 rfl _).trans (A_eq0 (VA m) c 3))).trans rfl
theorem W5_main_arg4 (c : Dev nD) : W5 m c (Proc.devRef .tc main_arg4) = m ((c : Thread nD τ).loc main_arg4) :=
  (W5_of_W2 m c main_arg4 (by decide) (by decide) (by decide)).trans <|
    (W2_of_ne m c main_arg4 (by decide)).trans <| (W1_of_ne m c main_arg4 (by decide)).trans rfl

/-! ## The proof data family and the thread state -/

abbrev adm : (p : Fin 2) → (pcfgs (F := F) p).Adm := fun p => (cfgs p).toPCfg_adm
/-- Each pipeline's proof data at its region's entry contents (a literal match on the pipeline index). -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0: entered from every unscoped buffer at the boundary's contents, its arrays split out and put back at
    the exit contents; the generator register and the scoped buffers into the region invariant and out; nothing owed;
    no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (VA m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (VA m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the boundary's contents, its arrays split out and put back at
    the exit contents; the generator register and the scoped buffers into the region invariant and out; nothing owed;
    no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (VB m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (VB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (c : Dev nD) : List (Seg (pcfgs (F := F)) adm (pdats m) () defs₀ 𝒱₀ L lv) :=
  [ .region (reg0 m), .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)) ]

set_option backward.isDefEq.respectTransparency.types false in
/-- From any memory with zero counters every weakly fair execution of @main terminates, nothing faulting, and every
    unscoped buffer of every core ends at the last valuation of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl,
      (show (iprop(StableHlo.held (c : Thread nD τ) (Pipeline.ucRefs τ sig) (StableHlo.after hostOps2_2 (W4 m c)) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := ?_)
    (QY := fun c s => ∀ b ∈ Pipeline.ucRefs τ sig, s.mem (((c : Thread nD τ)).1, b) = W5 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W5 m c) s')
    isplitl [Hh] <;> iassumption

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Launch

end
-- ==== Proof.Tail.lean ====
/-
  The tail both programs share: from a per-token vector and the labels to the scalar loss.

  A token whose label is the ignore value -100 is masked out.  The loss is the sum of the per-token values
  over the unmasked tokens, divided by the number of unmasked tokens, that number taken to be at least one:

      loss = (∑ t, if label t ≠ -100 then pt t else 0) / max (#{t | label t ≠ -100}) 1.

  It is stated here as ONE function, spelled with the very operations both programs apply, in their order, so
  that each program's tail is this function of its own per-token vector by unfolding alone.  The function is
  never opened further: the two programs agree on the loss as soon as they agree on the per-token vector.
-/
import Idealize.ShloMosaic.Lib.StableHlo
import Idealize.ShloMosaic.PureOps
import Idealize.ShloMosaic.PureOps.Ideal

noncomputable section

namespace Cert.Jsd

open Idealize.ShloMosaic Idealize.SL.Sem

/-- The shape of the per-token vector and of the labels: one axis of 2048 tokens. -/
abbrev TokShape : Shape := ⟨1, ![2048]⟩
/-- The shape of a scalar: no axes. -/
abbrev ScalarShape : Shape := ⟨0, ![]⟩

/-- A scalar broadcasts along the token axis. -/
theorem scalar_bcast_tok : ScalarShape.BroadcastsInDim TokShape (![] : Fin 0 → Fin TokShape.rank) := by decide
/-- Reducing the token axis leaves a scalar. -/
theorem tok_reducesTo_scalar : TokShape.ReducesTo [0] ScalarShape := by decide
/-- A scalar has an element. -/
theorem scalar_numel_pos : 0 < ScalarShape.numel := by decide

/-- The mask: at each token, whether its label differs from the ignore value -100 (the word 4294967196). -/
def maskOf (label : (⟨⟨1, ![2048]⟩, .i32⟩ : BufTy).Contents (Elt Ideal)) :
    (⟨⟨1, ![2048]⟩, .i1⟩ : BufTy).Contents (Elt Ideal) :=
  cmpi .ne label (broadcastInDim TokShape ![] scalar_bcast_tok (constantI ScalarShape 32 4294967196#32))

/-- The loss: the masked sum of the per-token values over the count of unmasked tokens, the count at least one. -/
def lossOf (pt : (⟨⟨1, ![2048]⟩, .f32⟩ : BufTy).Contents (Elt Ideal))
    (label : (⟨⟨1, ![2048]⟩, .i32⟩ : BufTy).Contents (Elt Ideal)) :
    (⟨⟨0, ![]⟩, .f32⟩ : BufTy).Contents (Elt Ideal) :=
  Host.divf
    (Host.reduceAdd
      (select (maskOf label) pt
        (broadcastInDim TokShape ![] scalar_bcast_tok (constant (F := Ideal) ScalarShape .f32 0x00000000#32)))
      (constant (F := Ideal) ScalarShape .f32 0x00000000#32) tok_reducesTo_scalar scalar_numel_pos)
    (sitofp .f32
      (maxsi
        (Host.reduce IntOp.addi (extui 32 (maskOf label) (by decide)) (constantI ScalarShape 32 0#32)
          tok_reducesTo_scalar scalar_numel_pos)
        (constantI ScalarShape 32 1#32)))

end Cert.Jsd

end
-- ==== Proof.Pass2Pieces.lean ====
/-
  The second pass (the Jensen-Shannon integrand accumulated per row block over the 250 vocabulary chunks, at the log-sum-exps the first pass wrote): what each case's stores leave, as the body's arithmetic of the point's input blocks and of what the
  carried buffers held before (the reset values at the first chunk).  Each buffer ends with one store through its
  whole rectangle, so its contents are that store's value; a load of a buffer the body has just stored reads that value.
-/
import proofs.«162734_j6863357739727_1_alg».proof.Proof.Pass2Frame
import Idealize.ShloMosaic.Lib.Pipeline.Value

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl

/-- The value one chunk stores into the carried accumulator, from the input blocks and the accumulator before. -/
def step1 (x0 : Vec F S512x1024 .f32) (x1 : Vec F S128x1024 .f32) (x2 : Vec F S512x2048 .f32) (x3 : Vec F S128x2048 .f32) (x4 x5 acc : Vec F S512x1 .f32) : Vec F S512x1 .f32 :=
  k1_pay1 (k1_pay3 x0 x1 x4) (k1_pay5 x0 x1 x4) (k1_pay7 x0 x1 x2 x3 x4 x5) (k1_pay8 x2 x3 x5) (k1_pay9 x0 x1 x2 x3 x4 x5) acc

theorem sout1_B_0_eq (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) :
    sout1_B_0 c i arg2 harg2 arg3 harg3 arg4 harg4 arg5 harg5 arg6 harg6 arg7 harg7 arg8 harg8 arg9 harg9 hc0 hc1 x0 x1 x2 x3 x4 x5 xs0 = step1 x0 x1 x2 x3 x4 x5 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  try sl_unfold_words
  first
    | rw [View.canon_unit_zero hz2]
    | rw [View.canon_cons_unit_zero (S := S512x1) hz2]
  simp only [step1, View.readAt_eq_ld, harg2.read_unread, harg3.read_unread, harg4.read_unread, harg5.read_unread, harg6.read_unread, harg7.read_unread, harg8.read_unread, harg9.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout1_A_0_eq (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x1024 .f32) (x1 : Vec F S128x1024 .f32) (x2 : Vec F S512x2048 .f32) (x3 : Vec F S128x2048 .f32) (x4 : Vec F S512x1 .f32) (x5 : Vec F S512x1 .f32) :
    sout1_A_0 c i arg2 harg2 arg3 harg3 arg4 harg4 arg5 harg5 arg6 harg6 arg7 harg7 arg8 harg8 arg9 harg9 hc0 hc1 x0 x1 x2 x3 x4 x5 = step1 x0 x1 x2 x3 x4 x5 k1_pay2 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  try sl_unfold_words
  first
    | rw [View.canon_unit_zero hz2]
    | rw [View.canon_cons_unit_zero (S := S512x1) hz2]
  simp only [step1, View.readAt_eq_ld, harg2.read_unread, harg3.read_unread, harg4.read_unread, harg5.read_unread, harg6.read_unread, harg7.read_unread, harg8.read_unread, harg9.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout1_C_0_eq (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) :
    sout1_C_0 c i arg2 harg2 arg3 harg3 arg4 harg4 arg5 harg5 arg6 harg6 arg7 harg7 arg8 harg8 arg9 harg9 hc0 hc1 x0 x1 x2 x3 x4 x5 xs0 = step1 x0 x1 x2 x3 x4 x5 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  try sl_unfold_words
  first
    | rw [View.canon_unit_zero hz2]
    | rw [View.canon_cons_unit_zero (S := S512x1) hz2]
  simp only [step1, View.readAt_eq_ld, harg2.read_unread, harg3.read_unread, harg4.read_unread, harg5.read_unread, harg6.read_unread, harg7.read_unread, harg8.read_unread, harg9.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem out1_C_6_eq (c : Dev nD) (i : grid1.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x1024 .f32) (x1 : Vec F S128x1024 .f32) (x2 : Vec F S512x2048 .f32) (x3 : Vec F S128x2048 .f32) (x4 : Vec F S512x1 .f32) (x5 : Vec F S512x1 .f32) (xs0 : Vec F S512x1 .f32) :
    out1_C_6 c i arg2 harg2 arg3 harg3 arg4 harg4 arg5 harg5 arg6 harg6 arg7 harg7 arg8 harg8 arg9 harg9 hc0 hc1 x0 x1 x2 x3 x4 x5 xs0 = step1 x0 x1 x2 x3 x4 x5 xs0 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  try sl_unfold_words
  first
    | rw [View.canon_unit_zero hz2]
    | rw [View.canon_cons_unit_zero (S := S512x1) hz2]
  simp only [step1, View.readAt_eq_ld, harg2.read_unread, harg3.read_unread, harg4.read_unread, harg5.read_unread, harg6.read_unread, harg7.read_unread, harg8.read_unread, harg9.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

end Cert.KernelIdeal.Pass2

end
-- ==== Proof.GridFacts.lean ====
/-
  Where each window's block sits at a grid point, in closed form.  Point `t` of the 4 × 250 grid is row block
  `t / 250` and vocabulary chunk `t % 250`: the activation windows and the per-row windows follow the row block, the
  weight windows follow the chunk, and no window moves along its second axis.  Decided once over the grid.
-/
import proofs.«162734_j6863357739727_1_alg».proof.Proof.Gen.KernelIdeal.Points

noncomputable section

namespace Cert.KernelIdeal.Grid

open Cert.KernelIdeal Cert.KernelIdeal.Gen
open Idealize.ShloMosaic Idealize.ShloMosaic.TcCoe

variable {F : FTy → Type} [FloatOps F]

theorem idx0_0 : ∀ t : Fin cfg0.N, win0_0.index t (0 : Fin 2) = t.val / 250 ∧ win0_0.index t (1 : Fin 2) = 0 :=
  (by decide +kernel : ∀ t : Fin grid0.N, win0_0.index t (0 : Fin 2) = t.val / 250 ∧ win0_0.index t (1 : Fin 2) = 0)
theorem idx0_2 : ∀ t : Fin cfg0.N, win0_2.index t (0 : Fin 2) = t.val / 250 ∧ win0_2.index t (1 : Fin 2) = 0 :=
  (by decide +kernel : ∀ t : Fin grid0.N, win0_2.index t (0 : Fin 2) = t.val / 250 ∧ win0_2.index t (1 : Fin 2) = 0)
theorem idx0_4 : ∀ t : Fin cfg0.N, win0_4.index t (0 : Fin 2) = t.val / 250 ∧ win0_4.index t (1 : Fin 2) = 0 :=
  (by decide +kernel : ∀ t : Fin grid0.N, win0_4.index t (0 : Fin 2) = t.val / 250 ∧ win0_4.index t (1 : Fin 2) = 0)
theorem idx0_5 : ∀ t : Fin cfg0.N, win0_5.index t (0 : Fin 2) = t.val / 250 ∧ win0_5.index t (1 : Fin 2) = 0 :=
  (by decide +kernel : ∀ t : Fin grid0.N, win0_5.index t (0 : Fin 2) = t.val / 250 ∧ win0_5.index t (1 : Fin 2) = 0)
theorem idx0_1 : ∀ t : Fin cfg0.N, win0_1.index t (0 : Fin 2) = t.val % 250 ∧ win0_1.index t (1 : Fin 2) = 0 :=
  (by decide +kernel : ∀ t : Fin grid0.N, win0_1.index t (0 : Fin 2) = t.val % 250 ∧ win0_1.index t (1 : Fin 2) = 0)
theorem idx0_3 : ∀ t : Fin cfg0.N, win0_3.index t (0 : Fin 2) = t.val % 250 ∧ win0_3.index t (1 : Fin 2) = 0 :=
  (by decide +kernel : ∀ t : Fin grid0.N, win0_3.index t (0 : Fin 2) = t.val % 250 ∧ win0_3.index t (1 : Fin 2) = 0)
theorem idx1_0 : ∀ t : Fin cfg1.N, win1_0.index t (0 : Fin 2) = t.val / 250 ∧ win1_0.index t (1 : Fin 2) = 0 :=
  (by decide +kernel : ∀ t : Fin grid1.N, win1_0.index t (0 : Fin 2) = t.val / 250 ∧ win1_0.index t (1 : Fin 2) = 0)
theorem idx1_2 : ∀ t : Fin cfg1.N, win1_2.index t (0 : Fin 2) = t.val / 250 ∧ win1_2.index t (1 : Fin 2) = 0 :=
  (by decide +kernel : ∀ t : Fin grid1.N, win1_2.index t (0 : Fin 2) = t.val / 250 ∧ win1_2.index t (1 : Fin 2) = 0)
theorem idx1_4 : ∀ t : Fin cfg1.N, win1_4.index t (0 : Fin 2) = t.val / 250 ∧ win1_4.index t (1 : Fin 2) = 0 :=
  (by decide +kernel : ∀ t : Fin grid1.N, win1_4.index t (0 : Fin 2) = t.val / 250 ∧ win1_4.index t (1 : Fin 2) = 0)
theorem idx1_5 : ∀ t : Fin cfg1.N, win1_5.index t (0 : Fin 2) = t.val / 250 ∧ win1_5.index t (1 : Fin 2) = 0 :=
  (by decide +kernel : ∀ t : Fin grid1.N, win1_5.index t (0 : Fin 2) = t.val / 250 ∧ win1_5.index t (1 : Fin 2) = 0)
theorem idx1_6 : ∀ t : Fin cfg1.N, win1_6.index t (0 : Fin 2) = t.val / 250 ∧ win1_6.index t (1 : Fin 2) = 0 :=
  (by decide +kernel : ∀ t : Fin grid1.N, win1_6.index t (0 : Fin 2) = t.val / 250 ∧ win1_6.index t (1 : Fin 2) = 0)
theorem idx1_1 : ∀ t : Fin cfg1.N, win1_1.index t (0 : Fin 2) = t.val % 250 ∧ win1_1.index t (1 : Fin 2) = 0 :=
  (by decide +kernel : ∀ t : Fin grid1.N, win1_1.index t (0 : Fin 2) = t.val % 250 ∧ win1_1.index t (1 : Fin 2) = 0)
theorem idx1_3 : ∀ t : Fin cfg1.N, win1_3.index t (0 : Fin 2) = t.val % 250 ∧ win1_3.index t (1 : Fin 2) = 0 :=
  (by decide +kernel : ∀ t : Fin grid1.N, win1_3.index t (0 : Fin 2) = t.val % 250 ∧ win1_3.index t (1 : Fin 2) = 0)

end Cert.KernelIdeal.Grid

end
-- ==== Proof.Blocks.lean ====
/-
  An input window's block at a grid point, read at an index: row `r` of the block of point `t` is row
  `512 · (t / 250) + r` of the array for a window that follows the row block, and row `128 · (t % 250) + r` for a window
  that follows the vocabulary chunk; the column is the same (a block's coordinate is its index times its size plus the
  coordinate inside it).
-/
import proofs.«162734_j6863357739727_1_alg».proof.Proof.Pass1Frame
import proofs.«162734_j6863357739727_1_alg».proof.Proof.Pass2Frame
import proofs.«162734_j6863357739727_1_alg».proof.Proof.GridFacts
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Pass1 Cert.KernelIdeal.Pass2 Cert.KernelIdeal.Grid
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem row_lt (t : ℕ) (ht : t < 1000) (r : Fin 512) : 512 * (t / 250) + r.val < 2048 := by
  have : t / 250 < 4 := by omega
  omega
theorem chunk_lt (t : ℕ) (r : Fin 128) : 128 * (t % 250) + r.val < 32000 := by
  have : t % 250 < 250 := Nat.mod_lt _ (by decide)
  omega

theorem iblk0_0_apply (c : Dev nD) (t : Fin cfg0.N) (r : Fin 512) (q : Fin 1024) :
    (iblk0 V c 0 t : Vec F S512x1024 .f32) (ix2 r q)
      = V c (Pipeline.arrRef spec0 0) (ix2 (⟨512 * (t.val / 250) + r.val, row_lt t.val (lt_of_lt_of_eq t.isLt (show cfg0.N = 1000 from N_0)) r⟩ : Fin 2048) q) := by
  have hi := idx0_0 t
  unfold iblk0
  rw [View.read_apply]
  refine congrArg (V c (Pipeline.arrRef spec0 0)) ?_
  funext a
  apply Fin.ext
  match a with
  | ⟨0, _⟩ => show win0_0.index t 0 * 512 + 1 * r.val = 512 * (t.val / 250) + r.val; rw [hi.1]; omega
  | ⟨1, _⟩ => show win0_0.index t 1 * 1024 + 1 * q.val = q.val; rw [hi.2]; omega

theorem iblk0_1_apply (c : Dev nD) (t : Fin cfg0.N) (r : Fin 128) (q : Fin 1024) :
    (iblk0 V c 1 t : Vec F S128x1024 .f32) (ix2 r q)
      = V c (Pipeline.arrRef spec0 1) (ix2 (⟨128 * (t.val % 250) + r.val, chunk_lt t.val r⟩ : Fin 32000) q) := by
  have hi := idx0_1 t
  unfold iblk0
  rw [View.read_apply]
  refine congrArg (V c (Pipeline.arrRef spec0 1)) ?_
  funext a
  apply Fin.ext
  match a with
  | ⟨0, _⟩ => show win0_1.index t 0 * 128 + 1 * r.val = 128 * (t.val % 250) + r.val; rw [hi.1]; omega
  | ⟨1, _⟩ => show win0_1.index t 1 * 1024 + 1 * q.val = q.val; rw [hi.2]; omega

theorem iblk0_2_apply (c : Dev nD) (t : Fin cfg0.N) (r : Fin 512) (q : Fin 2048) :
    (iblk0 V c 2 t : Vec F S512x2048 .f32) (ix2 r q)
      = V c (Pipeline.arrRef spec0 2) (ix2 (⟨512 * (t.val / 250) + r.val, row_lt t.val (lt_of_lt_of_eq t.isLt (show cfg0.N = 1000 from N_0)) r⟩ : Fin 2048) q) := by
  have hi := idx0_2 t
  unfold iblk0
  rw [View.read_apply]
  refine congrArg (V c (Pipeline.arrRef spec0 2)) ?_
  funext a
  apply Fin.ext
  match a with
  | ⟨0, _⟩ => show win0_2.index t 0 * 512 + 1 * r.val = 512 * (t.val / 250) + r.val; rw [hi.1]; omega
  | ⟨1, _⟩ => show win0_2.index t 1 * 2048 + 1 * q.val = q.val; rw [hi.2]; omega

theorem iblk0_3_apply (c : Dev nD) (t : Fin cfg0.N) (r : Fin 128) (q : Fin 2048) :
    (iblk0 V c 3 t : Vec F S128x2048 .f32) (ix2 r q)
      = V c (Pipeline.arrRef spec0 3) (ix2 (⟨128 * (t.val % 250) + r.val, chunk_lt t.val r⟩ : Fin 32000) q) := by
  have hi := idx0_3 t
  unfold iblk0
  rw [View.read_apply]
  refine congrArg (V c (Pipeline.arrRef spec0 3)) ?_
  funext a
  apply Fin.ext
  match a with
  | ⟨0, _⟩ => show win0_3.index t 0 * 128 + 1 * r.val = 128 * (t.val % 250) + r.val; rw [hi.1]; omega
  | ⟨1, _⟩ => show win0_3.index t 1 * 2048 + 1 * q.val = q.val; rw [hi.2]; omega

theorem iblk1_0_apply (c : Dev nD) (t : Fin cfg1.N) (r : Fin 512) (q : Fin 1024) :
    (iblk1 V c 0 t : Vec F S512x1024 .f32) (ix2 r q)
      = V c (Pipeline.arrRef spec1 0) (ix2 (⟨512 * (t.val / 250) + r.val, row_lt t.val (lt_of_lt_of_eq t.isLt (show cfg1.N = 1000 from N_1)) r⟩ : Fin 2048) q) := by
  have hi := idx1_0 t
  unfold iblk1
  rw [View.read_apply]
  refine congrArg (V c (Pipeline.arrRef spec1 0)) ?_
  funext a
  apply Fin.ext
  match a with
  | ⟨0, _⟩ => show win1_0.index t 0 * 512 + 1 * r.val = 512 * (t.val / 250) + r.val; rw [hi.1]; omega
  | ⟨1, _⟩ => show win1_0.index t 1 * 1024 + 1 * q.val = q.val; rw [hi.2]; omega

theorem iblk1_1_apply (c : Dev nD) (t : Fin cfg1.N) (r : Fin 128) (q : Fin 1024) :
    (iblk1 V c 1 t : Vec F S128x1024 .f32) (ix2 r q)
      = V c (Pipeline.arrRef spec1 1) (ix2 (⟨128 * (t.val % 250) + r.val, chunk_lt t.val r⟩ : Fin 32000) q) := by
  have hi := idx1_1 t
  unfold iblk1
  rw [View.read_apply]
  refine congrArg (V c (Pipeline.arrRef spec1 1)) ?_
  funext a
  apply Fin.ext
  match a with
  | ⟨0, _⟩ => show win1_1.index t 0 * 128 + 1 * r.val = 128 * (t.val % 250) + r.val; rw [hi.1]; omega
  | ⟨1, _⟩ => show win1_1.index t 1 * 1024 + 1 * q.val = q.val; rw [hi.2]; omega

theorem iblk1_2_apply (c : Dev nD) (t : Fin cfg1.N) (r : Fin 512) (q : Fin 2048) :
    (iblk1 V c 2 t : Vec F S512x2048 .f32) (ix2 r q)
      = V c (Pipeline.arrRef spec1 2) (ix2 (⟨512 * (t.val / 250) + r.val, row_lt t.val (lt_of_lt_of_eq t.isLt (show cfg1.N = 1000 from N_1)) r⟩ : Fin 2048) q) := by
  have hi := idx1_2 t
  unfold iblk1
  rw [View.read_apply]
  refine congrArg (V c (Pipeline.arrRef spec1 2)) ?_
  funext a
  apply Fin.ext
  match a with
  | ⟨0, _⟩ => show win1_2.index t 0 * 512 + 1 * r.val = 512 * (t.val / 250) + r.val; rw [hi.1]; omega
  | ⟨1, _⟩ => show win1_2.index t 1 * 2048 + 1 * q.val = q.val; rw [hi.2]; omega

theorem iblk1_3_apply (c : Dev nD) (t : Fin cfg1.N) (r : Fin 128) (q : Fin 2048) :
    (iblk1 V c 3 t : Vec F S128x2048 .f32) (ix2 r q)
      = V c (Pipeline.arrRef spec1 3) (ix2 (⟨128 * (t.val % 250) + r.val, chunk_lt t.val r⟩ : Fin 32000) q) := by
  have hi := idx1_3 t
  unfold iblk1
  rw [View.read_apply]
  refine congrArg (V c (Pipeline.arrRef spec1 3)) ?_
  funext a
  apply Fin.ext
  match a with
  | ⟨0, _⟩ => show win1_3.index t 0 * 128 + 1 * r.val = 128 * (t.val % 250) + r.val; rw [hi.1]; omega
  | ⟨1, _⟩ => show win1_3.index t 1 * 2048 + 1 * q.val = q.val; rw [hi.2]; omega

theorem iblk1_4_apply (c : Dev nD) (t : Fin cfg1.N) (r : Fin 512) (q : Fin 1) :
    (iblk1 V c 4 t : Vec F S512x1 .f32) (ix2 r q)
      = V c (Pipeline.arrRef spec1 4) (ix2 (⟨512 * (t.val / 250) + r.val, row_lt t.val (lt_of_lt_of_eq t.isLt (show cfg1.N = 1000 from N_1)) r⟩ : Fin 2048) q) := by
  have hi := idx1_4 t
  unfold iblk1
  rw [View.read_apply]
  refine congrArg (V c (Pipeline.arrRef spec1 4)) ?_
  funext a
  apply Fin.ext
  match a with
  | ⟨0, _⟩ => show win1_4.index t 0 * 512 + 1 * r.val = 512 * (t.val / 250) + r.val; rw [hi.1]; omega
  | ⟨1, _⟩ => show win1_4.index t 1 * 1 + 1 * q.val = q.val; rw [hi.2]; omega

theorem iblk1_5_apply (c : Dev nD) (t : Fin cfg1.N) (r : Fin 512) (q : Fin 1) :
    (iblk1 V c 5 t : Vec F S512x1 .f32) (ix2 r q)
      = V c (Pipeline.arrRef spec1 5) (ix2 (⟨512 * (t.val / 250) + r.val, row_lt t.val (lt_of_lt_of_eq t.isLt (show cfg1.N = 1000 from N_1)) r⟩ : Fin 2048) q) := by
  have hi := idx1_5 t
  unfold iblk1
  rw [View.read_apply]
  refine congrArg (V c (Pipeline.arrRef spec1 5)) ?_
  funext a
  apply Fin.ext
  match a with
  | ⟨0, _⟩ => show win1_5.index t 0 * 512 + 1 * r.val = 512 * (t.val / 250) + r.val; rw [hi.1]; omega
  | ⟨1, _⟩ => show win1_5.index t 1 * 1 + 1 * q.val = q.val; rw [hi.2]; omega

end Cert.KernelIdeal.Blocks

end
-- ==== Proof.Spec.lean ====
/-
  The per-token value both programs compute, stated over one token's two rows of logits.

  A row of student logits `xs` and a row of teacher logits `xt` over the 32000-word vocabulary give the
  log-probabilities `lq v = xs v - lse xs`, `lp v = xt v - lse xt`, and the token's value is the sum over the
  vocabulary of the generalised Jensen–Shannon integrand at weight one half,

      (p/2) (lp - log (p/2 + q/2)) + (q/2) (lq - log (p/2 + q/2)),   p = exp lp, q = exp lq.

  Two spellings of it are stated here.  The ONE-SHOT spelling subtracts the row's maximum first and then the
  logarithm of the shifted sum of exponentials.  The CHUNKED spelling cuts the vocabulary into 250 chunks of
  128 words, carries a running maximum and a running rescaled sum of exponentials from chunk to chunk, forms
  the log-sum-exp as maximum plus logarithm of the sum at the end, and then accumulates the integrand chunk by
  chunk.  On rows of real numbers the two are equal (proved elsewhere): the running pair is the maximum and the
  shifted sum of the words seen so far, because exp (a - b) · exp (b - c) = exp (a - c) on the reals.
-/
import Idealize.ShloMosaic.PureOps.Ideal

noncomputable section

namespace Cert.Jsd

open Idealize.ShloMosaic

/-- One half, as the single-precision word both programs carry. -/
abbrev half : EReal := Ideal.ofBits .f32 0x3F000000#32

/-- The integrand at one word, from the student's and the teacher's log-probability there. -/
def cell (lq lp : EReal) : EReal :=
  (half * Ideal.exp lp) * (lp - Ideal.log (half * Ideal.exp lp + half * Ideal.exp lq))
    + (half * Ideal.exp lq) * (lq - Ideal.log (half * Ideal.exp lp + half * Ideal.exp lq))

/-- A logit: the inner product of a token's hidden row with a word's weight row. -/
def logit {H : ℕ} (x : Fin H → EReal) (w : Fin H → EReal) : EReal := ∑ k, x k * w k

/-! ## The one-shot spelling -/

/-- A row's largest entry. -/
def rowMax (x : Fin 32000 → EReal) : EReal := ⨆ v, x v

/-- The log-probability of word `v`: shift by the maximum, then subtract the logarithm of the shifted sum. -/
def logSoftmax (x : Fin 32000 → EReal) (v : Fin 32000) : EReal :=
  (x v - rowMax x) - Ideal.log (∑ w, Ideal.exp (x w - rowMax x))

/-- The token's value, one-shot. -/
def perTokenOneShot (xs xt : Fin 32000 → EReal) : EReal :=
  ∑ v, cell (logSoftmax xs v) (logSoftmax xt v)

/-! ## The chunked spelling -/

/-- Word `u` of chunk `j`. -/
def word (j : Fin 250) (u : Fin 128) : Fin 32000 := ⟨128 * j.val + u.val, by omega⟩

/-- The running maximum and rescaled sum after the first `n` chunks (`n ≤ 250`; beyond, the last value). -/
def running (x : Fin 32000 → EReal) : ℕ → EReal × EReal
  | 0 => (⊥, 0)
  | n + 1 =>
    if h : n < 250 then
      let m' := max (running x n).1 (⨆ u, x (word ⟨n, h⟩ u))
      (m', (running x n).2 * Ideal.exp ((running x n).1 - m') + ∑ u, Ideal.exp (x (word ⟨n, h⟩ u) - m'))
    else running x n

/-- The log-sum-exp the chunked pass ends with: the last maximum plus the logarithm of the last sum. -/
def lseChunked (x : Fin 32000 → EReal) : EReal := (running x 250).1 + Ideal.log (running x 250).2

/-- The integrand summed over one chunk, at given log-sum-exps. -/
def chunkSum (xs xt : Fin 32000 → EReal) (ls lt : EReal) (j : Fin 250) : EReal :=
  ∑ u, cell (xs (word j u) - ls) (xt (word j u) - lt)

/-- The accumulator after the first `n` chunks. -/
def accum (xs xt : Fin 32000 → EReal) (ls lt : EReal) : ℕ → EReal
  | 0 => 0
  | n + 1 => if h : n < 250 then accum xs xt ls lt n + chunkSum xs xt ls lt ⟨n, h⟩ else accum xs xt ls lt n

/-- The token's value, chunked. -/
def perTokenChunked (xs xt : Fin 32000 → EReal) : EReal :=
  accum xs xt (lseChunked xs) (lseChunked xt) 250

end Cert.Jsd

end
-- ==== Proof.PayIdeal.lean ====
/-
  The kernel's arithmetic read at an index, over the extended reals, in the words of the specification.

  Each payload of the two passes is one pure term over the vectors the body loads.  Read at a row r (and a
  lane u) it is: a logit  Σ_k x[r,k] · w[u,k]  (the product with the word for 1 and the zero accumulator
  vanish: a · 1 = a, 0 + a = a); the larger of a carried column and the row's largest logit; the carried sum
  rescaled by exp (old maximum − new maximum) plus the row's sum of shifted exponentials; the maximum plus the
  logarithm of the sum; and, in the second pass, the carried column plus the row's sum of the integrand.
  The only facts used are: a shape cast [a] → [a,1] and a broadcast [a,1] → [a,b] read their operand at the
  row; a lane sum is the sum over the lanes; a lane maximum from −∞ is the supremum over the lanes; a matrix
  product with one contracted axis is the sum over that axis.
-/
import proofs.«162734_j6863357739727_1_alg».proof.Proof.Gen.KernelIdeal.Skeleton
import proofs.«162734_j6863357739727_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Cert.KernelIdeal Cert.KernelIdeal.Gen Idealize.ShloMosaic Idealize.ShloMosaic.ValueIdx

/-! ## Words -/

/-- The word 0x3F800000 is the extended real one. -/
theorem word_one : Ideal.ofBits .f32 0x3F800000#32 = 1 := by
  rw [show (1 : EReal) = ((1 : ℝ) : EReal) by norm_cast]
  simp [Ideal.ofBits, Ideal.ieee, -EReal.coe_mul]; norm_num

/-- The word 0xFF800000 is −∞. -/
theorem word_neg_inf : Ideal.ofBits .f32 0xFF800000#32 = ⊥ := by simp [Ideal.ofBits, Ideal.ieee]

/-! ## Layout operations on a column -/

section Layout
variable {α : Type}

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane reductions of a [512, 128] block -/

/-- A fold of max from b over a finite set is the larger of b and the supremum over the set. -/
theorem fold_max_eq_sup {ι : Type*} (s : Finset ι) (b : EReal) (f : ι → EReal) :
    s.fold max b f = max b (s.sup f) := by
  classical
  induction s using Finset.induction_on with
  | empty => simp
  | insert a s ha ih => rw [Finset.fold_insert ha, Finset.sup_insert, ih, max_left_comm]

/-- The lane sum of a block at row r is the sum over the 128 lanes. -/
theorem laneSum_apply (src : FVec Ideal S512x128 .f32) (r : Fin 512) :
    multiReduction .add [1] S512 src 0x00000000#32 reduces_S512x128_S512 (.inl rfl) rfl (ix1 r)
      = ∑ u : Fin 128, src (ix2 r u) := by
  refine (Ideal.multiReduction_add_single src 0x00000000#32 reduces_S512x128_S512 (.inl rfl) rfl (ix1 r)).trans ?_
  exact Finset.sum_congr rfl fun u _ => congrArg src (funext fun a => Fin.ext (by
    match a with
    | ⟨0, _⟩ => rfl
    | ⟨1, _⟩ => rfl))

/-- The lane maximum of a block at row r, taken from −∞, is the supremum over the 128 lanes. -/
theorem laneMax_apply (src : FVec Ideal S512x128 .f32) (r : Fin 512) :
    multiReduction .maximumf [1] S512 src 0xFF800000#32 reduces_S512x128_S512 (.inl rfl) rfl (ix1 r)
      = ⨆ u : Fin 128, src (ix2 r u) := by
  refine (Ideal.multiReduction_maximumf_single src 0xFF800000#32 reduces_S512x128_S512 (.inl rfl) rfl (ix1 r)).trans ?_
  refine (fold_max_eq_sup _ _ _).trans ?_
  refine (congrArg (fun b : EReal => max b _) word_neg_inf).trans ?_
  rw [max_eq_right bot_le, Finset.sup_univ_eq_iSup]
  exact congrArg iSup (funext fun u => congrArg src (funext fun a => Fin.ext (by
    match a with
    | ⟨0, _⟩ => rfl
    | ⟨1, _⟩ => rfl)))

/-! ## The matrix products -/

/-- The student's logit of row r and word u of the chunk: the inner product over the 1024 hidden units
    (2048 for the teacher) of the token's row with the word's row. -/
abbrev lg {H : ℕ} (x : (⟨2, ![512, H]⟩ : Shape).Idx → EReal) (w : (⟨2, ![128, H]⟩ : Shape).Idx → EReal)
    (r : Fin 512) (u : Fin 128) : EReal :=
  Cert.Jsd.logit (fun k : Fin H => x (ix2 r k)) (fun k : Fin H => w (ix2 u k))

theorem lhs1024_0 (i : S512x128.Idx) (q : dot_S512x1024_S128x1024_S512x128_1_1_0_0_n_n.contr.Idx) :
    (dot_S512x1024_S128x1024_S512x128_1_1_0_0_n_n.lhsIdx i q 0).val = (i 0).val := by
  unfold DotDims.lhsIdx
  rw [dif_neg (show ¬(0 : Fin S512x1024.rank) ∈ dot_S512x1024_S128x1024_S512x128_1_1_0_0_n_n.lhsBatch by decide),
    dif_pos (show (0 : Fin S512x1024.rank) ∈ dot_S512x1024_S128x1024_S512x128_1_1_0_0_n_n.lhsNonContracting by decide)]
  rfl

theorem rhs1024_0 (i : S512x128.Idx) (q : dot_S512x1024_S128x1024_S512x128_1_1_0_0_n_n.contr.Idx) :
    (dot_S512x1024_S128x1024_S512x128_1_1_0_0_n_n.rhsIdx i q 0).val = (i 1).val := by
  unfold DotDims.rhsIdx
  rw [dif_neg (show ¬(0 : Fin S128x1024.rank) ∈ dot_S512x1024_S128x1024_S512x128_1_1_0_0_n_n.rhsBatch by decide),
    dif_pos (show (0 : Fin S128x1024.rank) ∈ dot_S512x1024_S128x1024_S512x128_1_1_0_0_n_n.rhsNonContracting by decide)]
  rfl

/-- The student's matrix product into the zero block, at (r, u): the sum over the contracted axis. -/
theorem matmul1024_apply (x : FVec Ideal S512x1024 .bf16) (w : FVec Ideal S128x1024 .bf16) (r : Fin 512) (u : Fin 128) :
    FloatOps.matmul dot_S512x1024_S128x1024_S512x128_1_1_0_0_n_n none x w (constant (F := Ideal) S512x128 .f32 0x00000000#32) (ix2 r u)
      = ∑ k : Fin 1024, x (ix2 r k) * w (ix2 u k) := by
  refine (Ideal.matmul_constant_zero_apply dot_S512x1024_S128x1024_S512x128_1_1_0_0_n_n none x w (ix2 r u)).trans ?_
  rw [← Equiv.sum_comp (contrEquiv1 dot_S512x1024_S128x1024_S512x128_1_1_0_0_n_n 1024 rfl rfl).symm]
  refine Finset.sum_congr rfl fun k _ => ?_
  have hk := contrEquiv1_symm_val dot_S512x1024_S128x1024_S512x128_1_1_0_0_n_n 1024 rfl rfl k
  have el : dot_S512x1024_S128x1024_S512x128_1_1_0_0_n_n.lhsIdx (ix2 r u)
      ((contrEquiv1 dot_S512x1024_S128x1024_S512x128_1_1_0_0_n_n 1024 rfl rfl).symm k) = ix2 r k :=
    funext fun a => Fin.ext (by
      match a with
      | ⟨0, _⟩ => exact lhs1024_0 _ _
      | ⟨1, _⟩ => exact (dot_S512x1024_S128x1024_S512x128_1_1_0_0_n_n.lhsIdx_val_of_single rfl _ _).trans hk)
  have er : dot_S512x1024_S128x1024_S512x128_1_1_0_0_n_n.rhsIdx (ix2 r u)
      ((contrEquiv1 dot_S512x1024_S128x1024_S512x128_1_1_0_0_n_n 1024 rfl rfl).symm k) = ix2 u k :=
    funext fun a => Fin.ext (by
      match a with
      | ⟨0, _⟩ => exact rhs1024_0 _ _
      | ⟨1, _⟩ => exact (dot_S512x1024_S128x1024_S512x128_1_1_0_0_n_n.rhsIdx_val_of_single rfl _ _).trans hk)
  rw [el, er]

theorem lhs2048_0 (i : S512x128.Idx) (q : dot_S512x2048_S128x2048_S512x128_1_1_0_0_n_n.contr.Idx) :
    (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide),
    dif_pos (show (0 : Fin S512x2048.rank) ∈ dot_S512x2048_S128x2048_S512x128_1_1_0_0_n_n.lhsNonContracting by decide)]
  rfl

theorem rhs2048_0 (i : S512x128.Idx) (q : dot_S512x2048_S128x2048_S512x128_1_1_0_0_n_n.contr.Idx) :
    (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide),
    dif_pos (show (0 : Fin S128x2048.rank) ∈ dot_S512x2048_S128x2048_S512x128_1_1_0_0_n_n.rhsNonContracting by decide)]
  rfl

/-- The teacher's matrix product into the zero block, at (r, u). -/
theorem matmul2048_apply (x : FVec Ideal S512x2048 .bf16) (w : FVec Ideal S128x2048 .bf16) (r : Fin 512) (u : Fin 128) :
    FloatOps.matmul dot_S512x2048_S128x2048_S512x128_1_1_0_0_n_n none x w (constant (F := Ideal) S512x128 .f32 0x00000000#32) (ix2 r u)
      = ∑ k : Fin 2048, x (ix2 r k) * w (ix2 u k) := by
  refine (Ideal.matmul_constant_zero_apply dot_S512x2048_S128x2048_S512x128_1_1_0_0_n_n none x w (ix2 r u)).trans ?_
  rw [← Equiv.sum_comp (contrEquiv1 dot_S512x2048_S128x2048_S512x128_1_1_0_0_n_n 2048 rfl rfl).symm]
  refine Finset.sum_congr rfl fun k _ => ?_
  have hk := contrEquiv1_symm_val dot_S512x2048_S128x2048_S512x128_1_1_0_0_n_n 2048 rfl rfl k
  have el : dot_S512x2048_S128x2048_S512x128_1_1_0_0_n_n.lhsIdx (ix2 r u)
      ((contrEquiv1 dot_S512x2048_S128x2048_S512x128_1_1_0_0_n_n 2048 rfl rfl).symm k) = ix2 r k :=
    funext fun a => Fin.ext (by
      match a with
      | ⟨0, _⟩ => exact lhs2048_0 _ _
      | ⟨1, _⟩ => exact (dot_S512x2048_S128x2048_S512x128_1_1_0_0_n_n.lhsIdx_val_of_single rfl _ _).trans hk)
  have er : dot_S512x2048_S128x2048_S512x128_1_1_0_0_n_n.rhsIdx (ix2 r u)
      ((contrEquiv1 dot_S512x2048_S128x2048_S512x128_1_1_0_0_n_n 2048 rfl rfl).symm k) = ix2 u k :=
    funext fun a => Fin.ext (by
      match a with
      | ⟨0, _⟩ => exact rhs2048_0 _ _
      | ⟨1, _⟩ => exact (dot_S512x2048_S128x2048_S512x128_1_1_0_0_n_n.rhsIdx_val_of_single rfl _ _).trans hk)
  rw [el, er]

/-! ## The first pass -/

/-- The student's logits block at (r, u). -/
theorem pay12_apply (x : Vec Ideal S512x1024 .f32) (w : Vec Ideal S128x1024 .f32) (r : Fin 512) (u : Fin 128) :
    k0_pay12 (F := Ideal) x w (ix2 r u) = lg x w r u := by
  unfold k0_pay12
  show FloatOps.matmul dot_S512x1024_S128x1024_S512x128_1_1_0_0_n_n none (truncf .bf16 x bitsLt_bf16_f32)
      (truncf .bf16 w bitsLt_bf16_f32) (constant (F := Ideal) S512x128 .f32 0x00000000#32) (ix2 r u)
      * Ideal.ofBits .f32 0x3F800000#32 = _
  rw [word_one, mul_one]
  exact matmul1024_apply _ _ r u

/-- The teacher's logits block at (r, u). -/
theorem pay13_apply (x : Vec Ideal S512x2048 .f32) (w : Vec Ideal S128x2048 .f32) (r : Fin 512) (u : Fin 128) :
    k0_pay13 (F := Ideal) x w (ix2 r u) = lg x w r u := by
  unfold k0_pay13
  show FloatOps.matmul dot_S512x2048_S128x2048_S512x128_1_1_0_0_n_n none (truncf .bf16 x bitsLt_bf16_f32)
      (truncf .bf16 w bitsLt_bf16_f32) (constant (F := Ideal) S512x128 .f32 0x00000000#32) (ix2 r u)
      * Ideal.ofBits .f32 0x3F800000#32 = _
  rw [word_one, mul_one]
  exact matmul2048_apply _ _ r u

/-- The new running maximum of a block z against the carried column m, at row r. -/
theorem pay3_apply (z : FVec Ideal S512x128 .f32) (m : Vec Ideal S512x1 .f32) (r : Fin 512) :
    k0_pay3 (F := Ideal) z m (ix2 r (0 : Fin 1)) = max (m (ix2 r (0 : Fin 1))) (⨆ u : Fin 128, z (ix2 r u)) := by
  unfold k0_pay3
  show max (m (ix2 r (0 : Fin 1))) (shapeCast S512x1
      (multiReduction .maximumf [1] S512 z 0xFF800000#32 reduces_S512x128_S512 (.inl rfl) rfl)
      shapeCasts_S512_S512x1 (ix2 r (0 : Fin 1))) = _
  refine congrArg (max (m (ix2 r (0 : Fin 1)))) ?_
  refine (shapeCast_a_a1_apply _ _ r 0).trans ?_
  exact laneMax_apply z r

/-- The student's new running maximum at row r: the larger of the carried maximum and the row's largest
    logit of the chunk. -/
theorem pay14_apply (x : Vec Ideal S512x1024 .f32) (w : Vec Ideal S128x1024 .f32) (ms : Vec Ideal S512x1 .f32)
    (r : Fin 512) :
    k0_pay14 (F := Ideal) x w ms (ix2 r (0 : Fin 1))
      = max (ms (ix2 r (0 : Fin 1))) (⨆ u : Fin 128, lg x w r u) := by
  refine (pay3_apply (k0_pay12 (F := Ideal) x w) ms r).trans ?_
  exact congrArg (max _) (congrArg iSup (funext fun u => pay12_apply x w r u))

/-- The rescaled running sum as a term over a block z and three columns: the carried sum l times
    exp (m2 − new maximum), plus the lane sum of exp (z − new maximum). -/
def rescaled (z : FVec Ideal S512x128 .f32) (m l m2 : Vec Ideal S512x1 .f32) : FVec Ideal S512x1 .f32 :=
  addf (mulf l (exp (subf m2 (k0_pay3 (F := Ideal) z m))))
    (shapeCast S512x1
      (multiReduction .add [1] S512
        (exp (subf z (broadcastTo S512x128 (k0_pay3 (F := Ideal) z m) broadcasts_S512x1_S512x128)))
        0x00000000#32 reduces_S512x128_S512 (.inl rfl) rfl)
      shapeCasts_S512_S512x1)

theorem rescaled_apply (z : FVec Ideal S512x128 .f32) (m l m2 : Vec Ideal S512x1 .f32) (r : Fin 512) :
    rescaled z m l m2 (ix2 r (0 : Fin 1))
      = l (ix2 r (0 : Fin 1))
          * Ideal.exp (m2 (ix2 r (0 : Fin 1)) - max (m (ix2 r (0 : Fin 1))) (⨆ u : Fin 128, z (ix2 r u)))
        + ∑ u : Fin 128, Ideal.exp (z (ix2 r u) - max (m (ix2 r (0 : Fin 1))) (⨆ u : Fin 128, z (ix2 r u))) := by
  unfold rescaled
  show l (ix2 r (0 : Fin 1)) * Ideal.exp (m2 (ix2 r (0 : Fin 1)) - k0_pay3 (F := Ideal) z m (ix2 r (0 : Fin 1)))
      + shapeCast S512x1
          (multiReduction .add [1] S512
            (exp (subf z (broadcastTo S512x128 (k0_pay3 (F := Ideal) z m) broadcasts_S512x1_S512x128)))
            0x00000000#32 reduces_S512x128_S512 (.inl rfl) rfl)
          shapeCasts_S512_S512x1 (ix2 r (0 : Fin 1)) = _
  rw [pay3_apply z m r]
  refine congrArg₂ (fun a b : EReal => a + b) rfl ?_
  refine (shapeCast_a_a1_apply _ _ r 0).trans ?_
  refine (laneSum_apply _ r).trans ?_
  refine Finset.sum_congr rfl fun u _ => ?_
  show Ideal.exp (z (ix2 r u)
      - broadcastTo S512x128 (k0_pay3 (F := Ideal) z m) broadcasts_S512x1_S512x128 (ix2 r u)) = _
  rw [broadcastTo_a1_ab_apply, pay3_apply]

/-- The teacher's new running sum at row r (the block z is the teacher's logits block). -/
theorem pay4_apply (z : FVec Ideal S512x128 .f32) (m l m2 : Vec Ideal S512x1 .f32) (r : Fin 512) :
    k0_pay4 (F := Ideal) z m l m2 (ix2 r (0 : Fin 1))
      = l (ix2 r (0 : Fin 1))
          * Ideal.exp (m2 (ix2 r (0 : Fin 1)) - max (m (ix2 r (0 : Fin 1))) (⨆ u : Fin 128, z (ix2 r u)))
        + ∑ u : Fin 128, Ideal.exp (z (ix2 r u) - max (m (ix2 r (0 : Fin 1))) (⨆ u : Fin 128, z (ix2 r u))) := by
  have e : k0_pay4 (F := Ideal) z m l m2 = rescaled z m l m2 := shapeCast_self _ _
  rw [e]
  exact rescaled_apply z m l m2 r

/-- The student's new running sum at row r. -/
theorem pay15_apply (x : Vec Ideal S512x1024 .f32) (w : Vec Ideal S128x1024 .f32) (ms ls ms2 : Vec Ideal S512x1 .f32)
    (r : Fin 512) :
    k0_pay15 (F := Ideal) x w ms ls ms2 (ix2 r (0 : Fin 1))
      = ls (ix2 r (0 : Fin 1))
          * Ideal.exp (ms2 (ix2 r (0 : Fin 1)) - max (ms (ix2 r (0 : Fin 1))) (⨆ u : Fin 128, lg x w r u))
        + ∑ u : Fin 128, Ideal.exp (lg x w r u - max (ms (ix2 r (0 : Fin 1))) (⨆ u : Fin 128, lg x w r u)) := by
  refine (rescaled_apply (k0_pay12 (F := Ideal) x w) ms ls ms2 r).trans ?_
  simp only [pay12_apply]

/-- The four columns the first chunk starts from: −∞, 0, −∞, 0. -/
theorem pay8_apply (r : Fin 512) : k0_pay8 (F := Ideal) (ix2 r (0 : Fin 1)) = ⊥ :=
  (congrFun (shapeCast_self (broadcast S512x1 (Scalar.ofBits (F := Ideal) .f32 0xFF800000#32))
    shapeCasts_S512x1_S512x1) (ix2 r (0 : Fin 1))).trans word_neg_inf

theorem pay9_apply (r : Fin 512) : k0_pay9 (F := Ideal) (ix2 r (0 : Fin 1)) = 0 :=
  (congrFun (shapeCast_self (broadcast S512x1 (Scalar.ofBits (F := Ideal) .f32 0x00000000#32))
    shapeCasts_S512x1_S512x1) (ix2 r (0 : Fin 1))).trans Ideal.ofBits_zero_f32

theorem pay10_apply (r : Fin 512) : k0_pay10 (F := Ideal) (ix2 r (0 : Fin 1)) = ⊥ :=
  (congrFun (shapeCast_self (broadcast S512x1 (Scalar.ofBits (F := Ideal) .f32 0xFF800000#32))
    shapeCasts_S512x1_S512x1) (ix2 r (0 : Fin 1))).trans word_neg_inf

theorem pay11_apply (r : Fin 512) : k0_pay11 (F := Ideal) (ix2 r (0 : Fin 1)) = 0 :=
  (congrFun (shapeCast_self (broadcast S512x1 (Scalar.ofBits (F := Ideal) .f32 0x00000000#32))
    shapeCasts_S512x1_S512x1) (ix2 r (0 : Fin 1))).trans Ideal.ofBits_zero_f32

/-- The identity shape casts. -/
theorem pay1_eq (v : FVec Ideal S512x1 .f32) : k0_pay1 (F := Ideal) v = v := shapeCast_self v _

theorem pay2_eq (v : FVec Ideal S512x1 .f32) : k0_pay2 (F := Ideal) v = v := shapeCast_self v _

theorem pay5_eq (z : FVec Ideal S512x128 .f32) (m : Vec Ideal S512x1 .f32) :
    k0_pay5 (F := Ideal) z m = k0_pay3 (F := Ideal) z m := shapeCast_self _ _

/-- The log-sum-exp columns the first pass ends with: the maximum plus the logarithm of the sum. -/
theorem pay6_apply (a b : Vec Ideal S512x1 .f32) (r : Fin 512) :
    k0_pay6 (F := Ideal) a b (ix2 r (0 : Fin 1)) = a (ix2 r (0 : Fin 1)) + Ideal.log (b (ix2 r (0 : Fin 1))) := rfl

theorem pay7_apply (a b : Vec Ideal S512x1 .f32) (r : Fin 512) :
    k0_pay7 (F := Ideal) a b (ix2 r (0 : Fin 1)) = a (ix2 r (0 : Fin 1)) + Ideal.log (b (ix2 r (0 : Fin 1))) := rfl

/-! ## The second pass -/

/-- The student's log-probabilities block at (r, u): the logit minus the row's log-sum-exp. -/
theorem k1_pay3_apply (x : Vec Ideal S512x1024 .f32) (w : Vec Ideal S128x1024 .f32) (ls : Vec Ideal S512x1 .f32)
    (r : Fin 512) (u : Fin 128) :
    k1_pay3 (F := Ideal) x w ls (ix2 r u) = lg x w r u - ls (ix2 r (0 : Fin 1)) := by
  unfold k1_pay3
  show k0_pay12 (F := Ideal) x w (ix2 r u)
      - broadcastTo S512x128 (shapeCast S512x1 ls shapeCasts_S512x1_S512x1) broadcasts_S512x1_S512x128 (ix2 r u) = _
  rw [pay12_apply, broadcastTo_a1_ab_apply, shapeCast_self]

/-- The teacher's log-probabilities block at (r, u). -/
theorem k1_pay4_apply (x : Vec Ideal S512x2048 .f32) (w : Vec Ideal S128x2048 .f32) (lt : Vec Ideal S512x1 .f32)
    (r : Fin 512) (u : Fin 128) :
    k1_pay4 (F := Ideal) x w lt (ix2 r u) = lg x w r u - lt (ix2 r (0 : Fin 1)) := by
  unfold k1_pay4
  show k0_pay13 (F := Ideal) x w (ix2 r u)
      - broadcastTo S512x128 (shapeCast S512x1 lt shapeCasts_S512x1_S512x1) broadcasts_S512x1_S512x128 (ix2 r u) = _
  rw [pay13_apply, broadcastTo_a1_ab_apply, shapeCast_self]

/-- The stored column of the second pass over five blocks and the carried column: the carried value plus the
    lane sum of  v34 · v35 + (½ · v25) · (v20 − v32). -/
theorem k1_pay1_apply (v20 v25 v32 v34 v35 : FVec Ideal S512x128 .f32) (acc : Vec Ideal S512x1 .f32) (r : Fin 512) :
    k1_pay1 (F := Ideal) v20 v25 v32 v34 v35 acc (ix2 r (0 : Fin 1))
      = acc (ix2 r (0 : Fin 1))
        + ∑ u : Fin 128, (v34 (ix2 r u) * v35 (ix2 r u)
            + Cert.Jsd.half * v25 (ix2 r u) * (v20 (ix2 r u) - v32 (ix2 r u))) := by
  have e : k1_pay1 (F := Ideal) v20 v25 v32 v34 v35 acc
      = addf acc (shapeCast S512x1
          (multiReduction .add [1] S512
            (addf (mulf v34 v35)
              (mulf (mulf (broadcast S512x128 (Scalar.ofBits (F := Ideal) .f32 0x3F000000#32)) v25) (subf v20 v32)))
            0x00000000#32 reduces_S512x128_S512 (.inl rfl) rfl)
          shapeCasts_S512_S512x1) := shapeCast_self _ _
  rw [e]
  show acc (ix2 r (0 : Fin 1)) + shapeCast S512x1
      (multiReduction .add [1] S512
        (addf (mulf v34 v35)
          (mulf (mulf (broadcast S512x128 (Scalar.ofBits (F := Ideal) .f32 0x3F000000#32)) v25) (subf v20 v32)))
        0x00000000#32 reduces_S512x128_S512 (.inl rfl) rfl)
      shapeCasts_S512_S512x1 (ix2 r (0 : Fin 1)) = _
  refine congrArg₂ (fun a b : EReal => a + b) rfl ?_
  refine (shapeCast_a_a1_apply _ _ r 0).trans ?_
  exact laneSum_apply _ r

/-- The value the second pass stores into the carried column at row r: the carried value plus the sum
    over the chunk's 128 words of the integrand at the student's and the teacher's log-probabilities. -/
theorem pass2_apply (x : Vec Ideal S512x1024 .f32) (w : Vec Ideal S128x1024 .f32)
    (x' : Vec Ideal S512x2048 .f32) (w' : Vec Ideal S128x2048 .f32) (ls lt acc : Vec Ideal S512x1 .f32) (r : Fin 512) :
    k1_pay1 (F := Ideal) (k1_pay3 x w ls) (k1_pay5 x w ls) (k1_pay7 x w x' w' ls lt) (k1_pay8 x' w' lt)
        (k1_pay9 x w x' w' ls lt) acc (ix2 r (0 : Fin 1))
      = acc (ix2 r (0 : Fin 1))
        + ∑ u : Fin 128, Cert.Jsd.cell (lg x w r u - ls (ix2 r (0 : Fin 1))) (lg x' w' r u - lt (ix2 r (0 : Fin 1))) := by
  refine (k1_pay1_apply _ _ _ _ _ acc r).trans ?_
  refine congrArg₂ (fun a b : EReal => a + b) rfl (Finset.sum_congr rfl fun u _ => ?_)
  rw [← k1_pay3_apply x w ls r u, ← k1_pay4_apply x' w' lt r u]
  rfl

/-- The carried column of the second pass starts from zero. -/
theorem k1_pay2_apply (r : Fin 512) : k1_pay2 (F := Ideal) (ix2 r (0 : Fin 1)) = 0 :=
  (congrFun (shapeCast_self (broadcast S512x1 (Scalar.ofBits (F := Ideal) .f32 0x00000000#32))
    shapeCasts_S512x1_S512x1) (ix2 r (0 : Fin 1))).trans Ideal.ofBits_zero_f32

end Cert.KernelIdeal.PayIdeal

end
-- ==== Proof.SpecSteps.lean ====
/-
  The unfolding equations of the chunked spelling: the running pair and the accumulator at zero chunks, at
  one more chunk, and after the first chunk alone (from the pair (-∞, 0): the larger of -∞ and a is a, and
  0 · exp (-∞ - a) = 0; from the accumulator 0: 0 + s = s).
-/
import proofs.«162734_j6863357739727_1_alg».proof.Proof.Spec

noncomputable section

namespace Cert.Jsd

open Idealize.ShloMosaic

/-- Before any chunk the running pair is (-∞, 0). -/
theorem running_zero (x : Fin 32000 → EReal) : running x 0 = (⊥, 0) := rfl

/-- One more chunk: the new maximum, and the old sum rescaled plus the chunk's shifted exponentials. -/
theorem running_succ (x : Fin 32000 → EReal) (n : ℕ) (h : n < 250) :
    running x (n + 1)
      = (max (running x n).1 (⨆ u, x (word ⟨n, h⟩ u)),
          (running x n).2 * Ideal.exp ((running x n).1 - max (running x n).1 (⨆ u, x (word ⟨n, h⟩ u)))
            + ∑ u, Ideal.exp (x (word ⟨n, h⟩ u) - max (running x n).1 (⨆ u, x (word ⟨n, h⟩ u)))) := by
  rw [running, dif_pos h]

/-- The first component of the step. -/
theorem running_succ_fst (x : Fin 32000 → EReal) (n : ℕ) (h : n < 250) :
    (running x (n + 1)).1 = max (running x n).1 (⨆ u, x (word ⟨n, h⟩ u)) := by
  rw [running_succ x n h]

/-- The second component of the step. -/
theorem running_succ_snd (x : Fin 32000 → EReal) (n : ℕ) (h : n < 250) :
    (running x (n + 1)).2
      = (running x n).2 * Ideal.exp ((running x n).1 - max (running x n).1 (⨆ u, x (word ⟨n, h⟩ u)))
          + ∑ u, Ideal.exp (x (word ⟨n, h⟩ u) - max (running x n).1 (⨆ u, x (word ⟨n, h⟩ u))) := by
  rw [running_succ x n h]

/-- Before any chunk the accumulator is 0. -/
theorem accum_zero (xs xt : Fin 32000 → EReal) (ls lt : EReal) : accum xs xt ls lt 0 = 0 := rfl

/-- One more chunk adds the chunk's sum. -/
theorem accum_succ (xs xt : Fin 32000 → EReal) (ls lt : EReal) (n : ℕ) (h : n < 250) :
    accum xs xt ls lt (n + 1) = accum xs xt ls lt n + chunkSum xs xt ls lt ⟨n, h⟩ := by
  rw [accum, dif_pos h]

/-- The larger of -∞ and a is a. -/
theorem max_bot_eq (a : EReal) : max ⊥ a = a := max_eq_right bot_le

/-- The zero sum rescaled is still zero, whatever the shift. -/
theorem zero_mul_exp (a : EReal) : (0 : EReal) * Ideal.exp (⊥ - a) = 0 := zero_mul _

/-- One step from the pair (-∞, 0) over a chunk with maximum a, whose shifted sum is f at the shift, is (a, f a). -/
theorem step_from_reset (a : EReal) (f : EReal → EReal) :
    (max ⊥ a, (0 : EReal) * Ideal.exp (⊥ - max ⊥ a) + f (max ⊥ a)) = (a, f a) := by
  rw [max_bot_eq, zero_mul, zero_add]

/-- After the first chunk alone: the chunk's maximum, and its sum of exponentials shifted by that maximum. -/
theorem running_one (x : Fin 32000 → EReal) (h : 0 < 250) :
    running x 1
      = (⨆ u, x (word ⟨0, h⟩ u), ∑ u, Ideal.exp (x (word ⟨0, h⟩ u) - ⨆ u, x (word ⟨0, h⟩ u))) := by
  rw [running_succ x 0 h, running_zero]
  exact step_from_reset (⨆ u, x (word ⟨0, h⟩ u)) (fun M => ∑ u, Ideal.exp (x (word ⟨0, h⟩ u) - M))

/-- After the first chunk alone the accumulator is the chunk's sum. -/
theorem accum_one (xs xt : Fin 32000 → EReal) (ls lt : EReal) (h : 0 < 250) :
    accum xs xt ls lt 1 = chunkSum xs xt ls lt ⟨0, h⟩ := by
  rw [accum_succ xs xt ls lt 0 h, accum_zero, zero_add]

end Cert.Jsd

end
-- ==== Proof.Pass2Value.lean ====
/-
  The second pass's value.  The grid has 1000 points; point n works on row block n / 250 and vocabulary chunk
  n % 250.  At each point the carried column gains, at row r of the block, the sum over the chunk's 128 words of the
  integrand at the student's and the teacher's log-probabilities (logit minus the row's log-sum-exp); at a row
  block's first chunk it starts from zero.  Hence after point n the carried column at row r is the accumulator of
  the specification after n % 250 + 1 chunks, for the array row 512 · (n / 250) + r (by induction on the point);
  at a last chunk the result window holds the same column; and the result array, whose row R is written back by
  point 250 · (R / 512) + 249, ends holding the accumulator after all 250 chunks.
-/
import proofs.«162734_j6863357739727_1_alg».proof.Proof.Pass2Pieces
import proofs.«162734_j6863357739727_1_alg».proof.Proof.Blocks
import proofs.«162734_j6863357739727_1_alg».proof.Proof.PayIdeal
import proofs.«162734_j6863357739727_1_alg».proof.Proof.SpecSteps
import Idealize.ShloMosaic.Lib.Pipeline.Value
import Idealize.ShloMosaic.Lib.ValueIdx

set_option maxRecDepth 16384

noncomputable section

namespace Cert.KernelIdeal.Pass2V

open Cert.KernelIdeal Cert.KernelIdeal.Gen Cert.KernelIdeal.Pass2 Cert.KernelIdeal.Grid Cert.KernelIdeal.Blocks
open Cert.KernelIdeal.PayIdeal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The rows of logits and the log-sum-exps, off the arrays as the region finds them -/

/-- The student's logit of token R and word v. -/
def XS (c : Dev nD) (R : Fin 2048) (v : Fin 32000) : EReal :=
  Cert.Jsd.logit (fun k : Fin 1024 => V c (Pipeline.arrRef spec1 0) (ix2 R k))
    (fun k : Fin 1024 => V c (Pipeline.arrRef spec1 1) (ix2 v k))

/-- The teacher's logit of token R and word v. -/
def XT (c : Dev nD) (R : Fin 2048) (v : Fin 32000) : EReal :=
  Cert.Jsd.logit (fun k : Fin 2048 => V c (Pipeline.arrRef spec1 2) (ix2 R k))
    (fun k : Fin 2048 => V c (Pipeline.arrRef spec1 3) (ix2 v k))

/-- The student's log-sum-exp of token R, as the first pass left it. -/
def LS (c : Dev nD) (R : Fin 2048) : EReal := V c (Pipeline.arrRef spec1 4) (ix2 R (0 : Fin 1))

/-- The teacher's log-sum-exp of token R. -/
def LT (c : Dev nD) (R : Fin 2048) : EReal := V c (Pipeline.arrRef spec1 5) (ix2 R (0 : Fin 1))

/-- The accumulator of the specification for token R after k chunks. -/
def acc (c : Dev nD) (R : Fin 2048) (k : ℕ) : EReal :=
  Cert.Jsd.accum (XS V c R) (XT V c R) (LS V c R) (LT V c R) k

/-- The chunk sum of the specification for token R at chunk j. -/
def csum (c : Dev nD) (R : Fin 2048) (j : Fin 250) : EReal :=
  Cert.Jsd.chunkSum (XS V c R) (XT V c R) (LS V c R) (LT V c R) j

theorem hN : cfg1.N = 1000 := N_1

/-- The array row of row r of the block of point n. -/
def rowOf (n : ℕ) (hn : n < cfg1.N) (r : Fin 512) : Fin 2048 :=
  ⟨512 * (n / 250) + r.val, row_lt n (lt_of_lt_of_eq hn hN) r⟩

/-- The chunk of point n. -/
def chunkOf (n : ℕ) : Fin 250 := ⟨n % 250, Nat.mod_lt _ (by decide)⟩

/-- Within a row block, the point before works on the same rows. -/
theorem rowOf_pred (n : ℕ) (hn : n < cfg1.N) (hn' : n - 1 < cfg1.N) (h0 : ¬n % 250 = 0) (r : Fin 512) :
    rowOf (n - 1) hn' r = rowOf n hn r :=
  Fin.ext (by
    show 512 * ((n - 1) / 250) + r.val = 512 * (n / 250) + r.val
    omega)

/-! ## One point -/

/-- The student's logits of the blocks of point t are the logits of the block's rows and the chunk's words. -/
theorem lgS (c : Dev nD) (t : Fin cfg1.N) (r : Fin 512) (u : Fin 128) :
    lg (iblk1 V c 0 t : Vec Ideal S512x1024 .f32) (iblk1 V c 1 t : Vec Ideal S128x1024 .f32) r u
      = XS V c (rowOf t.val t.isLt r) (Cert.Jsd.word (chunkOf t.val) u) :=
  congrArg₂ Cert.Jsd.logit (funext fun k => iblk1_0_apply V c t r k) (funext fun k => iblk1_1_apply V c t u k)

/-- The teacher's likewise. -/
theorem lgT (c : Dev nD) (t : Fin cfg1.N) (r : Fin 512) (u : Fin 128) :
    lg (iblk1 V c 2 t : Vec Ideal S512x2048 .f32) (iblk1 V c 3 t : Vec Ideal S128x2048 .f32) r u
      = XT V c (rowOf t.val t.isLt r) (Cert.Jsd.word (chunkOf t.val) u) :=
  congrArg₂ Cert.Jsd.logit (funext fun k => iblk1_2_apply V c t r k) (funext fun k => iblk1_3_apply V c t u k)

/-- What one point stores into the carried column, at row r: what the column held plus the chunk sum of the
    specification for the row's token. -/
theorem step1_point (c : Dev nD) (t : Fin cfg1.N) (a : Vec Ideal S512x1 .f32) (r : Fin 512) :
    step1 (F := Ideal) (iblk1 V c 0 t) (iblk1 V c 1 t) (iblk1 V c 2 t) (iblk1 V c 3 t) (iblk1 V c 4 t) (iblk1 V c 5 t) a
        (ix2 r (0 : Fin 1))
      = a (ix2 r (0 : Fin 1)) + csum V c (rowOf t.val t.isLt r) (chunkOf t.val) := by
  refine (pass2_apply _ _ _ _ _ _ a r).trans ?_
  unfold csum Cert.Jsd.chunkSum
  refine congrArg₂ (fun x y : EReal => x + y) rfl (Finset.sum_congr rfl fun u _ => ?_)
  exact congrArg₂ Cert.Jsd.cell
    (congrArg₂ (fun x y : EReal => x - y) (lgS V c t r u) (iblk1_4_apply V c t r 0))
    (congrArg₂ (fun x y : EReal => x - y) (lgT V c t r u) (iblk1_5_apply V c t r 0))

/-- At a row block's first chunk the carried column ends at the chunk sum. -/
theorem acc_A (c : Dev nD) (n : ℕ) (hn : n < cfg1.N) (h0 : n % 250 = 0) (r : Fin 512) :
    (outsAt1 V c n hn).2 (ix2 r (0 : Fin 1)) = csum V c (rowOf n hn r) (chunkOf n) := by
  have h1 : ¬n % 250 = 249 := by omega
  have e := outsAt1_A V c ⟨n, hn⟩ h0 h1
  dsimp only at e
  rw [e]
  dsimp only
  rw [sout1_A_0_eq]
  refine (step1_point V c ⟨n, hn⟩ (k1_pay2 (F := Ideal)) r).trans ?_
  rw [k1_pay2_apply, zero_add]

/-- At a middle chunk the carried column gains the chunk sum. -/
theorem acc_B (c : Dev nD) (n : ℕ) (hn : n < cfg1.N) (h0 : ¬n % 250 = 0) (h1 : ¬n % 250 = 249) (r : Fin 512) :
    (outsAt1 V c n hn).2 (ix2 r (0 : Fin 1))
      = (outsAt1 V c (n - 1) (Nat.lt_of_le_of_lt (Nat.sub_le _ _) hn)).2 (ix2 r (0 : Fin 1))
        + csum V c (rowOf n hn r) (chunkOf n) := by
  have e := outsAt1_B V c ⟨n, hn⟩ h0 h1
  dsimp only at e
  rw [e]
  dsimp only
  rw [sout1_B_0_eq]
  exact step1_point V c ⟨n, hn⟩ _ r

/-- At a last chunk likewise. -/
theorem acc_C (c : Dev nD) (n : ℕ) (hn : n < cfg1.N) (h0 : ¬n % 250 = 0) (h1 : n % 250 = 249) (r : Fin 512) :
    (outsAt1 V c n hn).2 (ix2 r (0 : Fin 1))
      = (outsAt1 V c (n - 1) (Nat.lt_of_le_of_lt (Nat.sub_le _ _) hn)).2 (ix2 r (0 : Fin 1))
        + csum V c (rowOf n hn r) (chunkOf n) := by
  have e := outsAt1_C V c ⟨n, hn⟩ h0 h1
  dsimp only at e
  rw [e]
  dsimp only
  rw [sout1_C_0_eq]
  exact step1_point V c ⟨n, hn⟩ _ r

/-- At a last chunk the result window's buffer holds what the carried column holds. -/
theorem out1 (c : Dev nD) (t : Fin cfg1.N) (h1 : t.val % 250 = 249) :
    (outsAt1 V c t.val t.isLt).1 = (outsAt1 V c t.val t.isLt).2 := by
  have h0 : ¬t.val % 250 = 0 := by omega
  rw [outsAt1_C V c t h0 h1]
  dsimp only
  rw [out1_C_6_eq, sout1_C_0_eq]

/-! ## Every point, by induction -/

/-- After point n the carried column at row r is the specification's accumulator after n % 250 + 1 chunks, for the
    token of that row. -/
theorem inv1 (c : Dev nD) : ∀ (n : ℕ) (hn : n < cfg1.N) (r : Fin 512),
    (outsAt1 V c n hn).2 (ix2 r (0 : Fin 1)) = acc V c (rowOf n hn r) (n % 250 + 1) := by
  intro n
  induction n using Nat.strong_induction_on with
  | _ n ih =>
    intro hn r
    have hstep : acc V c (rowOf n hn r) (n % 250 + 1)
        = acc V c (rowOf n hn r) (n % 250) + csum V c (rowOf n hn r) (chunkOf n) :=
      Cert.Jsd.accum_succ _ _ _ _ (n % 250) (Nat.mod_lt _ (by decide))
    rw [hstep]
    by_cases h0 : n % 250 = 0
    · rw [acc_A V c n hn h0 r]
      have hz : acc V c (rowOf n hn r) (n % 250) = 0 := by rw [h0]; rfl
      rw [hz, zero_add]
    · have hn' : n - 1 < cfg1.N := Nat.lt_of_le_of_lt (Nat.sub_le _ _) hn
      have hprev : (outsAt1 V c (n - 1) hn').2 (ix2 r (0 : Fin 1)) = acc V c (rowOf n hn r) (n % 250) := by
        rw [ih (n - 1) (by omega) hn' r, rowOf_pred n hn hn' h0 r]
        exact congrArg (acc V c (rowOf n hn r)) (by omega)
      by_cases h1 : n % 250 = 249
      · rw [acc_C V c n hn h0 h1 r, hprev]
      · rw [acc_B V c n hn h0 h1 r, hprev]

/-! ## The result array -/

/-- The result array after the run: row R holds the accumulator of the specification after all 250 chunks. -/
def G (c : Dev nD) : S2048x1.Idx → EReal := fun i => acc V c (i 0) 250

theorem G_apply (c : Dev nD) (R : Fin 2048) (q : Fin 1) : G V c (ix2 R q) = acc V c R 250 := rfl

/-- What a last-chunk point writes back is its block of G. -/
theorem flushed_eq (c : Dev nD) (t : Fin cfg1.N) (hf : (cfg1.win 6).flush t = true) :
    (dat1 V c).flushed 6 t = ((cfg1.win 6).blk t).view.read (Elt Ideal) (G V c) := by
  have h249 : t.val % 250 = 249 := (flush1_6 t).mp hf
  have hi := idx1_6 t
  show (cfg1.win 6).cut (grid1.coords t) ((dat1 V c).after 6 t) = _
  rw [after1_6, out1 V c t h249]
  funext y
  obtain ⟨r, q, rfl⟩ : ∃ (r : Fin 512) (q : Fin 1), y = ix2 r q := ⟨y 0, y 1, eq_ix2 y⟩
  obtain rfl : q = 0 := Subsingleton.elim _ _
  have hemb : ((cfg1.win 6).blk t).view.emb (ix2 r (0 : Fin 1)) = ix2 (rowOf t.val t.isLt r) (0 : Fin 1) := by
    funext a
    apply Fin.ext
    match a with
    | ⟨0, _⟩ => show win1_6.index t 0 * 512 + 1 * r.val = 512 * (t.val / 250) + r.val; rw [hi.1]; omega
    | ⟨1, _⟩ => show win1_6.index t 1 * 1 + 1 * 0 = 0; rw [hi.2]
  rw [View.read_apply, hemb, G_apply]
  show (outsAt1 V c t.val t.isLt).2 (ix2 r (0 : Fin 1)) = _
  rw [inv1 V c t.val t.isLt r, h249]
  rfl

/-- The result array ends holding G. -/
theorem final1 (c : Dev nD) : (dat1 V c).arrAt 6 cfg1.N = G V c :=
  (dat1 V c).arrAt_eq_of_cover 6 (G V c) (flushed_eq V c) fun i => by
    have h0 : (i 0 : ℕ) < 2048 := (i 0).isLt
    have h1 : (i 1 : ℕ) < 1 := (i 1).isLt
    have ht : 250 * ((i 0 : ℕ) / 512) + 249 < cfg1.N := by rw [hN]; omega
    have hi := idx1_6 ⟨250 * ((i 0 : ℕ) / 512) + 249, ht⟩
    refine ⟨⟨250 * ((i 0 : ℕ) / 512) + 249, ht⟩, (flush1_6 _).mpr (by
      show (250 * ((i 0 : ℕ) / 512) + 249) % 250 = 249
      omega), ?_⟩
    show i ∈ ((View.whole main_v1).slice (win1_6.rect ⟨250 * ((i 0 : ℕ) / 512) + 249, ht⟩)).set
    rw [View.set_slice_whole, Rect.mem_set_unit]
    intro a
    match a with
    | ⟨0, _⟩ =>
      show win1_6.index ⟨250 * ((i 0 : ℕ) / 512) + 249, ht⟩ 0 * 512 ≤ (i 0 : ℕ)
        ∧ (i 0 : ℕ) < win1_6.index ⟨250 * ((i 0 : ℕ) / 512) + 249, ht⟩ 0 * 512 + 512
      rw [hi.1]
      show (250 * ((i 0 : ℕ) / 512) + 249) / 250 * 512 ≤ (i 0 : ℕ)
        ∧ (i 0 : ℕ) < (250 * ((i 0 : ℕ) / 512) + 249) / 250 * 512 + 512
      omega
    | ⟨1, _⟩ =>
      show win1_6.index ⟨250 * ((i 0 : ℕ) / 512) + 249, ht⟩ 1 * 1 ≤ (i 1 : ℕ)
        ∧ (i 1 : ℕ) < win1_6.index ⟨250 * ((i 0 : ℕ) / 512) + 249, ht⟩ 1 * 1 + 1
      rw [hi.2]
      omega

end Cert.KernelIdeal.Pass2V

end
-- ==== Proof.Finite.lean ====
/-
  From the printed precondition to "every entry of the four float arrays is a real number".

  The precondition is the conjunction, over the four float arrays, of "every entry's absolute value is below
  +∞".  A conjunction of bits is one exactly when each is; a reduction by "and" over all axes that is one had a
  one at every entry; the word 0x7F800000 is +∞; and an extended real x with max x (−x) < +∞ is neither +∞ nor
  −∞, hence a real.  The inner product of two rows of reals is a real.
-/
import proofs.«162734_j6863357739727_1_alg».proof.Pre_finite_inputs
import Idealize.ShloMosaic.Lib.ReduceAll
import Idealize.ShloMosaic.Lib.ValueIdx
import Idealize.ShloMosaic.PureOps.Ideal
import proofs.«162734_j6863357739727_1_alg».proof.Proof.Spec

noncomputable section

namespace Cert.Finite

open Idealize.ShloMosaic

/-- The scalar shape has one index. -/
instance : Subsingleton Cert.Pre_finite_inputs.S_.Idx := ⟨fun a b => funext fun d => d.elim0⟩

/-- The word 0x7F800000 is +∞. -/
theorem word_pos_inf : Ideal.ofBits .f32 0x7F800000#32 = ⊤ := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose comparison "absolute value below the +∞ word" is one is a real. -/
theorem real_of_cmp {s : Shape} (a b : FVec Ideal s .f32) (i : s.Idx)
    (hb : b i = Ideal.ofBits .f32 0x7F800000#32) (h : cmpf .olt (Host.absf a) b i = 1#1) :
    ∃ r : ℝ, a i = (r : EReal) := by
  have h' : BitVec.ofBool (decide (max (a i) (-(a i)) < b i)) = 1#1 := h
  rw [hb, word_pos_inf] at h'
  refine real_of_abs_lt_top (a i) ?_
  by_contra hn
  rw [decide_eq_false hn] at h'
  exact absurd h' (by decide)

/-- The precondition gives: every entry of each of the four float arrays is a real. -/
theorem real_of_pre [Cert.Pre_finite_inputs.Facts]
    (a0 : FVec Ideal Cert.Pre_finite_inputs.S2048x1024 .f32) (a1 : FVec Ideal Cert.Pre_finite_inputs.S32000x1024 .f32)
    (a2 : FVec Ideal Cert.Pre_finite_inputs.S2048x2048 .f32) (a3 : FVec Ideal Cert.Pre_finite_inputs.S32000x2048 .f32)
    (a4 : IVec Cert.Pre_finite_inputs.S2048 32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_cmp a0 _ i rfl (Host.reduce_andi_all _ _ _ _ _ h0' i)
  · exact real_of_cmp a1 _ i rfl (Host.reduce_andi_all _ _ _ _ _ h1 i)
  · exact real_of_cmp a2 _ i rfl (Host.reduce_andi_all _ _ _ _ _ h2 i)
  · exact real_of_cmp a3 _ i rfl (Host.reduce_andi_all _ _ _ _ _ h3 i)

/-- The coercion of a finite sum of reals is the sum of the coercions. -/
theorem coe_sum {ι : Type*} (S : Finset ι) (f : ι → ℝ) :
    ((∑ t ∈ S, f t : ℝ) : EReal) = ∑ t ∈ S, (f t : EReal) := by
  classical
  induction S using Finset.induction_on with
  | empty => simp
  | insert a S ha ih => rw [Finset.sum_insert ha, Finset.sum_insert ha, EReal.coe_add, ih]

/-- The inner product of two rows of real numbers is a real number. -/
theorem logit_real {H : ℕ} (x w : Fin H → EReal) (hx : ∀ k, ∃ r : ℝ, x k = (r : EReal))
    (hw : ∀ k, ∃ r : ℝ, w k = (r : EReal)) : ∃ r : ℝ, Cert.Jsd.logit x w = (r : EReal) := by
  choose xs hxs using hx
  choose ws hws using hw
  refine ⟨∑ k, xs k * ws k, ?_⟩
  unfold Cert.Jsd.logit
  rw [coe_sum]
  exact Finset.sum_congr rfl fun k _ => by rw [hxs, hws, EReal.coe_mul]

end Cert.Finite

end
-- ==== Proof.KTail.lean ====
/-
  The end of the kernel's program, read at the ideal instance.  After the two regions the host operations reshape the
  second region's [2048, 1] result to a vector, mask it by the labels, sum it and divide by the count: that is the loss
  function `lossOf` of that vector and the labels.  The second region reads the four argument arrays as launched (the
  first region only reads them), so its logits of token `R` are the launch memory's rows `rowS`, `rowT`; under the
  precondition every entry of the four float arguments is a real number, hence so is every logit.
-/
import proofs.«162734_j6863357739727_1_alg».proof.Proof.Launch
import proofs.«162734_j6863357739727_1_alg».proof.Proof.Tail
import proofs.«162734_j6863357739727_1_alg».proof.Proof.Pass2Value
import proofs.«162734_j6863357739727_1_alg».proof.Proof.Finite
import proofs.«162734_j6863357739727_1_alg».proof.Defs
import Idealize.ShloMosaic.Lib.StableHlo.Run
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Launch Cert.KernelIdeal.Pass1 Cert.KernelIdeal.Pass2
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- An [a, 1] column cast to [a] reads, at i, the column at row i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The program's result is the loss function of the second region's result array, reshaped, and the labels. -/
theorem tail_eq (c : Dev nD) :
    W5 m c (Proc.devRef .tc main_v11)
      = Cert.Jsd.lossOf (shapeCast S2048 (W2 m c (Proc.devRef .tc main_v1)) shapeCasts_S2048x1_S2048) (W2 m c (Proc.devRef .tc main_arg4)) := by
  show StableHlo.after hostOps2_2 (StableHlo.after hostOps2_1 (StableHlo.after hostOps2 (W2 m c))) (Proc.devRef .tc main_v11) = _
  after_results
  first
    | rfl
    | (unfold Cert.Jsd.lossOf Cert.Jsd.maskOf; rfl)

/-- No region writes the labels. -/
theorem W2_labels (c : Dev nD) : W2 m c (Proc.devRef .tc main_arg4) = m ((c : Thread nD τ).loc main_arg4) :=
  (W2_of_ne m c main_arg4 (by decide)).trans ((W1_of_ne m c main_arg4 (by decide)).trans rfl)

/-- The second region finds the four float arguments as launched. -/
theorem VB_arg0 (c : Dev nD) : VB m c (Pipeline.arrRef spec1 0) = m ((c : Thread nD τ).loc main_arg0) :=
  ((W1_arr m c 0).trans (((dat0 (VA m) c).arrAt_in 0 rfl _).trans (A_eq0 (VA m) c 0))).trans rfl
theorem VB_arg1 (c : Dev nD) : VB m c (Pipeline.arrRef spec1 1) = m ((c : Thread nD τ).loc main_arg1) :=
  ((W1_arr m c 1).trans (((dat0 (VA m) c).arrAt_in 1 rfl _).trans (A_eq0 (VA m) c 1))).trans rfl
theorem VB_arg2 (c : Dev nD) : VB m c (Pipeline.arrRef spec1 2) = m ((c : Thread nD τ).loc main_arg2) :=
  ((W1_arr m c 2).trans (((dat0 (VA m) c).arrAt_in 2 rfl _).trans (A_eq0 (VA m) c 2))).trans rfl
theorem VB_arg3 (c : Dev nD) : VB m c (Pipeline.arrRef spec1 3) = m ((c : Thread nD τ).loc main_arg3) :=
  ((W1_arr m c 3).trans (((dat0 (VA m) c).arrAt_in 3 rfl _).trans (A_eq0 (VA m) c 3))).trans rfl

/-- Token `R`'s student and teacher logits, from the launch memory. -/
def rowS (c : Dev nD) (R : Fin 2048) (v : Fin 32000) : EReal :=
  Cert.Jsd.logit (fun k : Fin 1024 => m ((c : Thread nD τ).loc main_arg0) (ix2 R k)) (fun k : Fin 1024 => m ((c : Thread nD τ).loc main_arg1) (ix2 v k))
def rowT (c : Dev nD) (R : Fin 2048) (v : Fin 32000) : EReal :=
  Cert.Jsd.logit (fun k : Fin 2048 => m ((c : Thread nD τ).loc main_arg2) (ix2 R k)) (fun k : Fin 2048 => m ((c : Thread nD τ).loc main_arg3) (ix2 v k))

theorem XS_eq (c : Dev nD) (R : Fin 2048) : Pass2V.XS (VB m) c R = rowS m c R := by
  funext v
  unfold Pass2V.XS rowS
  rw [VB_arg0 m c, VB_arg1 m c]
theorem XT_eq (c : Dev nD) (R : Fin 2048) : Pass2V.XT (VB m) c R = rowT m c R := by
  funext v
  unfold Pass2V.XT rowT
  rw [VB_arg2 m c, VB_arg3 m c]

/-- Under the precondition every logit is a real number. -/
theorem rowS_real [Cert.Pre_finite_inputs.Facts] (hpre : Cert.Pre_KernelIdeal m) (c : Dev nD) (R : Fin 2048) (v : Fin 32000) : ∃ r : ℝ, rowS m c R v = (r : EReal) := by
  obtain ⟨h0, h1, h2, h3⟩ := Cert.Finite.real_of_pre _ _ _ _ _ (hpre c)
  exact Cert.Finite.logit_real _ _ (fun k => h0 _) (fun k => h1 _)
theorem rowT_real [Cert.Pre_finite_inputs.Facts] (hpre : Cert.Pre_KernelIdeal m) (c : Dev nD) (R : Fin 2048) (v : Fin 32000) : ∃ r : ℝ, rowT m c R v = (r : EReal) := by
  obtain ⟨h0, h1, h2, h3⟩ := Cert.Finite.real_of_pre _ _ _ _ _ (hpre c)
  exact Cert.Finite.logit_real _ _ (fun k => h2 _) (fun k => h3 _)

end Cert.KernelIdeal.KValue

end
-- ==== Proof.Pass1Pieces.lean ====
/-
  The first pass (the running maximum and rescaled sum of exponentials of the student's and the teacher's logits, per row block, over the 250 vocabulary chunks): what each case's stores leave, as the body's arithmetic of the point's input blocks and of what the
  carried buffers held before (the reset values at the first chunk).  Each buffer ends with one store through its
  whole rectangle, so its contents are that store's value; a load of a buffer the body has just stored reads that value.
-/
import proofs.«162734_j6863357739727_1_alg».proof.Proof.Pass1Frame
import Idealize.ShloMosaic.Lib.Pipeline.Value

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl

/-- The four values one chunk stores into the carried buffers, from the input blocks and the carried values before. -/
def newMs (x0 : Vec F S512x1024 .f32) (x1 : Vec F S128x1024 .f32) (p0 : Vec F S512x1 .f32) : Vec F S512x1 .f32 :=
  k0_pay2 (k0_pay14 x0 x1 p0)
def newLs (x0 : Vec F S512x1024 .f32) (x1 : Vec F S128x1024 .f32) (p0 p1 : Vec F S512x1 .f32) : Vec F S512x1 .f32 :=
  k0_pay1 (k0_pay15 x0 x1 p0 p1 p0)
def newMt (x2 : Vec F S512x2048 .f32) (x3 : Vec F S128x2048 .f32) (p2 : Vec F S512x1 .f32) : Vec F S512x1 .f32 :=
  k0_pay5 (k0_pay13 x2 x3) p2
def newLt (x2 : Vec F S512x2048 .f32) (x3 : Vec F S128x2048 .f32) (p2 p3 : Vec F S512x1 .f32) : Vec F S512x1 .f32 :=
  k0_pay4 (k0_pay13 x2 x3) p2 p3 p2

theorem sout0_B_0_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 = newMs x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_B_1_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 = newLs x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_B_2_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 = newMt x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_B_3_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 arg11 harg11 hc0 hc1 x0 x1 x2 x3 xs0 xs1 xs2 xs3 = newLt x2 x3 xs2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_A_0_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) :
    sout0_A_0 c i arg2 harg2 arg3 harg3 arg4 harg4 arg5 harg5 arg6 harg6 arg7 harg7 arg8 harg8 arg9 harg9 arg10 harg10 arg11 harg11 hc0 hc1 x0 x1 x2 x3 = newMs x0 x1 k0_pay8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_A_1_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) :
    sout0_A_1 c i arg2 harg2 arg3 harg3 arg4 harg4 arg5 harg5 arg6 harg6 arg7 harg7 arg8 harg8 arg9 harg9 arg10 harg10 arg11 harg11 hc0 hc1 x0 x1 x2 x3 = newLs x0 x1 k0_pay8 k0_pay9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_A_2_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) :
    sout0_A_2 c i arg2 harg2 arg3 harg3 arg4 harg4 arg5 harg5 arg6 harg6 arg7 harg7 arg8 harg8 arg9 harg9 arg10 harg10 arg11 harg11 hc0 hc1 x0 x1 x2 x3 = newMt x2 x3 k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_A_3_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x1024 .f32) (x1 : Vec F S128x1024 .f32) (x2 : Vec F S512x2048 .f32) (x3 : Vec F S128x2048 .f32) :
    sout0_A_3 c i arg2 harg2 arg3 harg3 arg4 harg4 arg5 harg5 arg6 harg6 arg7 harg7 arg8 harg8 arg9 harg9 arg10 harg10 arg11 harg11 hc0 hc1 x0 x1 x2 x3 = newLt x2 x3 k0_pay10 k0_pay11 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_C_0_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 = newMs x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_C_1_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 = newLs x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_C_2_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 = newMt x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem sout0_C_3_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 arg11 harg11 hc0 hc1 x0 x1 x2 x3 xs0 xs1 xs2 xs3 = newLt x2 x3 xs2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem out0_C_4_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay6 (newMs x0 x1 xs0) (newLs x0 x1 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

theorem out0_C_5_eq (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S512x2048 .f32) (harg4 : arg4.IsWhole) (arg5 : Memref sig .tc .vmem S128x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x1024 .f32) (x1 : Vec F S128x1024 .f32) (x2 : Vec F S512x2048 .f32) (x3 : Vec F S128x2048 .f32) (xs0 : Vec F S512x1 .f32) (xs1 : Vec F S512x1 .f32) (xs2 : Vec F S512x1 .f32) (xs3 : Vec F S512x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay7 (newMt x2 x3 xs2) (newLt x2 x3 xs2 xs3) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  try sl_unfold_words
  first
    | rw [View.canon_unit_zero hz2]
    | rw [View.canon_cons_unit_zero (S := S512x1) hz2]
  simp only [newMs, newLs, newMt, newLt, View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S128x1024) hz2, View.ld_unit_zero (S := S512x2048) hz2, View.ld_unit_zero (S := S128x2048) hz2, View.ld_unit_zero (S := S512x1) hz2, View.readCov_unit_zero (S := S512x1) _ hz2]

end Cert.KernelIdeal.Pass1

end
-- ==== Proof.Pass1Value.lean ====
/-
  The first pass's value.  The grid has 1000 points; point n works on row block n / 250 and vocabulary chunk
  n % 250.  At each point the four carried columns (the student's running maximum and rescaled sum, the teacher's
  likewise) take, at row r of the block, one step of the specification's running pair over the chunk's 128 logits
  of that row's token; at a row block's first chunk they start from (-∞, 0).  Hence after point n they hold the
  running pair after n % 250 + 1 chunks (by induction on the point); at a last chunk the result windows hold the
  maximum plus the logarithm of the sum, which is the chunked log-sum-exp; and the two result arrays, whose row R
  is written back by point 250 · (R / 512) + 249, end holding the chunked log-sum-exps of the rows of logits.
-/
import proofs.«162734_j6863357739727_1_alg».proof.Proof.Pass1Pieces
import proofs.«162734_j6863357739727_1_alg».proof.Proof.Blocks
import proofs.«162734_j6863357739727_1_alg».proof.Proof.PayIdeal
import proofs.«162734_j6863357739727_1_alg».proof.Proof.SpecSteps
import Idealize.ShloMosaic.Lib.Pipeline.Value
import Idealize.ShloMosaic.Lib.ValueIdx

set_option maxRecDepth 16384

noncomputable section

namespace Cert.KernelIdeal.Pass1V

open Cert.KernelIdeal Cert.KernelIdeal.Gen Cert.KernelIdeal.Pass1 Cert.KernelIdeal.Grid Cert.KernelIdeal.Blocks
open Cert.KernelIdeal.PayIdeal
open Idealize.ShloMosaic Idealize.ShloMosaic.TcCoe Idealize.ShloMosaic.ValueIdx Idealize.SL.Sem
open Idealize.ShloMosaic.Pipeline (Dat)
open Cert.Jsd (running word)

variable (V : (c : Dev nD) → (b : Ref sig .tc) → Buf (Elt Ideal) ((c : Thread nD τ).loc b))

/-! ## The rows of logits, off the arrays as the region finds them -/

/-- The student's logit of token R and word v. -/
def XS0 (c : Dev nD) (R : Fin 2048) (v : Fin 32000) : EReal :=
  Cert.Jsd.logit (fun k : Fin 1024 => V c (Pipeline.arrRef spec0 0) (ix2 R k))
    (fun k : Fin 1024 => V c (Pipeline.arrRef spec0 1) (ix2 v k))

/-- The teacher's logit of token R and word v. -/
def XT0 (c : Dev nD) (R : Fin 2048) (v : Fin 32000) : EReal :=
  Cert.Jsd.logit (fun k : Fin 2048 => V c (Pipeline.arrRef spec0 2) (ix2 R k))
    (fun k : Fin 2048 => V c (Pipeline.arrRef spec0 3) (ix2 v k))

theorem hN : cfg0.N = 1000 := N_0

/-- The array row of row r of the block of point n. -/
def rowOf (n : ℕ) (hn : n < cfg0.N) (r : Fin 512) : Fin 2048 :=
  ⟨512 * (n / 250) + r.val, row_lt n (lt_of_lt_of_eq hn hN) r⟩

/-- The chunk of point n. -/
def chunkOf (n : ℕ) : Fin 250 := ⟨n % 250, Nat.mod_lt _ (by decide)⟩

/-- Within a row block, the point before works on the same rows. -/
theorem rowOf_pred (n : ℕ) (hn : n < cfg0.N) (hn' : n - 1 < cfg0.N) (h0 : ¬n % 250 = 0) (r : Fin 512) :
    rowOf (n - 1) hn' r = rowOf n hn r :=
  Fin.ext (by
    show 512 * ((n - 1) / 250) + r.val = 512 * (n / 250) + r.val
    omega)

/-! ## One step of the running pair over a chunk's logits -/

/-- One step: the new maximum, and the old sum rescaled plus the chunk's shifted exponentials. -/
def stepAt (f : Fin 128 → EReal) (m l : EReal) : EReal × EReal :=
  (max m (⨆ u, f u), l * Ideal.exp (m - max m (⨆ u, f u)) + ∑ u, Ideal.exp (f u - max m (⨆ u, f u)))

/-- The specification's running pair steps by stepAt over the chunk's words. -/
theorem running_step (x : Fin 32000 → EReal) (k : ℕ) (hk : k < 250) :
    running x (k + 1) = stepAt (fun u => x (word ⟨k, hk⟩ u)) (running x k).1 (running x k).2 :=
  Cert.Jsd.running_succ x k hk

/-- The student's stored maximum over blocks x0, x1 and the carried maximum p0, at row r. -/
theorem newMs_apply (x0 : Vec Ideal S512x1024 .f32) (x1 : Vec Ideal S128x1024 .f32) (p0 p1 : Vec Ideal S512x1 .f32)
    (r : Fin 512) :
    newMs (F := Ideal) x0 x1 p0 (ix2 r (0 : Fin 1))
      = (stepAt (fun u => lg x0 x1 r u) (p0 (ix2 r (0 : Fin 1))) (p1 (ix2 r (0 : Fin 1)))).1 :=
  (congrFun (pay2_eq _) _).trans (pay14_apply x0 x1 p0 r)

/-- The student's stored sum, at row r. -/
theorem newLs_apply (x0 : Vec Ideal S512x1024 .f32) (x1 : Vec Ideal S128x1024 .f32) (p0 p1 : Vec Ideal S512x1 .f32)
    (r : Fin 512) :
    newLs (F := Ideal) x0 x1 p0 p1 (ix2 r (0 : Fin 1))
      = (stepAt (fun u => lg x0 x1 r u) (p0 (ix2 r (0 : Fin 1))) (p1 (ix2 r (0 : Fin 1)))).2 :=
  (congrFun (pay1_eq _) _).trans (pay15_apply x0 x1 p0 p1 p0 r)

/-- The teacher's stored maximum, at row r. -/
theorem newMt_apply (x2 : Vec Ideal S512x2048 .f32) (x3 : Vec Ideal S128x2048 .f32) (p2 p3 : Vec Ideal S512x1 .f32)
    (r : Fin 512) :
    newMt (F := Ideal) x2 x3 p2 (ix2 r (0 : Fin 1))
      = (stepAt (fun u => lg x2 x3 r u) (p2 (ix2 r (0 : Fin 1))) (p3 (ix2 r (0 : Fin 1)))).1 := by
  refine (congrFun (pay5_eq _ _) _).trans ((pay3_apply _ p2 r).trans ?_)
  simp only [pay13_apply]
  rfl

/-- The teacher's stored sum, at row r. -/
theorem newLt_apply (x2 : Vec Ideal S512x2048 .f32) (x3 : Vec Ideal S128x2048 .f32) (p2 p3 : Vec Ideal S512x1 .f32)
    (r : Fin 512) :
    newLt (F := Ideal) x2 x3 p2 p3 (ix2 r (0 : Fin 1))
      = (stepAt (fun u => lg x2 x3 r u) (p2 (ix2 r (0 : Fin 1))) (p3 (ix2 r (0 : Fin 1)))).2 := by
  refine (pay4_apply _ p2 p3 p2 r).trans ?_
  simp only [pay13_apply]
  rfl

/-! ## One point -/

/-- The student's logits of the blocks of point t are the logits of the block's rows and the chunk's words. -/
theorem lgS0 (c : Dev nD) (t : Fin cfg0.N) (r : Fin 512) (u : Fin 128) :
    lg (iblk0 V c 0 t : Vec Ideal S512x1024 .f32) (iblk0 V c 1 t : Vec Ideal S128x1024 .f32) r u
      = XS0 V c (rowOf t.val t.isLt r) (word (chunkOf t.val) u) :=
  congrArg₂ Cert.Jsd.logit (funext fun k => iblk0_0_apply V c t r k) (funext fun k => iblk0_1_apply V c t u k)

/-- The teacher's likewise. -/
theorem lgT0 (c : Dev nD) (t : Fin cfg0.N) (r : Fin 512) (u : Fin 128) :
    lg (iblk0 V c 2 t : Vec Ideal S512x2048 .f32) (iblk0 V c 3 t : Vec Ideal S128x2048 .f32) r u
      = XT0 V c (rowOf t.val t.isLt r) (word (chunkOf t.val) u) :=
  congrArg₂ Cert.Jsd.logit (funext fun k => iblk0_2_apply V c t r k) (funext fun k => iblk0_3_apply V c t u k)

/-- The student's two stored columns at point t, from carried columns that hold the running pair after k chunks,
    hold the running pair after k + 1 chunks (k the point's chunk). -/
theorem point_student (c : Dev nD) (t : Fin cfg0.N) (p0 p1 : Vec Ideal S512x1 .f32) (r : Fin 512)
    (k : ℕ) (hk : k < 250) (hkt : t.val % 250 = k)
    (h0 : p0 (ix2 r (0 : Fin 1)) = (running (XS0 V c (rowOf t.val t.isLt r)) k).1)
    (h1 : p1 (ix2 r (0 : Fin 1)) = (running (XS0 V c (rowOf t.val t.isLt r)) k).2) :
    newMs (F := Ideal) (iblk0 V c 0 t) (iblk0 V c 1 t) p0 (ix2 r (0 : Fin 1))
        = (running (XS0 V c (rowOf t.val t.isLt r)) (k + 1)).1
      ∧ newLs (F := Ideal) (iblk0 V c 0 t) (iblk0 V c 1 t) p0 p1 (ix2 r (0 : Fin 1))
        = (running (XS0 V c (rowOf t.val t.isLt r)) (k + 1)).2 := by
  subst hkt
  have hf : (fun u => lg (iblk0 V c 0 t : Vec Ideal S512x1024 .f32) (iblk0 V c 1 t : Vec Ideal S128x1024 .f32) r u)
      = fun u => XS0 V c (rowOf t.val t.isLt r) (word ⟨t.val % 250, hk⟩ u) := funext (lgS0 V c t r)
  rw [running_step _ _ hk, ← h0, ← h1, ← hf]
  exact ⟨newMs_apply _ _ p0 p1 r, newLs_apply _ _ p0 p1 r⟩

/-- The teacher's likewise. -/
theorem point_teacher (c : Dev nD) (t : Fin cfg0.N) (p2 p3 : Vec Ideal S512x1 .f32) (r : Fin 512)
    (k : ℕ) (hk : k < 250) (hkt : t.val % 250 = k)
    (h2 : p2 (ix2 r (0 : Fin 1)) = (running (XT0 V c (rowOf t.val t.isLt r)) k).1)
    (h3 : p3 (ix2 r (0 : Fin 1)) = (running (XT0 V c (rowOf t.val t.isLt r)) k).2) :
    newMt (F := Ideal) (iblk0 V c 2 t) (iblk0 V c 3 t) p2 (ix2 r (0 : Fin 1))
        = (running (XT0 V c (rowOf t.val t.isLt r)) (k + 1)).1
      ∧ newLt (F := Ideal) (iblk0 V c 2 t) (iblk0 V c 3 t) p2 p3 (ix2 r (0 : Fin 1))
        = (running (XT0 V c (rowOf t.val t.isLt r)) (k + 1)).2 := by
  subst hkt
  have hf : (fun u => lg (iblk0 V c 2 t : Vec Ideal S512x2048 .f32) (iblk0 V c 3 t : Vec Ideal S128x2048 .f32) r u)
      = fun u => XT0 V c (rowOf t.val t.isLt r) (word ⟨t.val % 250, hk⟩ u) := funext (lgT0 V c t r)
  rw [running_step _ _ hk, ← h2, ← h3, ← hf]
  exact ⟨newMt_apply _ _ p2 p3 r, newLt_apply _ _ p2 p3 r⟩

/-! ## Every point, by induction -/

/-- The four carried columns after point n, at row r, hold the running pairs of token R after k chunks. -/
def StateAt (c : Dev nD) (n : ℕ) (hn : n < cfg0.N) (R : Fin 2048) (r : Fin 512) (k : ℕ) : Prop :=
  (outsAt0 V c n hn).2.2.1 (ix2 r (0 : Fin 1)) = (running (XS0 V c R) k).1
    ∧ (outsAt0 V c n hn).2.2.2.1 (ix2 r (0 : Fin 1)) = (running (XS0 V c R) k).2
    ∧ (outsAt0 V c n hn).2.2.2.2.1 (ix2 r (0 : Fin 1)) = (running (XT0 V c R) k).1
    ∧ (outsAt0 V c n hn).2.2.2.2.2 (ix2 r (0 : Fin 1)) = (running (XT0 V c R) k).2

/-- At a row block's first chunk: one step from (-∞, 0). -/
theorem st_A (c : Dev nD) (n : ℕ) (hn : n < cfg0.N) (h0 : n % 250 = 0) (r : Fin 512) :
    StateAt V c n hn (rowOf n hn r) r (0 + 1) := by
  have h1 : ¬n % 250 = 249 := by omega
  have e := outsAt0_A V c ⟨n, hn⟩ h0 h1
  dsimp only at e
  unfold StateAt
  rw [e]
  dsimp only
  rw [sout0_A_0_eq, sout0_A_1_eq, sout0_A_2_eq, sout0_A_3_eq]
  obtain ⟨a, b⟩ := point_student V c ⟨n, hn⟩ (k0_pay8 (F := Ideal)) (k0_pay9 (F := Ideal)) r 0 (by decide) h0
    (pay8_apply r) (pay9_apply r)
  obtain ⟨a', b'⟩ := point_teacher V c ⟨n, hn⟩ (k0_pay10 (F := Ideal)) (k0_pay11 (F := Ideal)) r 0 (by decide) h0
    (pay10_apply r) (pay11_apply r)
  exact ⟨a, b, a', b'⟩

/-- At a middle chunk: one step from what the point before left. -/
theorem st_B (c : Dev nD) (n : ℕ) (hn : n < cfg0.N) (h0 : ¬n % 250 = 0) (h1 : ¬n % 250 = 249) (r : Fin 512)
    (ih : StateAt V c (n - 1) (Nat.lt_of_le_of_lt (Nat.sub_le _ _) hn) (rowOf n hn r) r (n % 250)) :
    StateAt V c n hn (rowOf n hn r) r (n % 250 + 1) := by
  obtain ⟨i0, i1, i2, i3⟩ := ih
  have hk : n % 250 < 250 := Nat.mod_lt _ (by decide)
  have e := outsAt0_B V c ⟨n, hn⟩ h0 h1
  dsimp only at e
  unfold StateAt
  rw [e]
  dsimp only
  rw [sout0_B_0_eq, sout0_B_1_eq, sout0_B_2_eq, sout0_B_3_eq]
  obtain ⟨a, b⟩ := point_student V c ⟨n, hn⟩ _ _ r (n % 250) hk rfl i0 i1
  obtain ⟨a', b'⟩ := point_teacher V c ⟨n, hn⟩ _ _ r (n % 250) hk rfl i2 i3
  exact ⟨a, b, a', b'⟩

/-- At a last chunk likewise. -/
theorem st_C (c : Dev nD) (n : ℕ) (hn : n < cfg0.N) (h0 : ¬n % 250 = 0) (h1 : n % 250 = 249) (r : Fin 512)
    (ih : StateAt V c (n - 1) (Nat.lt_of_le_of_lt (Nat.sub_le _ _) hn) (rowOf n hn r) r (n % 250)) :
    StateAt V c n hn (rowOf n hn r) r (n % 250 + 1) := by
  obtain ⟨i0, i1, i2, i3⟩ := ih
  have hk : n % 250 < 250 := Nat.mod_lt _ (by decide)
  have e := outsAt0_C V c ⟨n, hn⟩ h0 h1
  dsimp only at e
  unfold StateAt
  rw [e]
  dsimp only
  rw [sout0_C_0_eq, sout0_C_1_eq, sout0_C_2_eq, sout0_C_3_eq]
  obtain ⟨a, b⟩ := point_student V c ⟨n, hn⟩ _ _ r (n % 250) hk rfl i0 i1
  obtain ⟨a', b'⟩ := point_teacher V c ⟨n, hn⟩ _ _ r (n % 250) hk rfl i2 i3
  exact ⟨a, b, a', b'⟩

/-- After point n the carried columns at row r hold the running pairs after n % 250 + 1 chunks, for the token
    of that row. -/
theorem inv0 (c : Dev nD) : ∀ (n : ℕ) (hn : n < cfg0.N) (r : Fin 512),
    StateAt V c n hn (rowOf n hn r) r (n % 250 + 1) := by
  intro n
  induction n using Nat.strong_induction_on with
  | _ n ih =>
    intro hn r
    by_cases h0 : n % 250 = 0
    · have h := st_A V c n hn h0 r
      rw [h0]
      exact h
    · have hn' : n - 1 < cfg0.N := Nat.lt_of_le_of_lt (Nat.sub_le _ _) hn
      have hprev : StateAt V c (n - 1) hn' (rowOf n hn r) r (n % 250) := by
        have h := ih (n - 1) (by omega) hn' r
        rw [rowOf_pred n hn hn' h0 r, show (n - 1) % 250 + 1 = n % 250 by omega] at h
        exact h
      by_cases h1 : n % 250 = 249
      · exact st_C V c n hn h0 h1 r hprev
      · exact st_B V c n hn h0 h1 r hprev

/-! ## The result arrays -/

/-- At a last chunk the student's result window holds the stored maximum plus the logarithm of the stored sum. -/
theorem out4_C (c : Dev nD) (t : Fin cfg0.N) (h1 : t.val % 250 = 249) (r : Fin 512) :
    (outsAt0 V c t.val t.isLt).1 (ix2 r (0 : Fin 1))
      = (outsAt0 V c t.val t.isLt).2.2.1 (ix2 r (0 : Fin 1))
        + Ideal.log ((outsAt0 V c t.val t.isLt).2.2.2.1 (ix2 r (0 : Fin 1))) := by
  have h0 : ¬t.val % 250 = 0 := by omega
  rw [outsAt0_C V c t h0 h1]
  dsimp only
  rw [out0_C_4_eq, sout0_C_0_eq, sout0_C_1_eq]
  rfl

/-- The teacher's likewise. -/
theorem out5_C (c : Dev nD) (t : Fin cfg0.N) (h1 : t.val % 250 = 249) (r : Fin 512) :
    (outsAt0 V c t.val t.isLt).2.1 (ix2 r (0 : Fin 1))
      = (outsAt0 V c t.val t.isLt).2.2.2.2.1 (ix2 r (0 : Fin 1))
        + Ideal.log ((outsAt0 V c t.val t.isLt).2.2.2.2.2 (ix2 r (0 : Fin 1))) := by
  have h0 : ¬t.val % 250 = 0 := by omega
  rw [outsAt0_C V c t h0 h1]
  dsimp only
  rw [out0_C_5_eq, sout0_C_2_eq, sout0_C_3_eq]
  rfl

/-- The student's result array after the run: row R holds the chunked log-sum-exp of the token's logits. -/
def G4 (c : Dev nD) : S2048x1.Idx → EReal := fun i => Cert.Jsd.lseChunked (XS0 V c (i 0))

/-- The teacher's. -/
def G5 (c : Dev nD) : S2048x1.Idx → EReal := fun i => Cert.Jsd.lseChunked (XT0 V c (i 0))

theorem G4_apply (c : Dev nD) (R : Fin 2048) (q : Fin 1) :
    G4 V c (ix2 R q) = Cert.Jsd.lseChunked (XS0 V c R) := rfl

theorem G5_apply (c : Dev nD) (R : Fin 2048) (q : Fin 1) :
    G5 V c (ix2 R q) = Cert.Jsd.lseChunked (XT0 V c R) := rfl

/-- What a last-chunk point writes back into the student's result array is its block of G4. -/
theorem flushed4_eq (c : Dev nD) (t : Fin cfg0.N) (hf : (cfg0.win 4).flush t = true) :
    (dat0 V c).flushed 4 t = ((cfg0.win 4).blk t).view.read (Elt Ideal) (G4 V c) := by
  have h249 : t.val % 250 = 249 := (flush0_4 t).mp hf
  have hi := idx0_4 t
  show (cfg0.win 4).cut (grid0.coords t) ((dat0 V c).after 4 t) = _
  rw [after0_4]
  funext y
  obtain ⟨r, q, rfl⟩ : ∃ (r : Fin 512) (q : Fin 1), y = ix2 r q := ⟨y 0, y 1, eq_ix2 y⟩
  obtain rfl : q = 0 := Subsingleton.elim _ _
  have hemb : ((cfg0.win 4).blk t).view.emb (ix2 r (0 : Fin 1)) = ix2 (rowOf t.val t.isLt r) (0 : Fin 1) := by
    funext a
    apply Fin.ext
    match a with
    | ⟨0, _⟩ => show win0_4.index t 0 * 512 + 1 * r.val = 512 * (t.val / 250) + r.val; rw [hi.1]; omega
    | ⟨1, _⟩ => show win0_4.index t 1 * 1 + 1 * 0 = 0; rw [hi.2]
  rw [View.read_apply, hemb, G4_apply]
  show (outsAt0 V c t.val t.isLt).1 (ix2 r (0 : Fin 1)) = _
  obtain ⟨s0, s1, -, -⟩ := inv0 V c t.val t.isLt r
  rw [out4_C V c t h249 r, s0, s1, h249]
  rfl

/-- The teacher's likewise. -/
theorem flushed5_eq (c : Dev nD) (t : Fin cfg0.N) (hf : (cfg0.win 5).flush t = true) :
    (dat0 V c).flushed 5 t = ((cfg0.win 5).blk t).view.read (Elt Ideal) (G5 V c) := by
  have h249 : t.val % 250 = 249 := (flush0_5 t).mp hf
  have hi := idx0_5 t
  show (cfg0.win 5).cut (grid0.coords t) ((dat0 V c).after 5 t) = _
  rw [after0_5]
  funext y
  obtain ⟨r, q, rfl⟩ : ∃ (r : Fin 512) (q : Fin 1), y = ix2 r q := ⟨y 0, y 1, eq_ix2 y⟩
  obtain rfl : q = 0 := Subsingleton.elim _ _
  have hemb : ((cfg0.win 5).blk t).view.emb (ix2 r (0 : Fin 1)) = ix2 (rowOf t.val t.isLt r) (0 : Fin 1) := by
    funext a
    apply Fin.ext
    match a with
    | ⟨0, _⟩ => show win0_5.index t 0 * 512 + 1 * r.val = 512 * (t.val / 250) + r.val; rw [hi.1]; omega
    | ⟨1, _⟩ => show win0_5.index t 1 * 1 + 1 * 0 = 0; rw [hi.2]
  rw [View.read_apply, hemb, G5_apply]
  show (outsAt0 V c t.val t.isLt).2.1 (ix2 r (0 : Fin 1)) = _
  obtain ⟨-, -, s2, s3⟩ := inv0 V c t.val t.isLt r
  rw [out5_C V c t h249 r, s2, s3, h249]
  rfl

/-- The student's result array ends holding G4. -/
theorem final0_4 (c : Dev nD) : (dat0 V c).arrAt 4 cfg0.N = G4 V c :=
  (dat0 V c).arrAt_eq_of_cover 4 (G4 V c) (flushed4_eq V c) fun i => by
    have h0 : (i 0 : ℕ) < 2048 := (i 0).isLt
    have h1 : (i 1 : ℕ) < 1 := (i 1).isLt
    have ht : 250 * ((i 0 : ℕ) / 512) + 249 < cfg0.N := by rw [hN]; omega
    have hi := idx0_4 ⟨250 * ((i 0 : ℕ) / 512) + 249, ht⟩
    refine ⟨⟨250 * ((i 0 : ℕ) / 512) + 249, ht⟩, (flush0_4 _).mpr (by
      show (250 * ((i 0 : ℕ) / 512) + 249) % 250 = 249
      omega), ?_⟩
    show i ∈ ((View.whole main_v0_0).slice (win0_4.rect ⟨250 * ((i 0 : ℕ) / 512) + 249, ht⟩)).set
    rw [View.set_slice_whole, Rect.mem_set_unit]
    intro a
    match a with
    | ⟨0, _⟩ =>
      show win0_4.index ⟨250 * ((i 0 : ℕ) / 512) + 249, ht⟩ 0 * 512 ≤ (i 0 : ℕ)
        ∧ (i 0 : ℕ) < win0_4.index ⟨250 * ((i 0 : ℕ) / 512) + 249, ht⟩ 0 * 512 + 512
      rw [hi.1]
      show (250 * ((i 0 : ℕ) / 512) + 249) / 250 * 512 ≤ (i 0 : ℕ)
        ∧ (i 0 : ℕ) < (250 * ((i 0 : ℕ) / 512) + 249) / 250 * 512 + 512
      omega
    | ⟨1, _⟩ =>
      show win0_4.index ⟨250 * ((i 0 : ℕ) / 512) + 249, ht⟩ 1 * 1 ≤ (i 1 : ℕ)
        ∧ (i 1 : ℕ) < win0_4.index ⟨250 * ((i 0 : ℕ) / 512) + 249, ht⟩ 1 * 1 + 1
      rw [hi.2]
      omega

/-- The teacher's result array ends holding G5. -/
theorem final0_5 (c : Dev nD) : (dat0 V c).arrAt 5 cfg0.N = G5 V c :=
  (dat0 V c).arrAt_eq_of_cover 5 (G5 V c) (flushed5_eq V c) fun i => by
    have h0 : (i 0 : ℕ) < 2048 := (i 0).isLt
    have h1 : (i 1 : ℕ) < 1 := (i 1).isLt
    have ht : 250 * ((i 0 : ℕ) / 512) + 249 < cfg0.N := by rw [hN]; omega
    have hi := idx0_5 ⟨250 * ((i 0 : ℕ) / 512) + 249, ht⟩
    refine ⟨⟨250 * ((i 0 : ℕ) / 512) + 249, ht⟩, (flush0_5 _).mpr (by
      show (250 * ((i 0 : ℕ) / 512) + 249) % 250 = 249
      omega), ?_⟩
    show i ∈ ((View.whole main_v0_1).slice (win0_5.rect ⟨250 * ((i 0 : ℕ) / 512) + 249, ht⟩)).set
    rw [View.set_slice_whole, Rect.mem_set_unit]
    intro a
    match a with
    | ⟨0, _⟩ =>
      show win0_5.index ⟨250 * ((i 0 : ℕ) / 512) + 249, ht⟩ 0 * 512 ≤ (i 0 : ℕ)
        ∧ (i 0 : ℕ) < win0_5.index ⟨250 * ((i 0 : ℕ) / 512) + 249, ht⟩ 0 * 512 + 512
      rw [hi.1]
      show (250 * ((i 0 : ℕ) / 512) + 249) / 250 * 512 ≤ (i 0 : ℕ)
        ∧ (i 0 : ℕ) < (250 * ((i 0 : ℕ) / 512) + 249) / 250 * 512 + 512
      omega
    | ⟨1, _⟩ =>
      show win0_5.index ⟨250 * ((i 0 : ℕ) / 512) + 249, ht⟩ 1 * 1 ≤ (i 1 : ℕ)
        ∧ (i 1 : ℕ) < win0_5.index ⟨250 * ((i 0 : ℕ) / 512) + 249, ht⟩ 1 * 1 + 1
      rw [hi.2]
      omega

end Cert.KernelIdeal.Pass1V

end
-- ==== Proof.LibOnlineSoftmax.lean ====
/-
  Online softmax, as mathematics on the extended reals.

  A softmax-weighted sum  Σₜ exp(sₜ - max s) · vₜ / Σᵤ exp(sᵤ - max s)  can be accumulated block by block:
  keep a running maximum m, a running denominator l and a running numerator acc, and when a new block arrives
  rescale the old l and acc by exp(m_old - m_new). This file states what such a state MEANS (Summarises), that
  the empty state (-∞, 0, 0) means the empty set, that one block step keeps the meaning, and that dividing
  the final numerator by the final denominator is the one-shot formula with the exponentials divided by their
  sum entry by entry.

  The exponential and the quotient are the exact operations on [-∞, +∞]: exp(-∞) = 0, and a quotient by a
  nonzero real is the product with its reciprocal. Everything is stated with finite sums over an arbitrary
  index type.
-/
import Idealize.ShloMosaic.PureOps.Ideal
import Idealize.ShloMosaic.PureOps.Ideal.Laws

noncomputable section

namespace Cert.LibOnlineSoftmax

open Idealize.ShloMosaic
open scoped BigOperators

variable {ι : Type*} [DecidableEq ι]

/-! ## Coercions of finite sums, maxima and exponentials -/

/-- The coercion of a finite sum of reals is the sum of the coercions. -/
theorem coe_sum (S : Finset ι) (f : ι → ℝ) :
    ((∑ t ∈ S, f t : ℝ) : EReal) = ∑ t ∈ S, (f t : EReal) := by
  induction S using Finset.induction_on with
  | empty => simp
  | insert a S ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- Over a nonempty finite set, the supremum in [-∞, +∞] of real scores is the coercion of their (real) maximum. -/
theorem sup_coe {S : Finset ι} (hS : S.Nonempty) (s : ι → ℝ) :
    S.sup (fun t => (s t : EReal)) = ((S.sup' hS s : ℝ) : EReal) := by
  rw [← Finset.sup'_eq_sup hS]
  exact (Finset.comp_sup'_eq_sup'_comp hS (fun x : ℝ => (x : EReal)) coe_max).symm

/-- The exponential of a difference of two reals, taken in [-∞, +∞], is the coercion of the real exponential. -/
theorem exp_coe_sub (x r : ℝ) : Ideal.exp ((x : EReal) - (r : EReal)) = ((Real.exp (x - r) : ℝ) : EReal) := by
  rw [← EReal.coe_sub, Ideal.exp_coe]

/-- Against a real maximum r, the sum of the exponentials exp(sₜ - r) is the coercion of the real sum. -/
theorem sum_exp_coe (S : Finset ι) (s : ι → ℝ) (r : ℝ) :
    ∑ t ∈ S, Ideal.exp ((s t : EReal) - (r : EReal)) = ((∑ t ∈ S, Real.exp (s t - r) : ℝ) : EReal) := by
  rw [coe_sum]; exact Finset.sum_congr rfl fun t _ => exp_coe_sub (s t) r

/-- Against a real maximum r, the weighted sum of the exponentials exp(sₜ - r) · vₜ is the coercion of the real sum. -/
theorem sum_exp_mul_coe (S : Finset ι) (s v : ι → ℝ) (r : ℝ) :
    ∑ t ∈ S, Ideal.exp ((s t : EReal) - (r : EReal)) * (v t : EReal)
      = ((∑ t ∈ S, Real.exp (s t - r) * v t : ℝ) : EReal) := by
  rw [coe_sum]; exact Finset.sum_congr rfl fun t _ => by rw [exp_coe_sub, EReal.coe_mul]

/-! ## What a running state means -/

/-- The state (m, l, acc) SUMMARISES the finite set S of positions, for scores s and values v: m is the
    supremum of the scores over S (so -∞ when S is empty), l is the sum over S of exp(sₜ - m), and acc is
    the sum over S of exp(sₜ - m) · vₜ. -/
structure Summarises (s v : ι → ℝ) (S : Finset ι) (m l acc : EReal) : Prop where
  /-- the running maximum -/
  max_eq : m = S.sup (fun t => (s t : EReal))
  /-- the running denominator -/
  den_eq : l = ∑ t ∈ S, Ideal.exp ((s t : EReal) - m)
  /-- the running numerator -/
  num_eq : acc = ∑ t ∈ S, Ideal.exp ((s t : EReal) - m) * (v t : EReal)

/-- The initial state (-∞, 0, 0) summarises the empty set. -/
theorem summarises_empty (s v : ι → ℝ) : Summarises s v ∅ ⊥ 0 0 :=
  ⟨by rw [Finset.sup_empty], by rw [Finset.sum_empty], by rw [Finset.sum_empty]⟩

/-- A state that summarises the empty set is the initial state (-∞, 0, 0). -/
theorem Summarises.of_empty {s v : ι → ℝ} {m l acc : EReal} (h : Summarises s v ∅ m l acc) :
    m = ⊥ ∧ l = 0 ∧ acc = 0 :=
  ⟨by rw [h.max_eq, Finset.sup_empty], by rw [h.den_eq, Finset.sum_empty], by rw [h.num_eq, Finset.sum_empty]⟩

/-- A sum of real exponentials over a nonempty finite set is positive. -/
theorem sum_exp_pos {S : Finset ι} (hS : S.Nonempty) (f : ι → ℝ) : 0 < ∑ t ∈ S, Real.exp (f t) :=
  Finset.sum_pos (fun t _ => Real.exp_pos (f t)) hS

/-- A state that summarises a NONEMPTY set consists of real numbers: with r the (real) maximum of the scores
    over S, m is r, l is the real sum of exp(sₜ - r), acc the real sum of exp(sₜ - r) · vₜ, and l is positive. -/
theorem Summarises.real_form {s v : ι → ℝ} {S : Finset ι} {m l acc : EReal} (h : Summarises s v S m l acc)
    (hS : S.Nonempty) :
    m = ((S.sup' hS s : ℝ) : EReal)
    ∧ l = ((∑ t ∈ S, Real.exp (s t - S.sup' hS s) : ℝ) : EReal)
    ∧ acc = ((∑ t ∈ S, Real.exp (s t - S.sup' hS s) * v t : ℝ) : EReal)
    ∧ 0 < ∑ t ∈ S, Real.exp (s t - S.sup' hS s) := by
  have hm : m = ((S.sup' hS s : ℝ) : EReal) := h.max_eq.trans (sup_coe hS s)
  refine ⟨hm, ?_, ?_, sum_exp_pos hS _⟩
  · rw [h.den_eq, hm, sum_exp_coe]
  · rw [h.num_eq, hm, sum_exp_mul_coe]

/-- For a nonempty set the three components are coercions of reals, and the denominator of a positive real. -/
theorem Summarises.exists_real {s v : ι → ℝ} {S : Finset ι} {m l acc : EReal} (h : Summarises s v S m l acc)
    (hS : S.Nonempty) : ∃ rm rl racc : ℝ, m = (rm : EReal) ∧ l = (rl : EReal) ∧ acc = (racc : EReal) ∧ 0 < rl :=
  let ⟨h1, h2, h3, h4⟩ := h.real_form hS
  ⟨_, _, _, h1, h2, h3, h4⟩

/-- For a nonempty set the running denominator is neither zero nor infinite; in particular it is positive. -/
theorem Summarises.den_pos {s v : ι → ℝ} {S : Finset ι} {m l acc : EReal} (h : Summarises s v S m l acc)
    (hS : S.Nonempty) : 0 < l := by
  obtain ⟨_, h2, _, h4⟩ := h.real_form hS
  rw [h2]; exact EReal.coe_pos.2 h4

/-! ## The block step -/

/-- The real-number core of the rescaling: exp(m - M) · Σₜ exp(sₜ - m) · wₜ = Σₜ exp(sₜ - M) · wₜ, for any
    reals m and M (the law exp(x - M) = exp(m - M) · exp(x - m), distributed over the sum). -/
theorem rescale_real (S : Finset ι) (s w : ι → ℝ) (m M : ℝ) :
    Real.exp (m - M) * ∑ t ∈ S, Real.exp (s t - m) * w t = ∑ t ∈ S, Real.exp (s t - M) * w t := by
  rw [Finset.mul_sum]
  refine Finset.sum_congr rfl fun t _ => ?_
  rw [← mul_assoc, ← Real.exp_add]
  congr 2; ring

/-- The same core without weights: exp(m - M) · Σₜ exp(sₜ - m) = Σₜ exp(sₜ - M). -/
theorem rescale_real_one (S : Finset ι) (s : ι → ℝ) (m M : ℝ) :
    Real.exp (m - M) * ∑ t ∈ S, Real.exp (s t - m) = ∑ t ∈ S, Real.exp (s t - M) := by
  simpa using rescale_real S s (fun _ => 1) m M

/-- The larger of a real and the supremum of real scores over a finite set (possibly empty) is a real. -/
theorem max_coe_sup_real (r : ℝ) (B : Finset ι) (s : ι → ℝ) :
    ∃ R : ℝ, max (r : EReal) (B.sup fun t => (s t : EReal)) = (R : EReal) := by
  rcases B.eq_empty_or_nonempty with rfl | hB
  · exact ⟨r, by rw [Finset.sup_empty]; exact max_eq_left bot_le⟩
  · exact ⟨max r (B.sup' hB s), by rw [sup_coe hB, coe_max]⟩

/-- THE STEP. If (m, l, acc) summarises S and B is a finite set disjoint from S, then with
    M = max m (sup of the scores over B) and a = exp(m - M), the state
    (M, a · l + Σ_{t ∈ B} exp(sₜ - M), a · acc + Σ_{t ∈ B} exp(sₜ - M) · vₜ) summarises S ∪ B.
    (From the initial state: m = -∞, l = acc = 0 and a · 0 = 0. Otherwise every quantity is real and the
    rescaling law applies.) -/
theorem Summarises.step {s v : ι → ℝ} {S B : Finset ι} {m l acc : EReal} (h : Summarises s v S m l acc)
    (hd : Disjoint S B) :
    Summarises s v (S ∪ B)
      (max m (B.sup fun t => (s t : EReal)))
      (Ideal.exp (m - max m (B.sup fun t => (s t : EReal))) * l
        + ∑ t ∈ B, Ideal.exp ((s t : EReal) - max m (B.sup fun t => (s t : EReal))))
      (Ideal.exp (m - max m (B.sup fun t => (s t : EReal))) * acc
        + ∑ t ∈ B, Ideal.exp ((s t : EReal) - max m (B.sup fun t => (s t : EReal))) * (v t : EReal)) := by
  have hM : max m (B.sup fun t => (s t : EReal)) = (S ∪ B).sup (fun t => (s t : EReal)) := by
    rw [Finset.sup_union, h.max_eq]
  refine ⟨hM, ?_, ?_⟩
  · rw [Finset.sum_union hd]; congr 1
    rcases S.eq_empty_or_nonempty with rfl | hS
    · rw [h.of_empty.2.1, mul_zero, Finset.sum_empty]
    · obtain ⟨h1, h2, -, -⟩ := h.real_form hS
      obtain ⟨R, hR⟩ := max_coe_sup_real (S.sup' hS s) B s
      rw [h1, hR, h2, exp_coe_sub, ← EReal.coe_mul, rescale_real_one, sum_exp_coe]
  · rw [Finset.sum_union hd]; congr 1
    rcases S.eq_empty_or_nonempty with rfl | hS
    · rw [h.of_empty.2.2, mul_zero, Finset.sum_empty]
    · obtain ⟨h1, -, h3, -⟩ := h.real_form hS
      obtain ⟨R, hR⟩ := max_coe_sup_real (S.sup' hS s) B s
      rw [h1, hR, h3, exp_coe_sub, ← EReal.coe_mul, rescale_real, sum_exp_mul_coe]

/-- THE STEP, with the new state given by equations (the form a program's let-bindings take). -/
theorem Summarises.step' {s v : ι → ℝ} {S B : Finset ι} {m l acc M a l' acc' : EReal}
    (h : Summarises s v S m l acc) (hd : Disjoint S B)
    (hM : M = max m (B.sup fun t => (s t : EReal))) (ha : a = Ideal.exp (m - M))
    (hl : l' = a * l + ∑ t ∈ B, Ideal.exp ((s t : EReal) - M))
    (hacc : acc' = a * acc + ∑ t ∈ B, Ideal.exp ((s t : EReal) - M) * (v t : EReal)) :
    Summarises s v (S ∪ B) M l' acc' := by
  subst hM ha hl hacc; exact h.step hd

/-! ## The end -/

/-- The quotient of two reals, the divisor nonzero, is the coercion of the real quotient. -/
theorem div_coe_coe (A : ℝ) {L : ℝ} (hL : L ≠ 0) :
    Ideal.div (A : EReal) (L : EReal) = ((A / L : ℝ) : EReal) := by
  rw [Ideal.div_coe hL, ← EReal.coe_mul, mul_one_div]

/-- Real core of the end: dividing a weighted sum by L is weighting the entry-by-entry quotients. -/
theorem sum_mul_div_real (S : Finset ι) (e w : ι → ℝ) (L : ℝ) :
    (∑ t ∈ S, e t * w t) / L = ∑ t ∈ S, e t / L * w t := by
  rw [Finset.sum_div]; exact Finset.sum_congr rfl fun t _ => by ring

/-- Real core: a softmax weight does not depend on the shift subtracted from the scores,
    exp(sₜ - r) / Σᵤ exp(sᵤ - r) = exp(sₜ - m) / Σᵤ exp(sᵤ - m). -/
theorem softmax_shift_real (S : Finset ι) (s : ι → ℝ) (m r : ℝ) (t : ι) :
    Real.exp (s t - r) / ∑ u ∈ S, Real.exp (s u - r) = Real.exp (s t - m) / ∑ u ∈ S, Real.exp (s u - m) := by
  rw [← rescale_real_one S s m r, show s t - r = (m - r) + (s t - m) by ring, Real.exp_add,
    mul_div_mul_left _ _ (Real.exp_pos _).ne']

/-- One softmax weight against a real shift r, over a nonempty set, is the coercion of the real quotient. -/
theorem softmax_weight_coe {S : Finset ι} (hS : S.Nonempty) (s : ι → ℝ) (r : ℝ) (t : ι) :
    Ideal.div (Ideal.exp ((s t : EReal) - (r : EReal))) (∑ u ∈ S, Ideal.exp ((s u : EReal) - (r : EReal)))
      = ((Real.exp (s t - r) / ∑ u ∈ S, Real.exp (s u - r) : ℝ) : EReal) := by
  rw [sum_exp_coe, exp_coe_sub, div_coe_coe _ (sum_exp_pos hS _).ne']

/-- The one-shot formula against a real shift r, over a nonempty set — the exponentials divided by their sum
    entry by entry, then weighted by the values and summed — is the coercion of the same real expression. -/
theorem softmax_sum_coe {S : Finset ι} (hS : S.Nonempty) (s v : ι → ℝ) (r : ℝ) :
    ∑ t ∈ S, Ideal.div (Ideal.exp ((s t : EReal) - (r : EReal)))
        (∑ u ∈ S, Ideal.exp ((s u : EReal) - (r : EReal))) * (v t : EReal)
      = ((∑ t ∈ S, Real.exp (s t - r) / (∑ u ∈ S, Real.exp (s u - r)) * v t : ℝ) : EReal) := by
  rw [coe_sum]
  exact Finset.sum_congr rfl fun t _ => by rw [softmax_weight_coe hS, EReal.coe_mul]

/-- THE END, against any real shift. If (m, l, acc) summarises a nonempty S then acc / l is the one-shot
    softmax-weighted sum computed with ANY real r subtracted from the scores. -/
theorem Summarises.finish_shift {s v : ι → ℝ} {S : Finset ι} {m l acc : EReal} (h : Summarises s v S m l acc)
    (hS : S.Nonempty) (r : ℝ) :
    Ideal.div acc l
      = ∑ t ∈ S, Ideal.div (Ideal.exp ((s t : EReal) - (r : EReal)))
          (∑ u ∈ S, Ideal.exp ((s u : EReal) - (r : EReal))) * (v t : EReal) := by
  obtain ⟨-, h2, h3, h4⟩ := h.real_form hS
  rw [h2, h3, div_coe_coe _ h4.ne', sum_mul_div_real, softmax_sum_coe hS]
  refine congrArg _ (Finset.sum_congr rfl fun t _ => ?_)
  rw [softmax_shift_real S s (S.sup' hS s) r t]

/-- THE END. If (m, l, acc) summarises a nonempty S then acc / l is the reference's one-shot formula: with
    M0 the maximum of the scores taken against -∞, the exponentials exp(sₜ - M0) divided by their sum entry by
    entry, then weighted by the values and summed. -/
theorem Summarises.finish {s v : ι → ℝ} {S : Finset ι} {m l acc : EReal} (h : Summarises s v S m l acc)
    (hS : S.Nonempty) :
    Ideal.div acc l
      = ∑ t ∈ S, Ideal.div (Ideal.exp ((s t : EReal) - max ⊥ (S.sup fun t => (s t : EReal))))
          (∑ u ∈ S, Ideal.exp ((s u : EReal) - max ⊥ (S.sup fun t => (s t : EReal)))) * (v t : EReal) := by
  rw [max_eq_right bot_le, sup_coe hS]; exact h.finish_shift hS _

end Cert.LibOnlineSoftmax

end
-- ==== Proof.JsdMath.lean ====
/-
  The chunked spelling of the per-token value equals the one-shot spelling on rows of real numbers.

  Three facts.  (a) After n ≥ 0 chunks the running pair (m, l) of a real row is the supremum of the words
  seen so far and the sum over them of exp (x w - m): the empty pair (-∞, 0) means the empty set, and one
  chunk step keeps the meaning because exp (a - b) · exp (b - c) = exp (a - c) on the reals.  (b) After all 250
  chunks every word has been seen, so m is the row's maximum M (a real), l is the real L = Σ_w exp (x w - M),
  which is positive, and x v - (M + log L) = (x v - M) - log L as real numbers.  (c) The accumulator after 250
  chunks is the sum of the 250 chunk sums, which is the sum over the whole vocabulary because
  (j, u) ↦ 128 j + u is a bijection of Fin 250 × Fin 128 onto Fin 32000; addition on [-∞, +∞] is commutative
  and associative, so no finiteness is needed for this part.
-/
import proofs.«162734_j6863357739727_1_alg».proof.Proof.Spec
import proofs.«162734_j6863357739727_1_alg».proof.Proof.LibOnlineSoftmax
import Mathlib.Algebra.BigOperators.Fin
import Mathlib.Logic.Equiv.Fin.Basic
import Mathlib.Data.Fintype.BigOperators

noncomputable section

namespace Cert.Jsd

open Idealize.ShloMosaic
open Cert.LibOnlineSoftmax

/-! ## The words seen after n chunks -/

/-- The words of the first n chunks. -/
def seen (n : ℕ) : Finset (Fin 32000) := Finset.univ.filter (fun v => v.val < 128 * n)

/-- The words of chunk j. -/
def chunk (j : Fin 250) : Finset (Fin 32000) := Finset.univ.image (word j)

theorem word_val (j : Fin 250) (u : Fin 128) : (word j u).val = 128 * j.val + u.val := rfl

theorem word_injective (j : Fin 250) : Function.Injective (word j) := by
  intro u u' h
  have h' := congrArg Fin.val h
  rw [word_val, word_val] at h'
  exact Fin.ext (by omega)

theorem mem_chunk (j : Fin 250) (v : Fin 32000) :
    v ∈ chunk j ↔ 128 * j.val ≤ v.val ∧ v.val < 128 * (j.val + 1) := by
  constructor
  · intro h
    obtain ⟨u, -, rfl⟩ := Finset.mem_image.1 h
    rw [word_val]
    have := u.isLt
    omega
  · intro h
    refine Finset.mem_image.2 ⟨⟨v.val - 128 * j.val, by omega⟩, Finset.mem_univ _, Fin.ext ?_⟩
    rw [word_val]
    show 128 * j.val + (v.val - 128 * j.val) = v.val
    omega

theorem seen_zero : seen 0 = ∅ := by
  ext v
  simp [seen]

theorem seen_succ (n : ℕ) (h : n < 250) : seen (n + 1) = seen n ∪ chunk ⟨n, h⟩ := by
  ext v
  simp only [seen, Finset.mem_union, Finset.mem_filter, Finset.mem_univ, true_and, mem_chunk]
  omega

theorem disjoint_seen_chunk (n : ℕ) (h : n < 250) : Disjoint (seen n) (chunk ⟨n, h⟩) := by
  rw [Finset.disjoint_left]
  intro v hv hc
  simp only [seen, Finset.mem_filter, Finset.mem_univ, true_and] at hv
  rw [mem_chunk] at hc
  change 128 * n ≤ v.val ∧ v.val < 128 * (n + 1) at hc
  omega

theorem seen_all : seen 250 = Finset.univ := by
  ext v
  have := v.isLt
  simp only [seen, Finset.mem_filter, Finset.mem_univ, true_and, iff_true]
  omega

/-! ## (a) The running pair summarises the words seen -/

section Row

variable (x : Fin 32000 → EReal) (s : Fin 32000 → ℝ) (hx : ∀ v, x v = (s v : EReal))

include hx

/-- The supremum over a chunk, as a supremum over the chunk's set of words. -/
theorem iSup_chunk (j : Fin 250) :
    (⨆ u, x (word j u)) = (chunk j).sup (fun t => (s t : EReal)) := by
  rw [chunk, Finset.sup_image, ← Finset.sup_univ_eq_iSup]
  exact Finset.sup_congr rfl (fun u _ => hx _)

/-- The sum of shifted exponentials over a chunk, as a sum over the chunk's set of words. -/
theorem sum_chunk (j : Fin 250) (m : EReal) :
    ∑ u, Ideal.exp (x (word j u) - m) = ∑ t ∈ chunk j, Ideal.exp ((s t : EReal) - m) := by
  rw [chunk, Finset.sum_image (fun a _ b _ h => word_injective j h)]
  exact Finset.sum_congr rfl (fun u _ => by rw [hx])

/-- After n ≤ 250 chunks the running pair is the supremum of the words seen and the sum over them of
    the exponentials shifted by that supremum. -/
theorem running_summarises (n : ℕ) (hn : n ≤ 250) :
    Summarises s (fun _ => 0) (seen n) (running x n).1 (running x n).2 0 := by
  induction n with
  | zero =>
    rw [seen_zero]
    exact summarises_empty s _
  | succ n ih =>
    have h : n < 250 := by omega
    have ih' := ih (by omega)
    have hr : running x (n + 1)
        = (max (running x n).1 (⨆ u, x (word ⟨n, h⟩ u)),
            (running x n).2 * Ideal.exp ((running x n).1 - max (running x n).1 (⨆ u, x (word ⟨n, h⟩ u)))
              + ∑ u, Ideal.exp (x (word ⟨n, h⟩ u) - max (running x n).1 (⨆ u, x (word ⟨n, h⟩ u)))) := by
      rw [running, dif_pos h]
    rw [hr, seen_succ n h]
    refine ih'.step' (disjoint_seen_chunk n h) (by rw [iSup_chunk x s hx]) rfl
      (by rw [mul_comm, sum_chunk x s hx]) (by simp)

/-! ## (b) The end of the first pass -/

/-- After all 250 chunks: the running maximum is the row's maximum, a real r; the running sum is the
    real L = Σ_w exp (x w - r), which is positive; and it is the one-shot shifted sum. -/
theorem running_final :
    ∃ r L : ℝ, 0 < L ∧ (running x 250).1 = (r : EReal) ∧ (running x 250).2 = (L : EReal)
      ∧ rowMax x = (r : EReal) ∧ ∑ w, Ideal.exp (x w - rowMax x) = (L : EReal) := by
  have h := running_summarises x s hx 250 le_rfl
  rw [seen_all] at h
  have hS : (Finset.univ : Finset (Fin 32000)).Nonempty := ⟨⟨0, by omega⟩, Finset.mem_univ _⟩
  obtain ⟨h1, h2, -, h4⟩ := h.real_form hS
  have hM : rowMax x = ((Finset.univ.sup' hS s : ℝ) : EReal) := by
    rw [← h1, h.max_eq, rowMax, Finset.sup_univ_eq_iSup]
    exact congrArg iSup (funext hx)
  refine ⟨_, _, h4, h1, h2, hM, ?_⟩
  rw [hM, ← sum_exp_coe]
  exact Finset.sum_congr rfl (fun w _ => by rw [hx])

/-- A word's logit minus the chunked log-sum-exp is its one-shot log-probability. -/
theorem sub_lseChunked (v : Fin 32000) : x v - lseChunked x = logSoftmax x v := by
  obtain ⟨r, L, hL, h1, h2, h3, h4⟩ := running_final x s hx
  have hlog : Ideal.log (L : EReal) = ((Real.log L : ℝ) : EReal) := by
    rw [Ideal.log_coe, if_neg (not_le.2 hL)]
  have hl : lseChunked x = ((r + Real.log L : ℝ) : EReal) := by
    unfold lseChunked
    rw [h1, h2, hlog, EReal.coe_add]
  have hr : logSoftmax x v = ((s v - r - Real.log L : ℝ) : EReal) := by
    unfold logSoftmax
    rw [h4, h3, hx v, hlog, EReal.coe_sub, EReal.coe_sub]
  have e : s v - (r + Real.log L) = s v - r - Real.log L := by ring
  rw [hl, hr, hx v, ← EReal.coe_sub, e]

end Row

/-- The chunked log-sum-exp of a row of real numbers is a real number: the row's maximum plus the
    logarithm of the positive real shifted sum. -/
theorem lseChunked_real (x : Fin 32000 → EReal) (hx : ∀ v, ∃ r : ℝ, x v = (r : EReal)) :
    ∃ r : ℝ, lseChunked x = (r : EReal) := by
  choose s hs using hx
  obtain ⟨r, L, hL, h1, h2, -, -⟩ := running_final x s hs
  refine ⟨r + Real.log L, ?_⟩
  unfold lseChunked
  rw [h1, h2, Ideal.log_coe, if_neg (not_le.2 hL), EReal.coe_add]

/-! ## (c) The accumulator is the sum over the vocabulary -/

/-- The chunk sum at a natural index (zero beyond the last chunk). -/
def chunkSumN (xs xt : Fin 32000 → EReal) (ls lt : EReal) (j : ℕ) : EReal :=
  if h : j < 250 then chunkSum xs xt ls lt ⟨j, h⟩ else 0

/-- The accumulator after n ≤ 250 chunks is the sum of the first n chunk sums. -/
theorem accum_eq_range (xs xt : Fin 32000 → EReal) (ls lt : EReal) (n : ℕ) (hn : n ≤ 250) :
    accum xs xt ls lt n = ∑ j ∈ Finset.range n, chunkSumN xs xt ls lt j := by
  induction n with
  | zero => rw [Finset.sum_range_zero]; rfl
  | succ n ih =>
    have h : n < 250 := by omega
    have ha : accum xs xt ls lt (n + 1) = accum xs xt ls lt n + chunkSum xs xt ls lt ⟨n, h⟩ := by
      rw [accum, dif_pos h]
    rw [Finset.sum_range_succ, ← ih (by omega), ha, chunkSumN, dif_pos h]

/-- Summing chunk by chunk is summing over the vocabulary: (j, u) ↦ 128 j + u is a bijection. -/
theorem sum_chunks (g : Fin 32000 → EReal) :
    ∑ j : Fin 250, ∑ u : Fin 128, g (word j u) = ∑ v, g v := by
  let e : Fin 250 × Fin 128 ≃ Fin 32000 := finProdFinEquiv
  calc ∑ j : Fin 250, ∑ u : Fin 128, g (word j u)
      = ∑ p : Fin 250 × Fin 128, g (word p.1 p.2) :=
        (Fintype.sum_prod_type (fun p : Fin 250 × Fin 128 => g (word p.1 p.2))).symm
    _ = ∑ v, g v := by
        refine Fintype.sum_equiv e _ _ (fun p => congrArg g (Fin.ext ?_))
        show 128 * p.1.val + p.2.val = p.2.val + 128 * p.1.val
        omega

/-! ## The two spellings agree -/

theorem perTokenChunked_eq_oneShot (xs xt : Fin 32000 → EReal)
    (hs : ∀ v, ∃ r : ℝ, xs v = (r : EReal)) (ht : ∀ v, ∃ r : ℝ, xt v = (r : EReal)) :
    perTokenChunked xs xt = perTokenOneShot xs xt := by
  choose ss hss using hs
  choose st hst using ht
  have hj : ∀ j : Fin 250, chunkSumN xs xt (lseChunked xs) (lseChunked xt) j.val
      = ∑ u, cell (logSoftmax xs (word j u)) (logSoftmax xt (word j u)) := by
    intro j
    rw [chunkSumN, dif_pos j.isLt, chunkSum]
    exact Finset.sum_congr rfl fun u _ => by
      rw [sub_lseChunked xs ss hss, sub_lseChunked xt st hst]
  rw [perTokenChunked, accum_eq_range _ _ _ _ 250 le_rfl,
    ← Fin.sum_univ_eq_sum_range (fun j => chunkSumN xs xt (lseChunked xs) (lseChunked xt) j) 250,
    Finset.sum_congr rfl fun j _ => hj j, perTokenOneShot]
  exact sum_chunks (fun v => cell (logSoftmax xs v) (logSoftmax xt v))

end Cert.Jsd

end
-- ==== Proof.KValue.lean ====
/-
  The kernel's result at the ideal instance, as one function of the launch memory.  The first region leaves, in its two
  result arrays, each token's chunked log-sum-exp of its student and teacher logits; the second region reads them as
  its two per-row inputs and leaves each token's chunked Jensen–Shannon value; on real logits the chunked value is the
  one-shot value; and the host operations after the regions are the loss function of that vector and the labels.
-/
import proofs.«162734_j6863357739727_1_alg».proof.Proof.KTail
import proofs.«162734_j6863357739727_1_alg».proof.Proof.Pass1Value
import proofs.«162734_j6863357739727_1_alg».proof.Proof.JsdMath

set_option maxRecDepth 16384

noncomputable section

namespace Cert.KernelIdeal.KValue

open Cert.KernelIdeal Cert.KernelIdeal.Gen Cert.KernelIdeal.Launch Cert.KernelIdeal.Pass1 Cert.KernelIdeal.Pass2
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The first region finds the arguments as launched: no host operation precedes it. -/
theorem XS0_eq (c : Dev nD) (R : Fin 2048) : Pass1V.XS0 (VA m) c R = rowS m c R := by
  funext v
  first
    | rfl
    | (unfold Pass1V.XS0 rowS; rfl)
theorem XT0_eq (c : Dev nD) (R : Fin 2048) : Pass1V.XT0 (VA m) c R = rowT m c R := by
  funext v
  first
    | rfl
    | (unfold Pass1V.XT0 rowT; rfl)

/-- The second region's two per-row inputs are the first region's results: the chunked log-sum-exps. -/
theorem LS_eq (c : Dev nD) (R : Fin 2048) : Pass2V.LS (VB m) c R = Cert.Jsd.lseChunked (rowS m c R) := by
  unfold Pass2V.LS
  rw [show VB m c (Pipeline.arrRef spec1 4) = (dat0 (VA m) c).arrAt 4 cfg0.N from W1_arr m c 4, Pass1V.final0_4]
  show Cert.Jsd.lseChunked (Pass1V.XS0 (VA m) c R) = _
  rw [XS0_eq]
theorem LT_eq (c : Dev nD) (R : Fin 2048) : Pass2V.LT (VB m) c R = Cert.Jsd.lseChunked (rowT m c R) := by
  unfold Pass2V.LT
  rw [show VB m c (Pipeline.arrRef spec1 5) = (dat0 (VA m) c).arrAt 5 cfg0.N from W1_arr m c 5, Pass1V.final0_5]
  show Cert.Jsd.lseChunked (Pass1V.XT0 (VA m) c R) = _
  rw [XT0_eq]

/-- Token `R`'s entry of the second region's result array is its chunked value. -/
theorem perTok (c : Dev nD) (R : Fin 2048) :
    (dat1 (VB m) c).arrAt 6 cfg1.N (ix2 R (0 : Fin 1)) = Cert.Jsd.perTokenChunked (rowS m c R) (rowT m c R) := by
  rw [Pass2V.final1, Pass2V.G_apply]
  unfold Pass2V.acc
  rw [XS_eq, XT_eq, LS_eq, LT_eq]
  rfl

/-- The result both programs end with: the loss of the tokens' one-shot values against the labels. -/
def value (c : Dev nD) : Buf (Elt Ideal) ((c : Thread nD τ).loc main_v11) :=
  Cert.Jsd.lossOf (fun i => Cert.Jsd.perTokenOneShot (rowS m c (i 0)) (rowT m c (i 0))) (m ((c : Thread nD τ).loc main_arg4))

theorem kernel_value [Cert.Pre_finite_inputs.Facts] (hpre : Cert.Pre_KernelIdeal m) (c : Dev nD) : W5 m c (Proc.devRef .tc main_v11) = value m c := by
  rw [tail_eq, W2_labels]
  unfold value
  refine congrArg (fun p => Cert.Jsd.lossOf p (m ((c : Thread nD τ).loc main_arg4))) ?_
  funext i
  obtain ⟨R, rfl⟩ : ∃ R : Fin 2048, i = ix1 R := ⟨i 0, eq_ix1 i⟩
  rw [shapeCast_a1_a_apply, show W2 m c (Proc.devRef .tc main_v1) = (dat1 (VB m) c).arrAt 6 cfg1.N from W2_arr m c 6, perTok]
  exact Cert.Jsd.perTokenChunked_eq_oneShot _ _ (rowS_real m hpre c R) (rowT_real m hpre c R)

/-- Every weakly fair execution of the kernel's program ends with the result at `value` and the arguments unchanged. -/
theorem kernel_run [Cert.Pre_finite_inputs.Facts] (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v11) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v11 (by decide))).trans (kernel_value m hpre c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.KValue

end
-- ==== Proof.RefValue.lean ====
/-
  The reference program read at a token: its per-token value and its loss.

  For a token `t` the reference forms two rows of logits over the 32000-word vocabulary, the student's
  `xs v = ∑ k, x0[t,k] · x1[v,k]` and the teacher's `xt v = ∑ k, x2[t,k] · x3[v,k]` (the division by the
  temperature is a division by one, which changes nothing), takes each row's log-probabilities
  `(x v - max x) - log (∑ w, exp (x w - max x))`, and sums over the vocabulary the Jensen–Shannon integrand at weight
  one half of the student's and the teacher's log-probabilities.  That is the one-shot spelling of the per-token value.

  The steps, for each of the two rows alike.  The inner product is the host's contraction read at an index.  The row
  maximum is the fold of `max` from minus infinity over the vocabulary, then the maximum with minus infinity once more:
  minus infinity is the bottom of the extended reals, a fold of `max` from the bottom over a finite family is the
  family's supremum, and `max ⊥ y = y`.  The sum of shifted exponentials is the host's sum from zero.  The integrand is
  then read operation by operation at the index.

  The loss is the shared tail applied to the per-token vector and the labels: the reference applies exactly the
  operations that tail is spelled with, in the same order.
-/
import proofs.«162734_j6863357739727_1_alg».proof.Proof.RefReadP
import proofs.«162734_j6863357739727_1_alg».proof.Proof.Spec
import proofs.«162734_j6863357739727_1_alg».proof.Proof.Tail
import Idealize.ShloMosaic.PureOps.Ideal.Laws
import Idealize.ShloMosaic.PureOps.Reduce
import Idealize.ShloMosaic.Lib.ValueIdx
import Idealize.ShloMosaic.Lib.IdealHost

noncomputable section

namespace Cert.ReferenceIdeal.RefValue

open Cert.ReferenceIdeal Idealize.ShloMosaic Idealize.ShloMosaic.ValueIdx Idealize.SL.Sem

/-! ## Three facts about the extended reals' operations -/

/-- Dividing by one changes nothing. -/
theorem div_one (x : EReal) : Ideal.div x 1 = x := by
  rw [Ideal.div, if_neg one_ne_zero, inv_one, mul_one]

/-- The word of minus infinity is the bottom of the extended reals. -/
theorem ofBits_negInf : Ideal.ofBits .f32 0xFF800000#32 = ⊥ := by simp [Ideal.ofBits, Ideal.ieee]

/-- The maximum over the vocabulary axis, started from minus infinity, is at token `t` the supremum of row `t`:
    a fold of `max` from the bottom over all 32000 words is their supremum. -/
theorem rowMax_reduce (x : FVec Ideal ⟨2, ![2048, 32000]⟩ .f32)
    (h' : (⟨2, ![2048, 32000]⟩ : Shape).ReducesTo [1] (⟨1, ![2048]⟩ : Shape))
    (hu : 0 < (⟨0, ![]⟩ : Shape).numel) (t : Fin 2048) :
    Host.reduce FloatOps.maximumf x (constant (F := Ideal) (⟨0, ![]⟩ : Shape) .f32 0xFF800000#32) h' hu (ix1 t)
      = ⨆ v : Fin 32000, x (ix2 t v) := by
  have h : (⟨2, ![2048, 32000]⟩ : Shape).Reduces [1] (⟨1, ![2048]⟩ : Shape) := by decide
  rw [Host.reduce_eq_fold_single FloatOps.maximumf x _ h' h hu]
  have hf : (x ∘ h.lift (ix1 t)) = fun k : Fin 32000 => x (ix2 t k) :=
    funext fun k => congrArg x (funext fun c => Fin.ext (by
      match c with
      | ⟨0, _⟩ => rfl
      | ⟨1, _⟩ => rfl))
  rw [hf]
  show Finset.fold (max : EReal → EReal → EReal) (Ideal.ofBits .f32 0xFF800000#32)
    (fun k : Fin 32000 => x (ix2 t k)) Finset.univ = _
  rw [ofBits_negInf]
  exact Finset.sup_univ_eq_iSup _

/-! ## The two rows of logits of a token -/

variable (x0 : (⟨S2048x1024, .f32⟩ : BufTy).Contents (Elt Ideal)) (x1 : (⟨S32000x1024, .f32⟩ : BufTy).Contents (Elt Ideal))
  (x2 : (⟨S2048x2048, .f32⟩ : BufTy).Contents (Elt Ideal)) (x3 : (⟨S32000x2048, .f32⟩ : BufTy).Contents (Elt Ideal))

/-- The student's logits of token `t`: its hidden row against every word's weight row. -/
abbrev rowS (t : Fin 2048) : Fin 32000 → EReal :=
  fun v => Cert.Jsd.logit (fun k : Fin 1024 => x0 (ix2 t k)) (fun k : Fin 1024 => x1 (ix2 v k))

/-- The teacher's logits of token `t`. -/
abbrev rowT (t : Fin 2048) : Fin 32000 → EReal :=
  fun v => Cert.Jsd.logit (fun k : Fin 2048 => x2 (ix2 t k)) (fun k : Fin 2048 => x3 (ix2 v k))

/-! ## The student's side -/

/-- The temperature-scaled student logit at (t, v) is the inner product: the temperature is one. -/
theorem logit_student (t : Fin 2048) (v : Fin 32000) :
    Read.val_main_v2 (F := Ideal) x0 x1 (ix2 t v) = rowS x0 x1 t v := by
  rw [Read.val_main_v2_apply, Read.val_main_v0_apply, Read.val_main_v1_apply, Read.val_main_cst_apply,
    Ideal.hostDivf_def, Ideal.ofBits_def, Ideal.ofBits_one_f32, div_one]
  show _ = ∑ k : Fin 1024, x0 (ix2 t k) * x1 (ix2 v k)
  refine Finset.sum_congr rfl fun k _ => ?_
  have el : Read.lidx_main_v0 (ix2 t v) k = ix2 t k := by
    funext a; match a with | ⟨0, _⟩ => rfl | ⟨1, _⟩ => rfl
  have er : Read.ridx_main_v0 (ix2 t v) k = ix2 v k := by
    funext a; match a with | ⟨0, _⟩ => rfl | ⟨1, _⟩ => rfl
  rw [el, er]

/-- The student's row maximum: the maximum with minus infinity of the fold of maxima from minus infinity. -/
theorem rowMax_student (t : Fin 2048) :
    Read.val_main_call0_v2 (F := Ideal) x0 x1 (ix1 t) = Cert.Jsd.rowMax (rowS x0 x1 t) := by
  rw [Read.val_main_call0_v2_apply, Read.val_main_call0_v1_apply, Read.val_main_call0_cst_0_apply,
    Ideal.maximumf_def, Ideal.ofBits_def, ofBits_negInf, max_bot_left]
  refine (rowMax_reduce (Read.val_main_v2 (F := Ideal) x0 x1) _ _ t).trans ?_
  exact iSup_congr fun v => logit_student x0 x1 t v

/-- The student's shifted logit. -/
theorem shifted_student (t : Fin 2048) (v : Fin 32000) :
    Read.val_main_call0_v5 (F := Ideal) x0 x1 (ix2 t v) = rowS x0 x1 t v - Cert.Jsd.rowMax (rowS x0 x1 t) := by
  have e : Read.idx_main_call0_v3 (Read.idx_main_call0_v4 (ix2 t v)) = ix1 t := by
    funext a; match a with | ⟨0, _⟩ => rfl
  rw [Read.val_main_call0_v5_apply, Read.val_main_call0_v4_apply, Read.val_main_call0_v3_apply, Ideal.subf_def,
    logit_student, e, rowMax_student]

/-- The student's sum of shifted exponentials: the sum from zero over the vocabulary. -/
theorem sumExp_student (t : Fin 2048) :
    Read.val_main_call0_v7 (F := Ideal) x0 x1 (ix1 t)
      = ∑ w, Ideal.exp (rowS x0 x1 t w - Cert.Jsd.rowMax (rowS x0 x1 t)) := by
  rw [Read.val_main_call0_v7_apply, Read.val_main_call0_cst_1_apply, Ideal.ofBits_def, Ideal.ofBits_zero_f32, zero_add]
  refine Finset.sum_congr rfl fun w _ => ?_
  have e : Read.idx_main_call0_v7 (ix1 t) w = ix2 t w := by
    funext a; match a with | ⟨0, _⟩ => rfl | ⟨1, _⟩ => rfl
  rw [e, Read.val_main_call0_v6_apply, Ideal.hostUnary_exp_def, shifted_student]

/-- The student's log-probability at (t, v). -/
theorem logSoftmax_student (t : Fin 2048) (v : Fin 32000) :
    Read.val_main_v6 (F := Ideal) x0 x1 (ix2 t v) = Cert.Jsd.logSoftmax (rowS x0 x1 t) v := by
  have e : Read.idx_main_call0_v8 (Read.idx_main_call0_v10 (ix2 t v)) = ix1 t := by
    funext a; match a with | ⟨0, _⟩ => rfl
  rw [Read.val_main_v6_apply, Read.val_main_call0_v10_apply, Read.val_main_call0_v9_apply, Read.val_main_call0_v8_apply,
    Ideal.subf_def, Ideal.hostUnary_log_def, shifted_student, e, sumExp_student]
  rfl

/-! ## The teacher's side: the same steps over the teacher's arrays -/

/-- The temperature-scaled teacher logit at (t, v) is the inner product. -/
theorem logit_teacher (t : Fin 2048) (v : Fin 32000) :
    Read.val_main_v5 (F := Ideal) x2 x3 (ix2 t v) = rowT x2 x3 t v := by
  rw [Read.val_main_v5_apply, Read.val_main_v3_apply, Read.val_main_v4_apply, Read.val_main_cst_0_apply,
    Ideal.hostDivf_def, Ideal.ofBits_def, Ideal.ofBits_one_f32, div_one]
  show _ = ∑ k : Fin 2048, x2 (ix2 t k) * x3 (ix2 v k)
  refine Finset.sum_congr rfl fun k _ => ?_
  have el : Read.lidx_main_v3 (ix2 t v) k = ix2 t k := by
    funext a; match a with | ⟨0, _⟩ => rfl | ⟨1, _⟩ => rfl
  have er : Read.ridx_main_v3 (ix2 t v) k = ix2 v k := by
    funext a; match a with | ⟨0, _⟩ => rfl | ⟨1, _⟩ => rfl
  rw [el, er]

/-- The teacher's row maximum. -/
theorem rowMax_teacher (t : Fin 2048) :
    Read.val_main_call1_v2 (F := Ideal) x2 x3 (ix1 t) = Cert.Jsd.rowMax (rowT x2 x3 t) := by
  rw [Read.val_main_call1_v2_apply, Read.val_main_call1_v1_apply, Read.val_main_call1_cst_0_apply,
    Ideal.maximumf_def, Ideal.ofBits_def, ofBits_negInf, max_bot_left]
  refine (rowMax_reduce (Read.val_main_v5 (F := Ideal) x2 x3) _ _ t).trans ?_
  exact iSup_congr fun v => logit_teacher x2 x3 t v

/-- The teacher's shifted logit. -/
theorem shifted_teacher (t : Fin 2048) (v : Fin 32000) :
    Read.val_main_call1_v5 (F := Ideal) x2 x3 (ix2 t v) = rowT x2 x3 t v - Cert.Jsd.rowMax (rowT x2 x3 t) := by
  have e : Read.idx_main_call1_v3 (Read.idx_main_call1_v4 (ix2 t v)) = ix1 t := by
    funext a; match a with | ⟨0, _⟩ => rfl
  rw [Read.val_main_call1_v5_apply, Read.val_main_call1_v4_apply, Read.val_main_call1_v3_apply, Ideal.subf_def,
    logit_teacher, e, rowMax_teacher]

/-- The teacher's sum of shifted exponentials. -/
theorem sumExp_teacher (t : Fin 2048) :
    Read.val_main_call1_v7 (F := Ideal) x2 x3 (ix1 t)
      = ∑ w, Ideal.exp (rowT x2 x3 t w - Cert.Jsd.rowMax (rowT x2 x3 t)) := by
  rw [Read.val_main_call1_v7_apply, Read.val_main_call1_cst_1_apply, Ideal.ofBits_def, Ideal.ofBits_zero_f32, zero_add]
  refine Finset.sum_congr rfl fun w _ => ?_
  have e : Read.idx_main_call1_v7 (ix1 t) w = ix2 t w := by
    funext a; match a with | ⟨0, _⟩ => rfl | ⟨1, _⟩ => rfl
  rw [e, Read.val_main_call1_v6_apply, Ideal.hostUnary_exp_def, shifted_teacher]

/-- The teacher's log-probability at (t, v). -/
theorem logSoftmax_teacher (t : Fin 2048) (v : Fin 32000) :
    Read.val_main_v7 (F := Ideal) x2 x3 (ix2 t v) = Cert.Jsd.logSoftmax (rowT x2 x3 t) v := by
  have e : Read.idx_main_call1_v8 (Read.idx_main_call1_v10 (ix2 t v)) = ix1 t := by
    funext a; match a with | ⟨0, _⟩ => rfl
  rw [Read.val_main_v7_apply, Read.val_main_call1_v10_apply, Read.val_main_call1_v9_apply, Read.val_main_call1_v8_apply,
    Ideal.subf_def, Ideal.hostUnary_log_def, shifted_teacher, e, sumExp_teacher]
  rfl

/-! ## The integrand and the per-token value -/

/-- At every index the summand is the integrand at the student's and the teacher's log-probabilities there:
    with p = exp lp, q = exp lq and h one half, (h p) (lp - log (h p + h q)) + (h q) (lq - log (h p + h q)). -/
theorem cell_read (i : S2048x32000.Idx) :
    Read.val_main_v24 (F := Ideal) x0 x1 x2 x3 i
      = Cert.Jsd.cell (Read.val_main_v6 (F := Ideal) x0 x1 i) (Read.val_main_v7 (F := Ideal) x2 x3 i) := by
  rw [Read.val_main_v24_apply, Read.val_main_v19_apply, Read.val_main_v23_apply, Read.val_main_v17_apply,
    Read.val_main_v18_apply, Read.val_main_v21_apply, Read.val_main_v22_apply, Read.val_main_v15_apply,
    Read.val_main_v14_apply, Read.val_main_v11_apply, Read.val_main_v13_apply, Read.val_main_v9_apply,
    Read.val_main_v8_apply, Read.val_main_v16_apply, Read.val_main_v20_apply, Read.val_main_v10_apply,
    Read.val_main_v12_apply, Read.val_main_cst_1_apply, Read.val_main_cst_2_apply, Read.val_main_cst_3_apply,
    Read.val_main_cst_4_apply]
  unfold Cert.Jsd.cell
  simp only [Ideal.addf_def, Ideal.subf_def, Ideal.mulf_def, Ideal.hostUnary_exp_def, Ideal.hostUnary_log_def,
    Ideal.ofBits_def]

/-- The reference's per-token vector at token `t` is the one-shot value of the token's two rows of logits. -/
theorem perToken_eq (t : Fin 2048) :
    Read.val_main_v25 (F := Ideal) x0 x1 x2 x3 (ix1 t)
      = Cert.Jsd.perTokenOneShot
          (fun v => Cert.Jsd.logit (fun k : Fin 1024 => x0 (ix2 t k)) (fun k : Fin 1024 => x1 (ix2 v k)))
          (fun v => Cert.Jsd.logit (fun k : Fin 2048 => x2 (ix2 t k)) (fun k : Fin 2048 => x3 (ix2 v k))) := by
  rw [Read.val_main_v25_apply, Read.val_main_cst_5_apply, Ideal.ofBits_def, Ideal.ofBits_zero_f32, zero_add]
  show _ = ∑ v, Cert.Jsd.cell (Cert.Jsd.logSoftmax (rowS x0 x1 t) v) (Cert.Jsd.logSoftmax (rowT x2 x3 t) v)
  refine Finset.sum_congr rfl fun v _ => ?_
  have e : Read.idx_main_v25 (ix1 t) v = ix2 t v := by
    funext a; match a with | ⟨0, _⟩ => rfl | ⟨1, _⟩ => rfl
  rw [e, cell_read, logSoftmax_student, logSoftmax_teacher]

/-! ## The loss -/

/-- The reference's loss is the shared tail of its per-token vector and the labels: the same operations in the
    same order, so the two sides are one term. -/
theorem loss_eq (x4 : (⟨S2048, .i32⟩ : BufTy).Contents (Elt Ideal)) :
    Read.val_main_v34 (F := Ideal) x0 x1 x2 x3 x4
      = Cert.Jsd.lossOf (Read.val_main_v25 (F := Ideal) x0 x1 x2 x3) x4 := rfl

/-- The reference's loss is the shared tail of the vector of one-shot per-token values: the per-token vector is read at every
    token by `perToken_eq`, an index of a one-axis array being its one coordinate. -/
theorem result_eq (x4 : (⟨S2048, .i32⟩ : BufTy).Contents (Elt Ideal)) :
    Read.val_main_v34 (F := Ideal) x0 x1 x2 x3 x4
      = Cert.Jsd.lossOf
          (fun i => Cert.Jsd.perTokenOneShot
            (fun v : Fin 32000 => Cert.Jsd.logit (fun k : Fin 1024 => x0 (ix2 (i 0 : Fin 2048) k)) (fun k : Fin 1024 => x1 (ix2 v k)))
            (fun v : Fin 32000 => Cert.Jsd.logit (fun k : Fin 2048 => x2 (ix2 (i 0 : Fin 2048) k)) (fun k : Fin 2048 => x3 (ix2 v k))))
          x4 := by
  rw [loss_eq]
  refine congrArg (fun pt => Cert.Jsd.lossOf pt x4) (funext fun i => ?_)
  exact (congrArg (Read.val_main_v25 (F := Ideal) x0 x1 x2 x3) (eq_ix1 i)).trans (perToken_eq x0 x1 x2 x3 (i 0))

end Cert.ReferenceIdeal.RefValue

end
-- ==== Proof.lean ====
/-
  A fused linear + generalised Jensen–Shannon loss (student and teacher logits over a 32000-word vocabulary, weight one
  half, averaged over the tokens whose label is not the ignore index) computed by a kernel in two passes over 250
  vocabulary chunks of 128 words, against the plain reference.

  The kernel's first pass keeps, per token, a running maximum and a running rescaled sum of exponentials of the logits
  and ends with maximum plus logarithm of the sum; its second pass subtracts that log-sum-exp from the logits and
  accumulates the integrand chunk by chunk.  The reference subtracts the row maximum, then the logarithm of the shifted
  sum of exponentials, and sums the integrand over the whole vocabulary.  On real logits the two agree: the running pair
  after the words seen so far is their maximum and their shifted sum of exponentials (exp (a - b) · exp (b - c) =
  exp (a - c)), so the chunked log-probabilities are the one-shot ones, and a sum over the vocabulary is the sum of its
  chunk sums.  The inputs are finite, so every logit (a finite sum of products of reals) is real.  Both programs then
  apply the same masking, summing and averaging to the per-token vector.

  The three frames: each kernel region's body is run once per case of its two conditionals (first chunk, middle chunk,
  last chunk), the carried buffers' contents stated point by point, and the regions and host operations composed in
  order; the reference is its straight line of host operations.
-/
import proofs.«162734_j6863357739727_1_alg».proof.Defs
import proofs.«162734_j6863357739727_1_alg».proof.Proof.Gen.Kernel
import proofs.«162734_j6863357739727_1_alg».proof.Proof.Gen.KernelIdeal
import proofs.«162734_j6863357739727_1_alg».proof.Proof.Gen.ReferenceIdeal
import proofs.«162734_j6863357739727_1_alg».proof.Proof.Gen.Pre_finite_inputs
import proofs.«162734_j6863357739727_1_alg».proof.Proof.BitsLaunch
import proofs.«162734_j6863357739727_1_alg».proof.Proof.KValue
import proofs.«162734_j6863357739727_1_alg».proof.Proof.RefRun
import proofs.«162734_j6863357739727_1_alg».proof.Proof.RefValue
import Idealize.ShloMosaic.Adequacy
import Idealize.ShloMosaic.Init

noncomputable section

namespace Cert.Proof

open Idealize.ShloMosaic Idealize.SL.Sem

/-- The kernel's program, read at words: it runs to the end, faults nowhere, and leaves its arguments unchanged. -/
theorem frame_kernel : Cert.frame_Kernel := fun m ρ _ => Cert.Kernel.Launch.frame (F := Bits) m ρ

/-- The same program read at extended reals. -/
theorem frame_kernelIdeal : Cert.frame_KernelIdeal := fun m ρ _ => Cert.KernelIdeal.Launch.frame (F := Ideal) m ρ

/-- The reference: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the loss of the tokens' one-shot Jensen–Shannon values against the labels: the kernel by
    its two passes (chunked, equal to one-shot on real logits), the reference by its one-shot log-softmax, from
    memories that agree on the five arguments. -/
theorem algebraic : Cert.algebraic_KernelIdeal_ReferenceIdeal := by
  intro m ρ m' ρ' hpre hagree
  refine ⟨fun c => Cert.KernelIdeal.KValue.value m c, Cert.KernelIdeal.KValue.kernel_run m ρ hpre, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
